-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096x16 : Shape := ⟨3, ![8, 4096, 16]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x512 : S_.BroadcastsInDim S2x128x512 (![] : Fin 0 → Fin S2x128x512.rank)
  reducesTo_S2x128x512_S_d0_1_2 : S2x128x512.ReducesTo [0, 1, 2] S_
  bcast_S_S2x512 : S_.BroadcastsInDim S2x512 (![] : Fin 0 → Fin S2x512.rank)
  reducesTo_S2x512_S_d0_1 : S2x512.ReducesTo [0, 1] S_
  bcast_S_S2x512x128 : S_.BroadcastsInDim S2x512x128 (![] : Fin 0 → Fin S2x512x128.rank)
  reducesTo_S2x512x128_S_d0_1_2 : S2x512x128.ReducesTo [0, 1, 2] S_

variable [Facts]

def fn_part6 {F : FTy → Type} [FloatOps F] (main_arg22 : FVec F S2x128 .f32) (main_arg23 : FVec F S2x128 .f32) (main_v98 : IVec S_ 1) (main_v101 : IVec S2x128 1) (main_c_39 : IVec S_ 1) : IVec S_ 1 :=
  let main_v102 : IVec S_ 1 := (fun x v => Host.reduce IntOp.andi x v reducesTo_S2x128_S_d0_1 h_S_) main_v101 main_c_39
  let main_v103 : IVec S_ 1 := andi main_v98 main_v102
  let main_v104 : FVec F S2x128 .f32 := Host.absf main_arg22
  let main_cst_40 : FVec F S_ .f32 := constant S_ .f32 0x7F800000#32
  let main_v105 : FVec F S2x128 .f32 := broadcastInDim S2x128 ![] bcast_S_S2x128 main_cst_40
  let main_v106 : IVec S2x128 1 := cmpf .olt main_v104 main_v105
  let main_c_41 : IVec S_ 1 := constantI S_ 1 1#1
  let main_v107 : IVec S_ 1 := (fun x v => Host.reduce IntOp.andi x v reducesTo_S2x128_S_d0_1 h_S_) main_v106 main_c_41
  let main_v108 : IVec S_ 1 := andi main_v103 main_v107
  let main_v109 : FVec F S2x128 .f32 := Host.absf main_arg23
  let main_cst_42 : FVec F S_ .f32 := constant S_ .f32 0x7F800000#32
  let main_v110 : FVec F S2x128 .f32 := broadcastInDim S2x128 ![] bcast_S_S2x128 main_cst_42
  let main_v111 : IVec S2x128 1 := cmpf .olt main_v109 main_v110
  let main_c_43 : IVec S_ 1 := constantI S_ 1 1#1
  let main_v112 : IVec S_ 1 := (fun x v => Host.reduce IntOp.andi x v reducesTo_S2x128_S_d0_1 h_S_) main_v111 main_c_43
  let main_v113 : IVec S_ 1 := andi main_v108 main_v112
  main_v113

def fn_part5 {F : FTy → Type} [FloatOps F] (main_arg19 : FVec F S2x128 .f32) (main_arg20 : FVec F S2x128 .f32) (main_arg21 : FVec F S2x128 .f32) (main_arg22 : FVec F S2x128 .f32) (main_arg23 : FVec F S2x128 .f32) (main_v83 : IVec S_ 1) (main_v84 : FVec F S2x512x128 .f32) (main_cst_32 : FVec F S_ .f32) : IVec S_ 1 :=
  let main_v85 : FVec F S2x512x128 .f32 := broadcastInDim S2x512x128 ![] bcast_S_S2x512x128 main_cst_32
  let main_v86 : IVec S2x512x128 1 := cmpf .olt main_v84 main_v85
  let main_c_33 : IVec S_ 1 := constantI S_ 1 1#1
  let main_v87 : IVec S_ 1 := (fun x v => Host.reduce IntOp.andi x v reducesTo_S2x512x128_S_d0_1_2 h_S_) main_v86 main_c_33
  let main_v88 : IVec S_ 1 := andi main_v83 main_v87
  let main_v89 : FVec F S2x128 .f32 := Host.absf main_arg19
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2x128 .f32 := Host.absf main_arg20
  let main_cst_36 : FVec F S_ .f32 := constant S_ .f32 0x7F800000#32
  let main_v95 : FVec F S2x128 .f32 := broadcastInDim S2x128 ![] bcast_S_S2x128 main_cst_36
  let main_v96 : IVec S2x128 1 := cmpf .olt main_v94 main_v95
  let main_c_37 : IVec S_ 1 := constantI S_ 1 1#1
  let main_v97 : IVec S_ 1 := (fun x v => Host.reduce IntOp.andi x v reducesTo_S2x128_S_d0_1 h_S_) main_v96 main_c_37
  let main_v98 : IVec S_ 1 := andi main_v93 main_v97
  let main_v99 : FVec F S2x128 .f32 := Host.absf main_arg21
  let main_cst_38 : FVec F S_ .f32 := constant S_ .f32 0x7F800000#32
  let main_v100 : FVec F S2x128 .f32 := broadcastInDim S2x128 ![] bcast_S_S2x128 main_cst_38
  let main_v101 : IVec S2x128 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S2x128 .f32) (main_arg23 : FVec F S2x128 .f32) (main_v63 : IVec S_ 1) (main_v67 : IVec S_ 1) : IVec S_ 1 :=
  let main_v68 : IVec S_ 1 := andi main_v63 main_v67
  let main_v69 : FVec F S2x128 .f32 := Host.absf main_arg15
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2x128x512 .f32 := Host.absf main_arg16
  let main_cst_28 : FVec F S_ .f32 := constant S_ .f32 0x7F800000#32
  let main_v75 : FVec F S2x128x512 .f32 := broadcastInDim S2x128x512 ![] bcast_S_S2x128x512 main_cst_28
  let main_v76 : IVec S2x128x512 1 := cmpf .olt main_v74 main_v75
  let main_c_29 : IVec S_ 1 := constantI S_ 1 1#1
  let main_v77 : IVec S_ 1 := (fun x v => Host.reduce IntOp.andi x v reducesTo_S2x128x512_S_d0_1_2 h_S_) main_v76 main_c_29
  let main_v78 : IVec S_ 1 := andi main_v73 main_v77
  let main_v79 : FVec F S2x512 .f32 := Host.absf main_arg17
  let main_cst_30 : FVec F S_ .f32 := constant S_ .f32 0x7F800000#32
  let main_v80 : FVec F S2x512 .f32 := broadcastInDim S2x512 ![] bcast_S_S2x512 main_cst_30
  let main_v81 : IVec S2x512 1 := cmpf .olt main_v79 main_v80
  let main_c_31 : IVec S_ 1 := constantI S_ 1 1#1
  let main_v82 : IVec S_ 1 := (fun x v => Host.reduce IntOp.andi x v reducesTo_S2x512_S_d0_1 h_S_) main_v81 main_c_31
  let main_v83 : IVec S_ 1 := andi main_v78 main_v82
  let main_v84 : FVec F S2x512x128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S2x128 .f32) (main_arg13 : FVec F S2x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S2x128 .f32) (main_arg23 : FVec F S2x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg13
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128 .f32) (main_arg9 : FVec F S128 .f32) (main_arg10 : FVec F S2x128x128 .f32) (main_arg11 : FVec F S2x128 .f32) (main_arg12 : FVec F S2x128 .f32) (main_arg13 : FVec F S2x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S2x128 .f32) (main_arg23 : FVec F S2x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128x128 .f32 := Host.absf main_arg10
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128 .f32) (main_arg13 : FVec F S2x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S2x128 .f32) (main_arg23 : FVec F S2x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8x4096x128 .f32) (main_arg1 : IVec S8x4096x16 32) (main_arg2 : FVec F S128x512 .f32) (main_arg3 : FVec F S512 .f32) (main_arg4 : FVec F S512x128 .f32) (main_arg5 : FVec F S128 .f32) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128 .f32) (main_arg13 : FVec F S2x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S2x128 .f32) (main_arg23 : FVec F S2x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8x4096x128 : Shape := ⟨3, ![8, 4096, 128]⟩
abbrev S8x4096x16 : Shape := ⟨3, ![8, 4096, 16]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S32768x128 : Shape := ⟨2, ![32768, 128]⟩
abbrev S1024x128 : Shape := ⟨2, ![1024, 128]⟩
abbrev S1024x512 : Shape := ⟨2, ![1024, 512]⟩
abbrev S1x512 : Shape := ⟨2, ![1, 512]⟩
abbrev S1x128 : Shape := ⟨2, ![1, 128]⟩
abbrev S1x128x128 : Shape := ⟨3, ![1, 128, 128]⟩
abbrev S128x128 : Shape := ⟨2, ![128, 128]⟩
abbrev S_ : Shape := ⟨0, ![]⟩
abbrev S8x4096x16x1 : Shape := ⟨4, ![8, 4096, 16, 1]⟩
abbrev S8x4096x16x128 : Shape := ⟨4, ![8, 4096, 16, 128]⟩
abbrev S1x256x128 : Shape := ⟨3, ![1, 256, 128]⟩
abbrev S1x256x16x128 : Shape := ⟨4, ![1, 256, 16, 128]⟩
abbrev S1x256x1x128 : Shape := ⟨4, ![1, 256, 1, 128]⟩
abbrev S1x1x128 : Shape := ⟨3, ![1, 1, 128]⟩
abbrev S1x128x512 : Shape := ⟨3, ![1, 128, 512]⟩
abbrev S1x512x128 : Shape := ⟨3, ![1, 512, 128]⟩

abbrev nBuf : Space → Nat
  | .hbm => 115
  | .vmem => 72
  | .smem => 0
  | _ => 0

abbrev bufTy : (tb : Table) → Fin (tcTables nBuf tb) → BufTy
  | .hbm, ⟨0, _⟩ => ⟨S8x4096x128, .f32⟩
  | .hbm, ⟨1, _⟩ => ⟨S8x4096x16, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x128x128, .f32⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x128, .f32⟩
  | .hbm, ⟨16, _⟩ => ⟨S2x128x512, .f32⟩
  | .hbm, ⟨17, _⟩ => ⟨S2x512, .f32⟩
  | .hbm, ⟨18, _⟩ => ⟨S2x512x128, .f32⟩
  | .hbm, ⟨19, _⟩ => ⟨S2x128, .f32⟩
  | .hbm, ⟨20, _⟩ => ⟨S2x128, .f32⟩
  | .hbm, ⟨21, _⟩ => ⟨S2x128, .f32⟩
  | .hbm, ⟨22, _⟩ => ⟨S2x128, .f32⟩
  | .hbm, ⟨23, _⟩ => ⟨S2x128, .f32⟩
  | .hbm, ⟨24, _⟩ => ⟨S32768x128, .f32⟩
  | .hbm, ⟨25, _⟩ => ⟨S32768x128, .f32⟩
  | .hbm, ⟨26, _⟩ => ⟨S8x4096x128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S32768x128, .f32⟩
  | .hbm, ⟨32, _⟩ => ⟨S32768x128, .f32⟩
  | .hbm, ⟨33, _⟩ => ⟨S8x4096x128, .f32⟩
  | .hbm, ⟨34, _⟩ => ⟨S_, .i32⟩
  | .hbm, ⟨35, _⟩ => ⟨S8x4096x16, .i32⟩
  | .hbm, ⟨36, _⟩ => ⟨S8x4096x16, .i1⟩
  | .hbm, ⟨37, _⟩ => ⟨S_, .i32⟩
  | .hbm, ⟨38, _⟩ => ⟨S8x4096x16, .i32⟩
  | .hbm, ⟨39, _⟩ => ⟨S8x4096x16, .i32⟩
  | .hbm, ⟨40, _⟩ => ⟨S8x4096x16, .i32⟩
  | .hbm, ⟨41, _⟩ => ⟨S8x4096x16x1, .i32⟩
  | .hbm, ⟨42, _⟩ => ⟨S8x4096x16x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S128, .f32⟩
  | .hbm, ⟨51, _⟩ => ⟨S8x4096x128, .f32⟩
  | .hbm, ⟨52, _⟩ => ⟨S1x128x512, .f32⟩
  | .hbm, ⟨53, _⟩ => ⟨S128x512, .f32⟩
  | .hbm, ⟨54, _⟩ => ⟨S1x512, .f32⟩
  | .hbm, ⟨55, _⟩ => ⟨S512, .f32⟩
  | .hbm, ⟨56, _⟩ => ⟨S1x512x128, .f32⟩
  | .hbm, ⟨57, _⟩ => ⟨S512x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S128, .f32⟩
  | .hbm, ⟨68, _⟩ => ⟨S32768x128, .f32⟩
  | .hbm, ⟨69, _⟩ => ⟨S32768x128, .f32⟩
  | .hbm, ⟨70, _⟩ => ⟨S8x4096x128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S32768x128, .f32⟩
  | .hbm, ⟨76, _⟩ => ⟨S32768x128, .f32⟩
  | .hbm, ⟨77, _⟩ => ⟨S8x4096x128, .f32⟩
  | .hbm, ⟨78, _⟩ => ⟨S_, .i32⟩
  | .hbm, ⟨79, _⟩ => ⟨S8x4096x16, .i32⟩
  | .hbm, ⟨80, _⟩ => ⟨S8x4096x16, .i1⟩
  | .hbm, ⟨81, _⟩ => ⟨S_, .i32⟩
  | .hbm, ⟨82, _⟩ => ⟨S8x4096x16, .i32⟩
  | .hbm, ⟨83, _⟩ => ⟨S8x4096x16, .i32⟩
  | .hbm, ⟨84, _⟩ => ⟨S8x4096x16, .i32⟩
  | .hbm, ⟨85, _⟩ => ⟨S8x4096x16x1, .i32⟩
  | .hbm, ⟨86, _⟩ => ⟨S8x4096x16x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S128, .f32⟩
  | .hbm, ⟨95, _⟩ => ⟨S8x4096x128, .f32⟩
  | .hbm, ⟨96, _⟩ => ⟨S1x128x512, .f32⟩
  | .hbm, ⟨97, _⟩ => ⟨S128x512, .f32⟩
  | .hbm, ⟨98, _⟩ => ⟨S1x512, .f32⟩
  | .hbm, ⟨99, _⟩ => ⟨S512, .f32⟩
  | .hbm, ⟨100, _⟩ => ⟨S1x512x128, .f32⟩
  | .hbm, ⟨101, _⟩ => ⟨S512x128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S128, .f32⟩
  | .hbm, ⟨112, _⟩ => ⟨S32768x128, .f32⟩
  | .hbm, ⟨113, _⟩ => ⟨S32768x128, .f32⟩
  | .hbm, ⟨114, _⟩ => ⟨S8x4096x128, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S512, .f32⟩
  | .local _ .vmem, ⟨4, _⟩ => ⟨S512x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S128, .f32⟩
  | .local _ .vmem, ⟨16, _⟩ => ⟨S1024x128, .f32⟩
  | .local _ .vmem, ⟨17, _⟩ => ⟨S1024x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x16x128, .f32⟩
  | .local _ .vmem, ⟨23, _⟩ => ⟨S1x256x16x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S1x256x128, .f32⟩
  | .local _ .vmem, ⟨29, _⟩ => ⟨S1x256x128, .f32⟩
  | .local _ .vmem, ⟨30, _⟩ => ⟨S1024x128, .f32⟩
  | .local _ .vmem, ⟨31, _⟩ => ⟨S1024x128, .f32⟩
  | .local _ .vmem, ⟨32, _⟩ => ⟨S128x512, .f32⟩
  | .local _ .vmem, ⟨33, _⟩ => ⟨S512, .f32⟩
  | .local _ .vmem, ⟨34, _⟩ => ⟨S512x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S128x128, .f32⟩
  | .local _ .vmem, ⟨45, _⟩ => ⟨S128, .f32⟩
  | .local _ .vmem, ⟨46, _⟩ => ⟨S1024x128, .f32⟩
  | .local _ .vmem, ⟨47, _⟩ => ⟨S1024x128, .f32⟩
  | .local _ .vmem, ⟨48, _⟩ => ⟨S1x256x128, .f32⟩
  | .local _ .vmem, ⟨49, _⟩ => ⟨S1x256x128, .f32⟩
  | .local _ .vmem, ⟨50, _⟩ => ⟨S1x256x128, .f32⟩
  | .local _ .vmem, ⟨51, _⟩ => ⟨S1x256x128, .f32⟩
  | .local _ .vmem, ⟨52, _⟩ => ⟨S1x256x16x128, .f32⟩
  | .local _ .vmem, ⟨53, _⟩ => ⟨S1x256x16x128, .f32⟩
  | .local _ .vmem, ⟨54, _⟩ => ⟨S128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S1x256x128, .f32⟩
  | .local _ .vmem, ⟨59, _⟩ => ⟨S1x256x128, .f32⟩
  | .local _ .vmem, ⟨60, _⟩ => ⟨S1024x128, .f32⟩
  | .local _ .vmem, ⟨61, _⟩ => ⟨S1024x128, .f32⟩
  | .local _ .vmem, ⟨62, _⟩ => ⟨S128x512, .f32⟩
  | .local _ .vmem, ⟨63, _⟩ => ⟨S512, .f32⟩
  | .local _ .vmem, ⟨64, _⟩ => ⟨S512x128, .f32⟩
  | .local _ .vmem, ⟨65, _⟩ => ⟨S128, .f32⟩
  | .local _ .vmem, ⟨66, _⟩ => ⟨S128, .f32⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S1024x128, .f32⟩
  | .local _ .vmem, ⟨71, _⟩ => ⟨S1024x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_1 : Ref sig .tc := ⟨.hbm, 78, rfl⟩
abbrev main_v52 : Ref sig .tc := ⟨.hbm, 79, rfl⟩
abbrev main_v53 : Ref sig .tc := ⟨.hbm, 80, rfl⟩
abbrev main_c_2 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg8_0 : Ref sig .tc := ⟨.vmem, 69, rfl⟩
abbrev cc6_stg9_0 : Ref sig .tc := ⟨.vmem, 70, rfl⟩
abbrev cc6_stg9_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem8_0 : DmaSem sig := 69
abbrev cc6_sem9_0 : DmaSem sig := 70
abbrev cc6_sem9_1 : DmaSem sig := 71

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1024x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 16], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x256x16x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x256x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S1024x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  shapeCasts_S8x4096x128_S32768x128 : S8x4096x128.ShapeCasts S32768x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S32768x128_S8x4096x128 : S32768x128.ShapeCasts S8x4096x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  inb_S1x256x128_S1x256x128_0_0_0 : ∀ a, (![0, 0, 0] : Fin 3 → Nat) a + S1x256x128.size a ≤ S1x256x128.size a
  h_S1x256x128 : 0 < S1x256x128.numel
  shapeCasts_S1x256x128_S1x256x128 : S1x256x128.ShapeCasts S1x256x128
  inb_S1x256x16x128_S1x256x16x128_0_0_0_0 : ∀ a, (![0, 0, 0, 0] : Fin 4 → Nat) a + S1x256x16x128.size a ≤ S1x256x16x128.size a
  h_S1x256x16x128 : 0 < S1x256x16x128.numel
  shapeCasts_S1x256x16x128_S1x256x16x128 : S1x256x16x128.ShapeCasts S1x256x16x128
  shapeCasts_S1x256x128_S1x256x1x128 : S1x256x128.ShapeCasts S1x256x1x128
  shapeCasts_S1x256x1x128_S1x256x1x128 : S1x256x1x128.ShapeCasts S1x256x1x128
  broadcasts_S1x256x1x128_S1x256x16x128 : S1x256x1x128.Broadcasts S1x256x16x128
  reduces_S1x256x16x128_S1x256x128 : S1x256x16x128.Reduces [2] S1x256x128
  shapeCasts_S128_S1x1x128 : S128.ShapeCasts S1x1x128
  broadcasts_S1x1x128_S1x256x128 : S1x1x128.Broadcasts S1x256x128
  slices_S2x128x512_S1x128x512_0_0_0 : S2x128x512.Slices ![0, 0, 0] S1x128x512
  shapeCasts_S1x128x512_S128x512 : S1x128x512.ShapeCasts S128x512
  slices_S2x512_S1x512_0_0 : S2x512.Slices ![0, 0] S1x512
  shapeCasts_S1x512_S512 : S1x512.ShapeCasts S512
  slices_S2x512x128_S1x512x128_0_0_0 : S2x512x128.Slices ![0, 0, 0] S1x512x128
  shapeCasts_S1x512x128_S512x128 : S1x512x128.ShapeCasts S512x128
  shapeCasts_S128x512_S128x512 : S128x512.ShapeCasts S128x512
  shapeCasts_S512_S512 : S512.ShapeCasts S512
  shapeCasts_S512x128_S512x128 : S512x128.ShapeCasts S512x128
  slices_S2x128x128_S1x128x128_1_0_0 : S2x128x128.Slices ![1, 0, 0] S1x128x128
  slices_S2x128_S1x128_1_0 : S2x128.Slices ![1, 0] S1x128
  slices_S2x128x512_S1x128x512_1_0_0 : S2x128x512.Slices ![1, 0, 0] S1x128x512
  slices_S2x512_S1x512_1_0 : S2x512.Slices ![1, 0] S1x512
  slices_S2x512x128_S1x512x128_1_0_0 : S2x512x128.Slices ![1, 0, 0] S1x512x128
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  gather_S8x4096x128_S8x4096x16x1_S8x4096x16x128_3_1_0_0_1_3_11128_wf : GatherDims.WF S8x4096x128 S8x4096x16x1 S8x4096x16x128 [3] [1] [0] [1] [0] 3 ![1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S32768x128.size a
  hwx0_9 : ∀ i : grid0.Coords, EltTy.bits .f32 = 32 ∨ (Rect.block (s := S32768x128) S1024x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S32768x128.size a
  hwx1_0 : ∀ i : grid1.Coords, EltTy.bits .f32 = 32 ∨ (Rect.block (s := S32768x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S32768x128.size a
  hwx1_3 : ∀ i : grid1.Coords, EltTy.bits .f32 = 32 ∨ (Rect.block (s := S32768x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x128.size a ≤ S8x4096x128.size a
  hwx2_0 : ∀ i : grid2.Coords, EltTy.bits .f32 = 32 ∨ (Rect.block (s := S8x4096x128) S1x256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x128.size a ≤ S8x4096x128.size a
  hwx2_1 : ∀ i : grid2.Coords, EltTy.bits .f32 = 32 ∨ (Rect.block (s := S8x4096x128) S1x256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x16x128.size a ≤ S8x4096x16x128.size a
  hwx2_2 : ∀ i : grid2.Coords, EltTy.bits .f32 = 32 ∨ (Rect.block (s := S8x4096x16x128) S1x256x16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x128.size a ≤ S8x4096x128.size a
  hwx2_7 : ∀ i : grid2.Coords, EltTy.bits .f32 = 32 ∨ (Rect.block (s := S8x4096x128) S1x256x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S32768x128.size a
  hwx3_0 : ∀ i : grid3.Coords, EltTy.bits .f32 = 32 ∨ (Rect.block (s := S32768x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .f32 = 32 ∨ (Rect.block (s := S128x512) S128x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x128.size a ≤ S32768x128.size a
  hwx3_9 : ∀ i : grid3.Coords, EltTy.bits .f32 = 32 ∨ (Rect.block (s := S32768x128) S1024x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S32768x128.size a
  hwx4_0 : ∀ i : grid4.Coords, EltTy.bits .f32 = 32 ∨ (Rect.block (s := S32768x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S32768x128.size a
  hwx4_3 : ∀ i : grid4.Coords, EltTy.bits .f32 = 32 ∨ (Rect.block (s := S32768x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x128.size a ≤ S8x4096x128.size a
  hwx5_0 : ∀ i : grid5.Coords, EltTy.bits .f32 = 32 ∨ (Rect.block (s := S8x4096x128) S1x256x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x256x128.size a ≤ S8x4096x128.size a
  hwx5_1 : ∀ i : grid5.Coords, EltTy.bits .f32 = 32 ∨ (Rect.block (s := S8x4096x128) S1x256x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x256x16x128.size a ≤ S8x4096x16x128.size a
  hwx5_2 : ∀ i : grid5.Coords, EltTy.bits .f32 = 32 ∨ (Rect.block (s := S8x4096x16x128) S1x256x16x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x256x128.size a ≤ S8x4096x128.size a
  hwx5_7 : ∀ i : grid5.Coords, EltTy.bits .f32 = 32 ∨ (Rect.block (s := S8x4096x128) S1x256x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S32768x128.size a
  hwx6_0 : ∀ i : grid6.Coords, EltTy.bits .f32 = 32 ∨ (Rect.block (s := S32768x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .f32 = 32 ∨ (Rect.block (s := S128x512) S128x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512.size a ≤ S512.size a
  hwx6_2 : ∀ i : grid6.Coords, EltTy.bits .f32 = 32 ∨ (Rect.block (s := S512) S512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128.size a ≤ S128.size a
  hwx6_5 : ∀ i : grid6.Coords, EltTy.bits .f32 = 32 ∨ (Rect.block (s := S128) S128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128.size a ≤ S128.size a
  hwx6_7 : ∀ i : grid6.Coords, EltTy.bits .f32 = 32 ∨ (Rect.block (s := S128) S128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128.size a ≤ S128.size a
  hwx6_8 : ∀ i : grid6.Coords, EltTy.bits .f32 = 32 ∨ (Rect.block (s := S128) S128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1024x128.size a ≤ S32768x128.size a
  hwx6_9 : ∀ i : grid6.Coords, EltTy.bits .f32 = 32 ∨ (Rect.block (s := S32768x128) S1024x128.size (cc6_transform_9 i) (hinb6_9 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S8x4096x128_S8x4096x16x1_S8x4096x16x128_3_1_0_0_1_3_11128 : GatherDims S8x4096x128 S8x4096x16x1 S8x4096x16x128 where
  offsetDims := [3]
  collapsedSliceDims := [1]
  operandBatchingDims := [0]
  startIndicesBatchingDims := [0]
  startIndexMap := [1]
  indexVectorDim := 3
  sliceSizes := ![1, 1, 128]
  wf := gather_S8x4096x128_S8x4096x16x1_S8x4096x16x128_3_1_0_0_1_3_11128_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x256x16x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S1x256x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S512x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v37) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v41) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v43) S1024x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v49) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v44) S1x256x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S1x256x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x256x16x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v60) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v64) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v66) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v67) S1x256x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v84) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S512x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v75) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v77) S128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v79) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v81) S128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v83) S128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v85) S1024x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S8x4096x128 : Shape := ⟨3, ![8, 4096, 128]⟩
abbrev S8x4096x16 : Shape := ⟨3, ![8, 4096, 16]⟩
abbrev S128x512 : Shape := ⟨2, ![128, 512]⟩
abbrev S512 : Shape := ⟨1, ![512]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S8x4096x512 : Shape := ⟨3, ![8, 4096, 512]⟩
abbrev S1x1x512 : Shape := ⟨3, ![1, 1, 512]⟩
abbrev S_ : Shape := ⟨0, ![]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩
abbrev S8x4096x16x1 : Shape := ⟨4, ![8, 4096, 16, 1]⟩
abbrev S8x4096x16x128 : Shape := ⟨4, ![8, 4096, 16, 128]⟩
abbrev S8x4096x1x128 : Shape := ⟨4, ![8, 4096, 1, 128]⟩
abbrev S1x128x512 : Shape := ⟨3, ![1, 128, 512]⟩
abbrev S1x512 : Shape := ⟨2, ![1, 512]⟩
abbrev S1x512x128 : Shape := ⟨3, ![1, 512, 128]⟩

abbrev nBuf : Space → Nat
  | .hbm => 224
  | .vmem => 0
  | .smem => 0
  | _ => 0

abbrev hbmTy0_0 (i : Nat) : BufTy := match i % 128 with
  | 0 => ⟨S8x4096x128, .f32⟩
  | 1 => ⟨S8x4096x16, .i32⟩
  | 2 => ⟨S128x512, .f32⟩
  | 3 => ⟨S512, .f32⟩
  | 4 => ⟨S512x128, .f32⟩
  | 5 => ⟨S128, .f32⟩
  | 6 => ⟨S128, .f32⟩
  | 7 => ⟨S128, .f32⟩
  | 8 => ⟨S128, .f32⟩
  | 9 => ⟨S128, .f32⟩
  | 10 => ⟨S2x128x128, .f32⟩
  | 11 => ⟨S2x128, .f32⟩
  | 12 => ⟨S2x128, .f32⟩
  | 13 => ⟨S2x128, .f32⟩
  | 14 => ⟨S2x128, .f32⟩
  | 15 => ⟨S2x128, .f32⟩
  | 16 => ⟨S2x128x512, .f32⟩
  | 17 => ⟨S2x512, .f32⟩
  | 18 => ⟨S2x512x128, .f32⟩
  | 19 => ⟨S2x128, .f32⟩
  | 20 => ⟨S2x128, .f32⟩
  | 21 => ⟨S2x128, .f32⟩
  | 22 => ⟨S2x128, .f32⟩
  | 23 => ⟨S2x128, .f32⟩
  | 24 => ⟨S8x4096x512, .f32⟩
  | 25 => ⟨S1x1x512, .f32⟩
  | 26 => ⟨S8x4096x512, .f32⟩
  | 27 => ⟨S8x4096x512, .f32⟩
  | 28 => ⟨S_, .f32⟩
  | 29 => ⟨S8x4096x512, .f32⟩
  | 30 => ⟨S8x4096x512, .f32⟩
  | 31 => ⟨S8x4096x128, .f32⟩
  | 32 => ⟨S1x1x128, .f32⟩
  | 33 => ⟨S8x4096x128, .f32⟩
  | 34 => ⟨S8x4096x128, .f32⟩
  | 35 => ⟨S1x1x128, .f32⟩
  | 36 => ⟨S8x4096x128, .f32⟩
  | 37 => ⟨S8x4096x128, .f32⟩
  | 38 => ⟨S_, .f32⟩
  | 39 => ⟨S128, .f32⟩
  | 40 => ⟨S128, .f32⟩
  | 41 => ⟨S128, .f32⟩
  | 42 => ⟨S128, .f32⟩
  | 43 => ⟨S1x1x128, .f32⟩
  | 44 => ⟨S8x4096x128, .f32⟩
  | 45 => ⟨S8x4096x128, .f32⟩
  | 46 => ⟨S1x1x128, .f32⟩
  | 47 => ⟨S8x4096x128, .f32⟩
  | 48 => ⟨S8x4096x128, .f32⟩
  | 49 => ⟨S8x4096x128, .f32⟩
  | 50 => ⟨S1x128x128, .f32⟩
  | 51 => ⟨S128x128, .f32⟩
  | 52 => ⟨S8x4096x128, .f32⟩
  | 53 => ⟨S1x128, .f32⟩
  | 54 => ⟨S128, .f32⟩
  | 55 => ⟨S1x1x128, .f32⟩
  | 56 => ⟨S8x4096x128, .f32⟩
  | 57 => ⟨S8x4096x128, .f32⟩
  | 58 => ⟨S_, .i32⟩
  | 59 => ⟨S8x4096x16, .i32⟩
  | 60 => ⟨S8x4096x16, .i1⟩
  | 61 => ⟨S_, .i32⟩
  | 62 => ⟨S8x4096x16, .i32⟩
  | 63 => ⟨S8x4096x16, .i32⟩
  | 64 => ⟨S8x4096x16, .i32⟩
  | 65 => ⟨S8x4096x16x1, .i32⟩
  | 66 => ⟨S8x4096x16x128, .f32⟩
  | 67 => ⟨S8x4096x1x128, .f32⟩
  | 68 => ⟨S8x4096x16x128, .f32⟩
  | 69 => ⟨S8x4096x16x128, .f32⟩
  | 70 => ⟨S_, .f32⟩
  | 71 => ⟨S8x4096x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x1x128, .f32⟩
  | 81 => ⟨S8x4096x128, .f32⟩
  | 82 => ⟨S8x4096x128, .f32⟩
  | 83 => ⟨S_, .f32⟩
  | 84 => ⟨S128, .f32⟩
  | 85 => ⟨S128, .f32⟩
  | 86 => ⟨S128, .f32⟩
  | 87 => ⟨S128, .f32⟩
  | 88 => ⟨S1x1x128, .f32⟩
  | 89 => ⟨S8x4096x128, .f32⟩
  | 90 => ⟨S8x4096x128, .f32⟩
  | 91 => ⟨S1x1x128, .f32⟩
  | 92 => ⟨S8x4096x128, .f32⟩
  | 93 => ⟨S8x4096x128, .f32⟩
  | 94 => ⟨S8x4096x128, .f32⟩
  | 95 => ⟨S1x128x512, .f32⟩
  | 96 => ⟨S128x512, .f32⟩
  | 97 => ⟨S1x512, .f32⟩
  | 98 => ⟨S512, .f32⟩
  | 99 => ⟨S1x512x128, .f32⟩
  | 100 => ⟨S512x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S8x4096x512, .f32⟩
  | 112 => ⟨S1x1x512, .f32⟩
  | 113 => ⟨S8x4096x512, .f32⟩
  | 114 => ⟨S8x4096x512, .f32⟩
  | 115 => ⟨S_, .f32⟩
  | 116 => ⟨S8x4096x512, .f32⟩
  | 117 => ⟨S8x4096x512, .f32⟩
  | 118 => ⟨S8x4096x128, .f32⟩
  | 119 => ⟨S1x1x128, .f32⟩
  | 120 => ⟨S8x4096x128, .f32⟩
  | 121 => ⟨S8x4096x128, .f32⟩
  | 122 => ⟨S1x1x128, .f32⟩
  | 123 => ⟨S8x4096x128, .f32⟩
  | 124 => ⟨S8x4096x128, .f32⟩
  | 125 => ⟨S_, .f32⟩
  | 126 => ⟨S128, .f32⟩
  | 127 => ⟨S128, .f32⟩
  | _ => ⟨S8x4096x128, .f32⟩

abbrev hbmTy0_1 (i : Nat) : BufTy := match i % 128 with
  | 0 => ⟨S128, .f32⟩
  | 1 => ⟨S128, .f32⟩
  | 2 => ⟨S1x1x128, .f32⟩
  | 3 => ⟨S8x4096x128, .f32⟩
  | 4 => ⟨S8x4096x128, .f32⟩
  | 5 => ⟨S1x1x128, .f32⟩
  | 6 => ⟨S8x4096x128, .f32⟩
  | 7 => ⟨S8x4096x128, .f32⟩
  | 8 => ⟨S8x4096x128, .f32⟩
  | 9 => ⟨S1x128x128, .f32⟩
  | 10 => ⟨S128x128, .f32⟩
  | 11 => ⟨S8x4096x128, .f32⟩
  | 12 => ⟨S1x128, .f32⟩
  | 13 => ⟨S128, .f32⟩
  | 14 => ⟨S1x1x128, .f32⟩
  | 15 => ⟨S8x4096x128, .f32⟩
  | 16 => ⟨S8x4096x128, .f32⟩
  | 17 => ⟨S_, .i32⟩
  | 18 => ⟨S8x4096x16, .i32⟩
  | 19 => ⟨S8x4096x16, .i1⟩
  | 20 => ⟨S_, .i32⟩
  | 21 => ⟨S8x4096x16, .i32⟩
  | 22 => ⟨S8x4096x16, .i32⟩
  | 23 => ⟨S8x4096x16, .i32⟩
  | 24 => ⟨S8x4096x16x1, .i32⟩
  | 25 => ⟨S8x4096x16x128, .f32⟩
  | 26 => ⟨S8x4096x1x128, .f32⟩
  | 27 => ⟨S8x4096x16x128, .f32⟩
  | 28 => ⟨S8x4096x16x128, .f32⟩
  | 29 => ⟨S_, .f32⟩
  | 30 => ⟨S8x4096x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x1x128, .f32⟩
  | 40 => ⟨S8x4096x128, .f32⟩
  | 41 => ⟨S8x4096x128, .f32⟩
  | 42 => ⟨S_, .f32⟩
  | 43 => ⟨S128, .f32⟩
  | 44 => ⟨S128, .f32⟩
  | 45 => ⟨S128, .f32⟩
  | 46 => ⟨S128, .f32⟩
  | 47 => ⟨S1x1x128, .f32⟩
  | 48 => ⟨S8x4096x128, .f32⟩
  | 49 => ⟨S8x4096x128, .f32⟩
  | 50 => ⟨S1x1x128, .f32⟩
  | 51 => ⟨S8x4096x128, .f32⟩
  | 52 => ⟨S8x4096x128, .f32⟩
  | 53 => ⟨S8x4096x128, .f32⟩
  | 54 => ⟨S1x128x512, .f32⟩
  | 55 => ⟨S128x512, .f32⟩
  | 56 => ⟨S1x512, .f32⟩
  | 57 => ⟨S512, .f32⟩
  | 58 => ⟨S1x512x128, .f32⟩
  | 59 => ⟨S512x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S8x4096x512, .f32⟩
  | 71 => ⟨S1x1x512, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S8x4096x128, .f32⟩
  | 78 => ⟨S1x1x128, .f32⟩
  | 79 => ⟨S8x4096x128, .f32⟩
  | 80 => ⟨S8x4096x128, .f32⟩
  | 81 => ⟨S1x1x128, .f32⟩
  | 82 => ⟨S8x4096x128, .f32⟩
  | 83 => ⟨S8x4096x128, .f32⟩
  | 84 => ⟨S_, .f32⟩
  | 85 => ⟨S128, .f32⟩
  | 86 => ⟨S128, .f32⟩
  | 87 => ⟨S128, .f32⟩
  | 88 => ⟨S128, .f32⟩
  | 89 => ⟨S1x1x128, .f32⟩
  | 90 => ⟨S8x4096x128, .f32⟩
  | 91 => ⟨S8x4096x128, .f32⟩
  | 92 => ⟨S1x1x128, .f32⟩
  | 93 => ⟨S8x4096x128, .f32⟩
  | 94 => ⟨S8x4096x128, .f32⟩
  | 95 => ⟨S8x4096x128, .f32⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c : Ref sig .tc := ⟨.hbm, 58, rfl⟩
abbrev main_v31 : Ref sig .tc := ⟨.hbm, 59, rfl⟩
abbrev main_v32 : Ref sig .tc := ⟨.hbm, 60, rfl⟩
abbrev main_c_0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call1_cst : Ref sig .tc := ⟨.hbm, 115, rfl⟩
abbrev main_call1_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_3 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_4 : Ref sig .tc := ⟨.hbm, 145, rfl⟩
abbrev main_v111 : Ref sig .tc := ⟨.hbm, 146, rfl⟩
abbrev main_v112 : Ref sig .tc := ⟨.hbm, 147, rfl⟩
abbrev main_c_5 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_6 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_7 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_call2_cst : Ref sig .tc := ⟨.hbm, 202, rfl⟩
abbrev main_call2_v0 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_8 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S128 : S_.BroadcastsInDim S128 (![] : Fin 0 → Fin S128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x128_S8x4096x1x128_0_1_3 : S8x4096x128.BroadcastsInDim S8x4096x1x128 (![0, 1, 3] : Fin 3 → Fin S8x4096x1x128.rank)
  bcast_S8x4096x1x128_S8x4096x16x128_0_1_2_3 : S8x4096x1x128.BroadcastsInDim S8x4096x16x128 (![0, 1, 2, 3] : Fin 4 → Fin S8x4096x16x128.rank)
  reducesTo_S8x4096x16x128_S8x4096x128_d2 : S8x4096x16x128.ReducesTo [2] S8x4096x128
  h_S_ : 0 < S_.numel
  slices_S2x128x512_S1x128x512_0_0_0 : S2x128x512.Slices ![0, 0, 0] S1x128x512
  shapeCasts_S1x128x512_S128x512 : S1x128x512.ShapeCasts S128x512
  slices_S2x512_S1x512_0_0 : S2x512.Slices ![0, 0] S1x512
  shapeCasts_S1x512_S512 : S1x512.ShapeCasts S512
  slices_S2x512x128_S1x512x128_0_0_0 : S2x512x128.Slices ![0, 0, 0] S1x512x128
  shapeCasts_S1x512x128_S512x128 : S1x512x128.ShapeCasts S512x128
  slices_S2x128x128_S1x128x128_1_0_0 : S2x128x128.Slices ![1, 0, 0] S1x128x128
  slices_S2x128_S1x128_1_0 : S2x128.Slices ![1, 0] S1x128
  slices_S2x128x512_S1x128x512_1_0_0 : S2x128x512.Slices ![1, 0, 0] S1x128x512
  slices_S2x512_S1x512_1_0 : S2x512.Slices ![1, 0] S1x512
  slices_S2x512x128_S1x512x128_1_0_0 : S2x512x128.Slices ![1, 0, 0] S1x512x128
  dot_S8x4096x128_S128x512_S8x4096x512_2_0_01_1_n_n_wf : DotDims.WF S8x4096x128 S128x512 S8x4096x512 [2] [0] [0, 1] [1] [] []
  dot_S8x4096x512_S512x128_S8x4096x128_2_0_01_1_n_n_wf : DotDims.WF S8x4096x512 S512x128 S8x4096x128 [2] [0] [0, 1] [1] [] []
  dot_S8x4096x128_S128x128_S8x4096x128_2_0_01_1_n_n_wf : DotDims.WF S8x4096x128 S128x128 S8x4096x128 [2] [0] [0, 1] [1] [] []
  gather_S8x4096x128_S8x4096x16x1_S8x4096x16x128_3_1_0_0_1_3_11128_wf : GatherDims.WF S8x4096x128 S8x4096x16x1 S8x4096x16x128 [3] [1] [0] [1] [0] 3 ![1, 1, 128]

variable [Facts₀]

def dot_S8x4096x128_S128x512_S8x4096x512_2_0_01_1_n_n : DotDims S8x4096x128 S128x512 S8x4096x512 where
  lhsContracting := [2]
  rhsContracting := [0]
  lhsNonContracting := [0, 1]
  rhsNonContracting := [1]
  lhsBatch := []
  rhsBatch := []
  wf := dot_S8x4096x128_S128x512_S8x4096x512_2_0_01_1_n_n_wf
def dot_S8x4096x512_S512x128_S8x4096x128_2_0_01_1_n_n : DotDims S8x4096x512 S512x128 S8x4096x128 where
  lhsContracting := [2]
  rhsContracting := [0]
  lhsNonContracting := [0, 1]
  rhsNonContracting := [1]
  lhsBatch := []
  rhsBatch := []
  wf := dot_S8x4096x512_S512x128_S8x4096x128_2_0_01_1_n_n_wf
def dot_S8x4096x128_S128x128_S8x4096x128_2_0_01_1_n_n : DotDims S8x4096x128 S128x128 S8x4096x128 where
  lhsContracting := [2]
  rhsContracting := [0]
  lhsNonContracting := [0, 1]
  rhsNonContracting := [1]
  lhsBatch := []
  rhsBatch := []
  wf := dot_S8x4096x128_S128x128_S8x4096x128_2_0_01_1_n_n_wf
def gather_S8x4096x128_S8x4096x16x1_S8x4096x16x128_3_1_0_0_1_3_11128 : GatherDims S8x4096x128 S8x4096x16x1 S8x4096x16x128 where
  offsetDims := [3]
  collapsedSliceDims := [1]
  operandBatchingDims := [0]
  startIndicesBatchingDims := [0]
  startIndexMap := [1]
  indexVectorDim := 3
  sliceSizes := ![1, 1, 128]
  wf := gather_S8x4096x128_S8x4096x16x1_S8x4096x16x128_3_1_0_0_1_3_11128_wf

class Facts : Prop extends Facts₀ where

variable [Facts]
-- ==== Proof.KernelRun.lean ====
/-
  The idealized kernel's run with its final memory named.

  @main is fifteen segments: eight stretches of host operations and, between them, seven kernel regions.  The
  buffer contents at each segment boundary are a fold from the launch memory: a host stretch applies its
  operations, a region replaces its arrays by what its write-backs leave.  Every weakly fair execution
  terminates without a fault, and in the final state every buffer that outlives a region holds the last
  boundary's contents.  In particular the result buffer holds the last boundary's contents at the result, and
  each argument its launch contents.
-/
import proofs.«102175_j61538291417254_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and its final memory holds, at every buffer
    that outlives a region, the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result buffer outlives every region. -/
theorem result_mem : Proc.devRef .tc main_v86 ∈ Pipeline.ucRefs τ sig := mem_uc main_v86 (by decide)

end Cert.KernelIdeal.Named

end
-- ==== Proof.Fold.lean ====
/-
  The arguments of @main through the fold of segment boundaries.

  The kernel program's boundary contents are a fold from the launch memory: a stretch of host operations rewrites
  the buffers its operations write, a region rewrites its windows' arrays.  No host operation writes an argument,
  and the only region that takes arguments as its arrays is the first (the weights of the first feed-forward
  stage, which are inputs there, and inputs are written back as they were read).  So at every boundary an
  argument still holds its launch contents.
-/
import proofs.«102175_j61538291417254_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- An argument of @main: one of the first 24 buffers in HBM. -/
def IsArg (b : Ref sig .tc) : Prop := b.space = .hbm ∧ b.idx.val < 24

instance (b : Ref sig .tc) : Decidable (IsArg b) := by unfold IsArg; infer_instance

/-- An argument that is not an array of the first region: the activations, the neighbour indices, and the
    stacked per-layer weights. -/
def IsLate (b : Ref sig .tc) : Prop := b.space = .hbm ∧ (b.idx.val < 2 ∨ (10 ≤ b.idx.val ∧ b.idx.val < 24))

instance (b : Ref sig .tc) : Decidable (IsLate b) := by unfold IsLate; infer_instance

theorem IsLate.isArg {b : Ref sig .tc} (h : IsLate b) : IsArg b := ⟨h.1, by rcases h.2 with h | h <;> omega⟩

theorem ne_of_isArg {b b' : Ref sig .tc} (h : IsArg b) (h' : ¬ IsArg b') : b ≠ b' := fun e => h' (e ▸ h)

/-- A stretch of host operations keeps a buffer that is an argument: each operation writes one buffer, and it is
    not an argument. -/
macro "host_keeps " ops:ident hb:term : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (ne_of_isArg $hb (by decide))))

theorem kept1 (c : Dev nD) {b : Ref sig .tc} (hb : IsArg b) :
    W1 m ρ c (Proc.devRef .tc b) = m ((c : Thread nD τ).loc b) := by
  refine (?_ : _ = W0 m ρ c (Proc.devRef .tc b)).trans rfl
  host_keeps hostOps0 hb

theorem kept2 (c : Dev nD) {b : Ref sig .tc} (hb : IsLate b) :
    W2 m ρ c (Proc.devRef .tc b) = m ((c : Thread nD τ).loc b) :=
  (W2_of_ne m ρ c b fun w e => (by decide : ∀ w, ¬ IsLate (Pipeline.arrRef spec0 w)) w (e.symm ▸ hb)).trans
    (kept1 m ρ c hb.isArg)

theorem kept3 (c : Dev nD) {b : Ref sig .tc} (hb : IsLate b) :
    W3 m ρ c (Proc.devRef .tc b) = m ((c : Thread nD τ).loc b) := by
  refine (?_ : _ = W2 m ρ c (Proc.devRef .tc b)).trans (kept2 m ρ c hb)
  host_keeps hostOps1 hb.isArg

theorem kept4 (c : Dev nD) {b : Ref sig .tc} (hb : IsLate b) :
    W4 m ρ c (Proc.devRef .tc b) = m ((c : Thread nD τ).loc b) :=
  (W4_of_ne m ρ c b fun w e => (by decide : ∀ w, ¬ IsLate (Pipeline.arrRef spec1 w)) w (e.symm ▸ hb)).trans
    (kept3 m ρ c hb)

theorem kept5 (c : Dev nD) {b : Ref sig .tc} (hb : IsLate b) :
    W5 m ρ c (Proc.devRef .tc b) = m ((c : Thread nD τ).loc b) := by
  refine (?_ : _ = W4 m ρ c (Proc.devRef .tc b)).trans (kept4 m ρ c hb)
  host_keeps hostOps2 hb.isArg

theorem kept6 (c : Dev nD) {b : Ref sig .tc} (hb : IsLate b) :
    W6 m ρ c (Proc.devRef .tc b) = m ((c : Thread nD τ).loc b) :=
  (W6_of_ne m ρ c b fun w e => (by decide : ∀ w, ¬ IsLate (Pipeline.arrRef spec2 w)) w (e.symm ▸ hb)).trans
    (kept5 m ρ c hb)

theorem kept7 (c : Dev nD) {b : Ref sig .tc} (hb : IsLate b) :
    W7 m ρ c (Proc.devRef .tc b) = m ((c : Thread nD τ).loc b) := by
  refine (?_ : _ = W6 m ρ c (Proc.devRef .tc b)).trans (kept6 m ρ c hb)
  host_keeps hostOps3 hb.isArg

theorem kept8 (c : Dev nD) {b : Ref sig .tc} (hb : IsLate b) :
    W8 m ρ c (Proc.devRef .tc b) = m ((c : Thread nD τ).loc b) :=
  (W8_of_ne m ρ c b fun w e => (by decide : ∀ w, ¬ IsLate (Pipeline.arrRef spec3 w)) w (e.symm ▸ hb)).trans
    (kept7 m ρ c hb)

theorem kept9 (c : Dev nD) {b : Ref sig .tc} (hb : IsLate b) :
    W9 m ρ c (Proc.devRef .tc b) = m ((c : Thread nD τ).loc b) := by
  refine (?_ : _ = W8 m ρ c (Proc.devRef .tc b)).trans (kept8 m ρ c hb)
  host_keeps hostOps4 hb.isArg

theorem kept10 (c : Dev nD) {b : Ref sig .tc} (hb : IsLate b) :
    W10 m ρ c (Proc.devRef .tc b) = m ((c : Thread nD τ).loc b) :=
  (W10_of_ne m ρ c b fun w e => (by decide : ∀ w, ¬ IsLate (Pipeline.arrRef spec4 w)) w (e.symm ▸ hb)).trans
    (kept9 m ρ c hb)

theorem kept11 (c : Dev nD) {b : Ref sig .tc} (hb : IsLate b) :
    W11 m ρ c (Proc.devRef .tc b) = m ((c : Thread nD τ).loc b) := by
  refine (?_ : _ = W10 m ρ c (Proc.devRef .tc b)).trans (kept10 m ρ c hb)
  host_keeps hostOps5 hb.isArg

theorem kept12 (c : Dev nD) {b : Ref sig .tc} (hb : IsLate b) :
    W12 m ρ c (Proc.devRef .tc b) = m ((c : Thread nD τ).loc b) :=
  (W12_of_ne m ρ c b fun w e => (by decide : ∀ w, ¬ IsLate (Pipeline.arrRef spec5 w)) w (e.symm ▸ hb)).trans
    (kept11 m ρ c hb)

theorem kept13 (c : Dev nD) {b : Ref sig .tc} (hb : IsLate b) :
    W13 m ρ c (Proc.devRef .tc b) = m ((c : Thread nD τ).loc b) := by
  refine (?_ : _ = W12 m ρ c (Proc.devRef .tc b)).trans (kept12 m ρ c hb)
  host_keeps hostOps6 hb.isArg

theorem kept14 (c : Dev nD) {b : Ref sig .tc} (hb : IsLate b) :
    W14 m ρ c (Proc.devRef .tc b) = m ((c : Thread nD τ).loc b) :=
  (W14_of_ne m ρ c b fun w e => (by decide : ∀ w, ¬ IsLate (Pipeline.arrRef spec6 w)) w (e.symm ▸ hb)).trans
    (kept13 m ρ c hb)

theorem kept15 (c : Dev nD) {b : Ref sig .tc} (hb : IsLate b) :
    W15 m ρ c (Proc.devRef .tc b) = m ((c : Thread nD τ).loc b) := by
  refine (?_ : _ = W14 m ρ c (Proc.devRef .tc b)).trans (kept14 m ρ c hb)
  host_keeps hostOps7 hb.isArg

end Cert.KernelIdeal.Fold

end
-- ==== Proof.Spec.lean ====
/-
  The network both programs compute, written once with no program in sight, on the extended reals.

  One residual block of a point-cloud network on activations of shape [8, 4096, 128]:

    * a feed-forward stage   x + bn (relu (x · W1 + b1) · W2 + b2),
    * then twice: a linear map h = x · W + b, an edge aggregation
        x + bn (max over the 16 neighbours k of (h[nbr k] - h)),
      and another feed-forward stage,

  where bn y = (y - mean) · (gamma · rsqrt (var + eps)) + beta is an inference-mode batch norm per channel and
  eps is the single-precision word nearest 1e-5 read exactly.  Every sum is a finite sum on the extended reals;
  nothing below uses distributivity or cancellation, only the order-free meaning of a finite sum and of a finite
  maximum, so no finiteness hypothesis is needed.

  The stage functions are stated first on scalars and rows (functions of plain `Fin` coordinates), then lifted to
  arrays indexed by literal shapes.  Which neighbour rows are fetched is a parameter `gat`: both programs apply one
  and the same gather to `h` and the index array, so its meaning is never opened.
-/
import Idealize.ShloMosaic.PureOps.Ideal
import Idealize.ShloMosaic.Lib.ValueIdx

noncomputable section

open scoped BigOperators

namespace Cert.Spec

open Idealize.ShloMosaic Idealize.ShloMosaic.ValueIdx

/-! ## Scalars and rows -/

/-- The variance guard of the batch norm: the single-precision word of 1e-5, read exactly. -/
def eps : EReal := Ideal.ofBits .f32 0x3727C5AC#32

/-- The zero the rectifier compares against (the single-precision zero word). -/
def zeroW : EReal := Ideal.ofBits .f32 0x00000000#32

/-- The value a running maximum starts from (the single-precision word of minus infinity). -/
def negInfW : EReal := Ideal.ofBits .f32 0xFF800000#32

/-- Inference-mode batch norm of one value: centre, scale by gamma / sqrt (var + eps), shift. -/
def bn (y g beta mu var : EReal) : EReal := (y - mu) * (g * Ideal.rsqrt (var + eps)) + beta

/-- Channel `c` of the feed-forward stage on one row `x` of 128 channels: the row plus the batch norm of
    relu (x · W1 + b1) · W2 + b2, both products written as sums over the contracted channel. -/
def ffnRow (x : Fin 128 → EReal) (w1 : Fin 128 → Fin 512 → EReal) (b1 : Fin 512 → EReal)
    (w2 : Fin 512 → Fin 128 → EReal) (b2 g beta mu var : Fin 128 → EReal) (c : Fin 128) : EReal :=
  x c + bn ((∑ k : Fin 512, max ((∑ j : Fin 128, x j * w1 j k) + b1 k) zeroW * w2 k c) + b2 c)
    (g c) (beta c) (mu c) (var c)

/-- Channel `c` of the linear map on one row: x · W + b. -/
def linRow (x : Fin 128 → EReal) (w : Fin 128 → Fin 128 → EReal) (b : Fin 128 → EReal) (c : Fin 128) : EReal :=
  (∑ j : Fin 128, x j * w j c) + b c

/-- One channel of the edge aggregation at one point: the largest of the 16 differences neighbour - centre,
    batch-normed, added to the point's own value. -/
def aggPt (x h : EReal) (nb : Fin 16 → EReal) (g beta mu var : EReal) : EReal :=
  x + bn ((Finset.univ : Finset (Fin 16)).fold max negInfW (fun k => nb k - h)) g beta mu var

/-! ## Arrays -/

/-- Activations: batch × points × channels. -/
abbrev Act := (⟨3, ![8, 4096, 128]⟩ : Shape).Idx → EReal
/-- Gathered neighbour features: batch × points × neighbours × channels. -/
abbrev Nbr := (⟨4, ![8, 4096, 16, 128]⟩ : Shape).Idx → EReal
/-- A weight matrix. -/
abbrev Mat (a b : Nat) := (⟨2, ![a, b]⟩ : Shape).Idx → EReal
/-- A per-channel vector. -/
abbrev Vc (a : Nat) := (⟨1, ![a]⟩ : Shape).Idx → EReal

/-- The feed-forward stage on the whole activation array, row by row. -/
def ffnS (X : Act) (w1 : Mat 128 512) (b1 : Vc 512) (w2 : Mat 512 128) (b2 g beta mu var : Vc 128) : Act :=
  fun i => ffnRow (fun j => X (ix3 (i 0) (i 1) j)) (fun j k => w1 (ix2 j k)) (fun k => b1 (ix1 k))
    (fun k c => w2 (ix2 k c)) (fun c => b2 (ix1 c)) (fun c => g (ix1 c)) (fun c => beta (ix1 c))
    (fun c => mu (ix1 c)) (fun c => var (ix1 c)) (i 2)

/-- The linear map on the whole activation array, row by row. -/
def linS (X : Act) (w : Mat 128 128) (b : Vc 128) : Act :=
  fun i => linRow (fun j => X (ix3 (i 0) (i 1) j)) (fun j c => w (ix2 j c)) (fun c => b (ix1 c)) (i 2)

/-- The edge aggregation on whole arrays: `nb` holds, for every point, its 16 neighbours' rows of `h`. -/
def aggS (x h : Act) (nb : Nbr) (g beta mu var : Vc 128) : Act :=
  fun i => aggPt (x i) (h i) (fun k => nb (ix4 (i 0) (i 1) k (i 2)))
    (g (ix1 (i 2))) (beta (ix1 (i 2))) (mu (ix1 (i 2))) (var (ix1 (i 2)))

/-- Layer `l` of a stacked weight array. -/
def sl3 {a b : Nat} (l : Fin 2) (W : (⟨3, ![2, a, b]⟩ : Shape).Idx → EReal) : Mat a b :=
  fun j => W (ix3 l (j 0) (j 1))

/-- Layer `l` of a stacked per-channel array. -/
def sl2 {a : Nat} (l : Fin 2) (W : Mat 2 a) : Vc a := fun j => W (ix2 l (j 0))

/-- One depth step from the activations `a`: linear map, edge aggregation over the gathered rows, feed-forward. -/
def layerS (gat : Act → Nbr) (l : Fin 2) (a : Act)
    (x10 : (⟨3, ![2, 128, 128]⟩ : Shape).Idx → EReal) (x11 x12 x13 x14 x15 : Mat 2 128)
    (x16 : (⟨3, ![2, 128, 512]⟩ : Shape).Idx → EReal) (x17 : Mat 2 512)
    (x18 : (⟨3, ![2, 512, 128]⟩ : Shape).Idx → EReal) (x19 x20 x21 x22 x23 : Mat 2 128) : Act :=
  let h := linS a (sl3 l x10) (sl2 l x11)
  let a' := aggS a h (gat h) (sl2 l x12) (sl2 l x13) (sl2 l x14) (sl2 l x15)
  ffnS a' (sl3 l x16) (sl2 l x17) (sl3 l x18) (sl2 l x19) (sl2 l x20) (sl2 l x21) (sl2 l x22) (sl2 l x23)

/-- The whole network: the first feed-forward stage, then the two depth steps. -/
def netS (gat : Act → Nbr) (x0 : Act) (x2 : Mat 128 512) (x3 : Vc 512) (x4 : Mat 512 128) (x5 x6 x7 x8 x9 : Vc 128)
    (x10 : (⟨3, ![2, 128, 128]⟩ : Shape).Idx → EReal) (x11 x12 x13 x14 x15 : Mat 2 128)
    (x16 : (⟨3, ![2, 128, 512]⟩ : Shape).Idx → EReal) (x17 : Mat 2 512)
    (x18 : (⟨3, ![2, 512, 128]⟩ : Shape).Idx → EReal) (x19 x20 x21 x22 x23 : Mat 2 128) : Act :=
  layerS gat 1 (layerS gat 0 (ffnS x0 x2 x3 x4 x5 x6 x7 x8 x9)
      x10 x11 x12 x13 x14 x15 x16 x17 x18 x19 x20 x21 x22 x23)
    x10 x11 x12 x13 x14 x15 x16 x17 x18 x19 x20 x21 x22 x23

end Cert.Spec

end
-- ==== Proof.Layout.lean ====
/-
  Re-arrangements of the activations and weights, read at an index.

  The kernel flattens the activations [8, 4096, 128] to rows [32768, 128] before each row-tiled stage and
  unflattens the result: row R of the flat array is point (R / 4096, R % 4096).  A stage that acts on each row
  by itself therefore commutes with the flattening.  The per-layer weights are layer `l` of a stacked array: a
  unit-thickness slice at offset `l` with the unit axis dropped.
-/
import Idealize.ShloMosaic.Lib.Pipeline.Value
import Idealize.ShloMosaic.Lib.ValueIdx
import proofs.«102175_j61538291417254_1_alg».proof.Proof.Spec

noncomputable section

open scoped BigOperators

namespace Cert.Layout

open Idealize.ShloMosaic Idealize.ShloMosaic.ValueIdx Cert.Spec

/-- The flat rows × channels shape. -/
abbrev Rows := (⟨2, ![32768, 128]⟩ : Shape).Idx → EReal

/-- The flat row of point `n` of batch `b`. -/
def rowOf (b : Fin 8) (n : Fin 4096) : Fin 32768 := ⟨b.val * 4096 + n.val, by omega⟩
/-- The batch a flat row belongs to. -/
def batchOf (R : Fin 32768) : Fin 8 := ⟨R.val / 4096, by omega⟩
/-- The point a flat row is, within its batch. -/
def pointOf (R : Fin 32768) : Fin 4096 := ⟨R.val % 4096, by omega⟩

theorem batchOf_rowOf (b : Fin 8) (n : Fin 4096) : batchOf (rowOf b n) = b := by
  apply Fin.ext; show (b.val * 4096 + n.val) / 4096 = b.val; omega
theorem pointOf_rowOf (b : Fin 8) (n : Fin 4096) : pointOf (rowOf b n) = n := by
  apply Fin.ext; show (b.val * 4096 + n.val) % 4096 = n.val; omega

/-- Flattening read at a row: row `R`, channel `c` of the flat array is point (R / 4096, R % 4096), channel `c`. -/
theorem flat_apply (x : Act) (h : (⟨3, ![8, 4096, 128]⟩ : Shape).ShapeCasts ⟨2, ![32768, 128]⟩) (R : Fin 32768) (c : Fin 128) :
    shapeCast ⟨2, ![32768, 128]⟩ x h (ix2 R c) = x (ix3 (batchOf R) (pointOf R) c) := by
  refine shapeCast_apply x h _ _ ?_
  rw [Shape.rowMajor_val_three, Shape.rowMajor_val_two]
  show ((R.val / 4096) * 4096 + R.val % 4096) * 128 + c.val = R.val * 128 + c.val
  have := Nat.div_add_mod R.val 4096
  omega

/-- Unflattening read at a point: point (b, n), channel `c` is row 4096 b + n, channel `c` of the flat array. -/
theorem unflat_apply (y : Rows) (h : (⟨2, ![32768, 128]⟩ : Shape).ShapeCasts ⟨3, ![8, 4096, 128]⟩)
    (b : Fin 8) (n : Fin 4096) (c : Fin 128) :
    shapeCast ⟨3, ![8, 4096, 128]⟩ y h (ix3 b n c) = y (ix2 (rowOf b n) c) := by
  refine shapeCast_apply y h _ _ ?_
  rw [Shape.rowMajor_val_three, Shape.rowMajor_val_two]
  rfl

/-- The feed-forward stage on flat rows. -/
def ffnRows (X : Rows) (w1 : Mat 128 512) (b1 : Vc 512) (w2 : Mat 512 128) (b2 g beta mu var : Vc 128) : Rows :=
  fun i => ffnRow (fun j => X (ix2 (i 0) j)) (fun j k => w1 (ix2 j k)) (fun k => b1 (ix1 k))
    (fun k c => w2 (ix2 k c)) (fun c => b2 (ix1 c)) (fun c => g (ix1 c)) (fun c => beta (ix1 c))
    (fun c => mu (ix1 c)) (fun c => var (ix1 c)) (i 1)

/-- The linear map on flat rows. -/
def linRows (X : Rows) (w : Mat 128 128) (b : Vc 128) : Rows :=
  fun i => linRow (fun j => X (ix2 (i 0) j)) (fun j c => w (ix2 j c)) (fun c => b (ix1 c)) (i 1)

/-- A row-wise stage commutes with flattening: the feed-forward stage. -/
theorem unflat_ffnRows_flat (X : Act) (w1 : Mat 128 512) (b1 : Vc 512) (w2 : Mat 512 128) (b2 g beta mu var : Vc 128)
    (h : (⟨3, ![8, 4096, 128]⟩ : Shape).ShapeCasts ⟨2, ![32768, 128]⟩)
    (h' : (⟨2, ![32768, 128]⟩ : Shape).ShapeCasts ⟨3, ![8, 4096, 128]⟩) :
    shapeCast ⟨3, ![8, 4096, 128]⟩ (ffnRows (shapeCast ⟨2, ![32768, 128]⟩ X h) w1 b1 w2 b2 g beta mu var) h'
      = ffnS X w1 b1 w2 b2 g beta mu var := by
  funext i
  obtain ⟨b, n, c, rfl⟩ : ∃ (b : Fin 8) (n : Fin 4096) (c : Fin 128), i = ix3 b n c := ⟨i 0, i 1, i 2, eq_ix3 i⟩
  rw [unflat_apply]
  show ffnRow (fun j => shapeCast ⟨2, ![32768, 128]⟩ X h (ix2 (rowOf b n) j)) _ _ _ _ _ _ _ _ c = ffnRow (fun j => X (ix3 b n j)) _ _ _ _ _ _ _ _ c
  congr 1
  funext j
  rw [flat_apply, batchOf_rowOf, pointOf_rowOf]

/-- A row-wise stage commutes with flattening: the linear map. -/
theorem unflat_linRows_flat (X : Act) (w : Mat 128 128) (b : Vc 128)
    (h : (⟨3, ![8, 4096, 128]⟩ : Shape).ShapeCasts ⟨2, ![32768, 128]⟩)
    (h' : (⟨2, ![32768, 128]⟩ : Shape).ShapeCasts ⟨3, ![8, 4096, 128]⟩) :
    shapeCast ⟨3, ![8, 4096, 128]⟩ (linRows (shapeCast ⟨2, ![32768, 128]⟩ X h) w b) h' = linS X w b := by
  funext i
  obtain ⟨bb, n, c, rfl⟩ : ∃ (bb : Fin 8) (n : Fin 4096) (c : Fin 128), i = ix3 bb n c := ⟨i 0, i 1, i 2, eq_ix3 i⟩
  rw [unflat_apply]
  show linRow (fun j => shapeCast ⟨2, ![32768, 128]⟩ X h (ix2 (rowOf bb n) j)) _ _ c = linRow (fun j => X (ix3 bb n j)) _ _ c
  congr 1
  funext j
  rw [flat_apply, batchOf_rowOf, pointOf_rowOf]

/-- Layer `l` of a stacked matrix: the unit-thickness slice at offset `l`, its unit axis dropped. -/
theorem slice3_eq {a b : Nat} (l : Fin 2) (off : Fin 3 → Nat) (h0 : off 0 = l.val) (h1 : off 1 = 0) (h2 : off 2 = 0)
    (W : (⟨3, ![2, a, b]⟩ : Shape).Idx → EReal) (hs : (⟨3, ![2, a, b]⟩ : Shape).Slices off ⟨3, ![1, a, b]⟩)
    (hc : (⟨3, ![1, a, b]⟩ : Shape).ShapeCasts ⟨2, ![a, b]⟩) :
    shapeCast ⟨2, ![a, b]⟩ (extractStridedSlice ⟨3, ![1, a, b]⟩ off W hs) hc = sl3 l W := by
  funext j
  rw [shapeCast_dropUnit_apply ![a, b]]
  refine extractStridedSlice_apply off W hs _ (ix3 l (j 0) (j 1)) ?_
  intro x
  match x with
  | ⟨0, _⟩ => show l.val = off 0 + 0; omega
  | ⟨1, _⟩ => show (j 0).val = off 1 + (j 0).val; omega
  | ⟨2, _⟩ => show (j 1).val = off 2 + (j 1).val; omega

/-- Layer `l` of a stacked vector. -/
theorem slice2_eq {a : Nat} (l : Fin 2) (off : Fin 2 → Nat) (h0 : off 0 = l.val) (h1 : off 1 = 0)
    (W : Mat 2 a) (hs : (⟨2, ![2, a]⟩ : Shape).Slices off ⟨2, ![1, a]⟩)
    (hc : (⟨2, ![1, a]⟩ : Shape).ShapeCasts ⟨1, ![a]⟩) :
    shapeCast ⟨1, ![a]⟩ (extractStridedSlice ⟨2, ![1, a]⟩ off W hs) hc = sl2 l W := by
  funext j
  rw [shapeCast_dropUnit_apply ![a]]
  refine extractStridedSlice_apply off W hs _ (ix2 l (j 0)) ?_
  intro x
  match x with
  | ⟨0, _⟩ => show l.val = off 0 + 0; omega
  | ⟨1, _⟩ => show (j 0).val = off 1 + (j 0).val; omega

end Cert.Layout

end
-- ==== Proof.Reg0.lean ====
/-
  Region 0 of the kernel program, a feed-forward stage on flat rows: from blocks to the whole array.

  The grid has 32 points; point t takes rows 1024 t … 1024 t + 1023 of the flat activations and the whole of
  each weight array, and writes the same rows of the output.  What a point writes back is therefore block t of
  ONE function of the region's arrays, the row-wise feed-forward stage; the 32 blocks tile the output, so after
  the region the output array is that function of the arrays as the region found them.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: the activations' and the output's block index is (t, 0); every weight
    block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-- The body's output block read at (r, c) is the feed-forward row function of the input blocks. -/
abbrev PayloadFact : Prop :=
  ∀ (x0 : Vec Ideal S1024x128 .f32) (x1 : Vec Ideal S128x512 .f32) (x2 : Vec Ideal S512 .f32) (x3 : Vec Ideal S512x128 .f32)
    (x4 x5 x6 x7 x8 : Vec Ideal S128 .f32) (r : Fin 1024) (c : Fin 128),
    out0_9 (F := Ideal) x0 x1 x2 x3 x4 x5 x6 x7 x8 (ix2 r c)
      = ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c

/-- The region's output as one function of its arrays at entry. -/
abbrev G (c : Dev nD) : Rows :=
  ffnRows (V c main_v0) (V c main_arg2) (V c main_arg3) (V c main_arg4) (V c main_arg5) (V c main_arg6) (V c main_arg7) (V c main_arg8) (V c main_arg9)

/-- What point t writes back is block t of `G`. -/
theorem flushed_eq (hpay : PayloadFact) (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  obtain ⟨e00, e01, e10, e11, e20, e30, e31, e40, e50, e60, e70, e80, e90, e91⟩ := idx_facts t
  funext j
  obtain ⟨r, cc, rfl⟩ : ∃ (r : Fin 1024) (cc : Fin 128), j = ix2 r cc := ⟨j 0, j 1, eq_ix2 j⟩
  show out0_9 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 r cc)
    = G V c (((cfg0.win 9).blk t).view.emb (ix2 r cc))
  rw [hpay]
  have hrow : (((cfg0.win 9).blk t).view.emb (ix2 r cc)) 0 = (⟨t.val * 1024 + r.val, by have ht : t.val < 32 := t.isLt; have := r.isLt; omega⟩ : Fin 32768) :=
    Fin.ext (by show win0_9.index t (0 : Fin 2) * 1024 + 1 * r.val = t.val * 1024 + r.val; omega)
  have hcol : (((cfg0.win 9).blk t).view.emb (ix2 r cc)) 1 = cc :=
    Fin.ext (by show win0_9.index t (1 : Fin 2) * 128 + 1 * cc.val = cc.val; omega)
  show _ = ffnRow (fun j => V c main_v0 (ix2 ((((cfg0.win 9).blk t).view.emb (ix2 r cc)) 0) j)) _ _ _ _ _ _ _ _ ((((cfg0.win 9).blk t).view.emb (ix2 r cc)) 1)
  rw [hrow, hcol]
  congr 1
  · funext j
    show V c main_v0 (((cfg0.win 0).blk t).view.emb (ix2 r j)) = _
    refine congrArg (V c main_v0) (funext fun a => Fin.ext ?_)
    match a with
    | ⟨0, _⟩ => show win0_0.index t (0 : Fin 2) * 1024 + 1 * r.val = t.val * 1024 + r.val; omega
    | ⟨1, _⟩ => show win0_0.index t (1 : Fin 2) * 128 + 1 * j.val = j.val; omega
  · funext j k
    show V c main_arg2 (((cfg0.win 1).blk t).view.emb (ix2 j k)) = _
    refine congrArg (V c main_arg2) (funext fun a => Fin.ext ?_)
    match a with
    | ⟨0, _⟩ => show win0_1.index t (0 : Fin 2) * 128 + 1 * j.val = j.val; omega
    | ⟨1, _⟩ => show win0_1.index t (1 : Fin 2) * 512 + 1 * k.val = k.val; omega
  · funext k
    show V c main_arg3 (((cfg0.win 2).blk t).view.emb (ix1 k)) = _
    refine congrArg (V c main_arg3) (funext fun a => Fin.ext ?_)
    match a with
    | ⟨0, _⟩ => show win0_2.index t (0 : Fin 1) * 512 + 1 * k.val = k.val; omega
  · funext k c'
    show V c main_arg4 (((cfg0.win 3).blk t).view.emb (ix2 k c')) = _
    refine congrArg (V c main_arg4) (funext fun a => Fin.ext ?_)
    match a with
    | ⟨0, _⟩ => show win0_3.index t (0 : Fin 2) * 512 + 1 * k.val = k.val; omega
    | ⟨1, _⟩ => show win0_3.index t (1 : Fin 2) * 128 + 1 * c'.val = c'.val; omega
  · funext c'
    show V c main_arg5 (((cfg0.win 4).blk t).view.emb (ix1 c')) = _
    refine congrArg (V c main_arg5) (funext fun a => Fin.ext ?_)
    match a with
    | ⟨0, _⟩ => show win0_4.index t (0 : Fin 1) * 128 + 1 * c'.val = c'.val; omega
  · funext c'
    show V c main_arg6 (((cfg0.win 5).blk t).view.emb (ix1 c')) = _
    refine congrArg (V c main_arg6) (funext fun a => Fin.ext ?_)
    match a with
    | ⟨0, _⟩ => show win0_5.index t (0 : Fin 1) * 128 + 1 * c'.val = c'.val; omega
  · funext c'
    show V c main_arg7 (((cfg0.win 6).blk t).view.emb (ix1 c')) = _
    refine congrArg (V c main_arg7) (funext fun a => Fin.ext ?_)
    match a with
    | ⟨0, _⟩ => show win0_6.index t (0 : Fin 1) * 128 + 1 * c'.val = c'.val; omega
  · funext c'
    show V c main_arg8 (((cfg0.win 7).blk t).view.emb (ix1 c')) = _
    refine congrArg (V c main_arg8) (funext fun a => Fin.ext ?_)
    match a with
    | ⟨0, _⟩ => show win0_7.index t (0 : Fin 1) * 128 + 1 * c'.val = c'.val; omega
  · funext c'
    show V c main_arg9 (((cfg0.win 8).blk t).view.emb (ix1 c')) = _
    refine congrArg (V c main_arg9) (funext fun a => Fin.ext ?_)
    match a with
    | ⟨0, _⟩ => show win0_8.index t (0 : Fin 1) * 128 + 1 * c'.val = c'.val; omega

/-- An index of the output array is in point t's block iff each coordinate is in the block's range. -/
theorem mem_blk (t : Fin cfg0.N) (i : S32768x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v1).slice (win0_9.rect t)).set ↔ _
  rw [View.set_slice_whole, Rect.mem_set_unit]
  exact Iff.rfl

/-- The 32 blocks tile the output: row R is in the block of point R / 1024. -/
theorem cover (i : S32768x128.Idx) :
    ∃ t : Fin cfg0.N, (cfg0.win 9).flush t = true ∧ i ∈ ((cfg0.win 9).blk t).view.set := by
  have hi0 : (i 0).val < 32768 := (i 0).isLt
  have hi1 : (i 1).val < 128 := (i 1).isLt
  refine ⟨⟨(i 0).val / 1024, by show (i 0).val / 1024 < 32; omega⟩, flush0_9 _, ?_⟩
  rw [mem_blk]
  obtain ⟨e00, e01, e10, e11, e20, e30, e31, e40, e50, e60, e70, e80, e90, e91⟩ := idx_facts ⟨(i 0).val / 1024, by show (i 0).val / 1024 < 32; omega⟩
  intro a
  match a with
  | ⟨0, _⟩ =>
    show win0_9.index _ (0 : Fin 2) * 1024 ≤ (i 0).val ∧ (i 0).val < win0_9.index _ (0 : Fin 2) * 1024 + 1024
    rw [e90]; show (i 0).val / 1024 * 1024 ≤ (i 0).val ∧ (i 0).val < (i 0).val / 1024 * 1024 + 1024; omega
  | ⟨1, _⟩ =>
    show win0_9.index _ (1 : Fin 2) * 128 ≤ (i 1).val ∧ (i 1).val < win0_9.index _ (1 : Fin 2) * 128 + 128
    rw [e91]; omega

/-- After the region its output array is the row-wise feed-forward stage of its arrays as the region found them. -/
theorem final (hpay : PayloadFact) (c : Dev nD) : (dat0 V c).arrAt 9 cfg0.N = G V c :=
  (dat0 V c).arrAt_eq_of_cover 9 (G V c) (fun t _ => flushed_eq V hpay c t) cover

end Cert.KernelIdeal.Reg0

end
-- ==== Proof.Reg1.lean ====
/-
  Region 1 of the kernel program, a linear map on flat rows: from blocks to the whole array.

  The grid has 32 points; point t takes rows 1024 t … 1024 t + 1023 of the flat activations, the whole weight
  matrix and the whole bias, and writes the same rows of the output.  What a point writes back is block t of the
  row-wise linear map of the region's arrays; the 32 blocks tile the output.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: the activations' and the output's block index is (t, 0); the weight and
    bias blocks are the whole arrays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The body's output block read at (r, c) is the linear row function of the input blocks. -/
abbrev PayloadFact : Prop :=
  ∀ (x0 : Vec Ideal S1024x128 .f32) (x1 : Vec Ideal S128x128 .f32) (x2 : Vec Ideal S128 .f32) (r : Fin 1024) (c : Fin 128),
    out1_3 (F := Ideal) x0 x1 x2 (ix2 r c)
      = linRow (fun j => x0 (ix2 r j)) (fun j c => x1 (ix2 j c)) (fun c => x2 (ix1 c)) c

/-- The region's output as one function of its arrays at entry. -/
abbrev G (c : Dev nD) : Rows := linRows (V c main_v7) (V c main_v4) (V c main_v6)

/-- What point t writes back is block t of `G`. -/
theorem flushed_eq (hpay : PayloadFact) (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  obtain ⟨e00, e01, e10, e11, e20, e30, e31⟩ := idx_facts t
  funext j
  obtain ⟨r, cc, rfl⟩ : ∃ (r : Fin 1024) (cc : Fin 128), j = ix2 r cc := ⟨j 0, j 1, eq_ix2 j⟩
  show out1_3 (iblk1 V c 0 t) (iblk1 V c 1 t) (iblk1 V c 2 t) (ix2 r cc)
    = G V c (((cfg1.win 3).blk t).view.emb (ix2 r cc))
  rw [hpay]
  have hrow : (((cfg1.win 3).blk t).view.emb (ix2 r cc)) 0 = (⟨t.val * 1024 + r.val, by have ht : t.val < 32 := t.isLt; have := r.isLt; omega⟩ : Fin 32768) :=
    Fin.ext (by show win1_3.index t (0 : Fin 2) * 1024 + 1 * r.val = t.val * 1024 + r.val; omega)
  have hcol : (((cfg1.win 3).blk t).view.emb (ix2 r cc)) 1 = cc :=
    Fin.ext (by show win1_3.index t (1 : Fin 2) * 128 + 1 * cc.val = cc.val; omega)
  show _ = linRow (fun j => V c main_v7 (ix2 ((((cfg1.win 3).blk t).view.emb (ix2 r cc)) 0) j)) _ _ ((((cfg1.win 3).blk t).view.emb (ix2 r cc)) 1)
  rw [hrow, hcol]
  congr 1
  · funext j
    show V c main_v7 (((cfg1.win 0).blk t).view.emb (ix2 r j)) = _
    refine congrArg (V c main_v7) (funext fun a => Fin.ext ?_)
    match a with
    | ⟨0, _⟩ => show win1_0.index t (0 : Fin 2) * 1024 + 1 * r.val = t.val * 1024 + r.val; omega
    | ⟨1, _⟩ => show win1_0.index t (1 : Fin 2) * 128 + 1 * j.val = j.val; omega
  · funext j k
    show V c main_v4 (((cfg1.win 1).blk t).view.emb (ix2 j k)) = _
    refine congrArg (V c main_v4) (funext fun a => Fin.ext ?_)
    match a with
    | ⟨0, _⟩ => show win1_1.index t (0 : Fin 2) * 128 + 1 * j.val = j.val; omega
    | ⟨1, _⟩ => show win1_1.index t (1 : Fin 2) * 128 + 1 * k.val = k.val; omega
  · funext c'
    show V c main_v6 (((cfg1.win 2).blk t).view.emb (ix1 c')) = _
    refine congrArg (V c main_v6) (funext fun a => Fin.ext ?_)
    match a with
    | ⟨0, _⟩ => show win1_2.index t (0 : Fin 1) * 128 + 1 * c'.val = c'.val; omega

/-- An index of the output array is in point t's block iff each coordinate is in the block's range. -/
theorem mem_blk (t : Fin cfg1.N) (i : S32768x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v8).slice (win1_3.rect t)).set ↔ _
  rw [View.set_slice_whole, Rect.mem_set_unit]
  exact Iff.rfl

/-- The 32 blocks tile the output: row R is in the block of point R / 1024. -/
theorem cover (i : S32768x128.Idx) :
    ∃ t : Fin cfg1.N, (cfg1.win 3).flush t = true ∧ i ∈ ((cfg1.win 3).blk t).view.set := by
  have hi0 : (i 0).val < 32768 := (i 0).isLt
  have hi1 : (i 1).val < 128 := (i 1).isLt
  refine ⟨⟨(i 0).val / 1024, by show (i 0).val / 1024 < 32; omega⟩, flush1_3 _, ?_⟩
  rw [mem_blk]
  obtain ⟨e00, e01, e10, e11, e20, e30, e31⟩ := idx_facts ⟨(i 0).val / 1024, by show (i 0).val / 1024 < 32; omega⟩
  intro a
  match a with
  | ⟨0, _⟩ =>
    show win1_3.index _ (0 : Fin 2) * 1024 ≤ (i 0).val ∧ (i 0).val < win1_3.index _ (0 : Fin 2) * 1024 + 1024
    rw [e30]; show (i 0).val / 1024 * 1024 ≤ (i 0).val ∧ (i 0).val < (i 0).val / 1024 * 1024 + 1024; omega
  | ⟨1, _⟩ =>
    show win1_3.index _ (1 : Fin 2) * 128 ≤ (i 1).val ∧ (i 1).val < win1_3.index _ (1 : Fin 2) * 128 + 128
    rw [e31]; omega

/-- After the region its output array is the row-wise linear map of its arrays as the region found them. -/
theorem final (hpay : PayloadFact) (c : Dev nD) : (dat1 V c).arrAt 3 cfg1.N = G V c :=
  (dat1 V c).arrAt_eq_of_cover 3 (G V c) (fun t _ => flushed_eq V hpay c t) cover

end Cert.KernelIdeal.Reg1

end
-- ==== Proof.Reg2.lean ====
/-
  Region 2 of the kernel program, the edge aggregation: from blocks to the whole array.

  The grid is 8 × 16: point (b, q) takes points 256 q … 256 q + 255 of batch b of the activations, of the linear
  map's output and of the gathered neighbour rows, and the whole of each per-channel vector, and writes the same
  points of the output.  The body acts on each (point, channel) by itself, so what a point of the grid writes back
  is its block of the aggregation of the region's whole arrays; the 128 blocks tile the output.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg2

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: point t of the grid is (t / 16, t % 16); the three activation-shaped
    windows and the output have block index (t / 16, t % 16, 0), the neighbour rows (t / 16, t % 16, 0, 0), the
    per-channel vectors are whole. -/
theorem idx_facts : ∀ t : Fin cfg2.N,
    win2_0.index t (0 : Fin 3) = t.val / 16 ∧ win2_0.index t (1 : Fin 3) = t.val % 16 ∧ win2_0.index t (2 : Fin 3) = 0
    ∧ win2_1.index t (0 : Fin 3) = t.val / 16 ∧ win2_1.index t (1 : Fin 3) = t.val % 16 ∧ win2_1.index t (2 : Fin 3) = 0
    ∧ win2_2.index t (0 : Fin 4) = t.val / 16 ∧ win2_2.index t (1 : Fin 4) = t.val % 16 ∧ win2_2.index t (2 : Fin 4) = 0 ∧ win2_2.index t (3 : Fin 4) = 0
    ∧ win2_3.index t (0 : Fin 1) = 0 ∧ win2_4.index t (0 : Fin 1) = 0 ∧ win2_5.index t (0 : Fin 1) = 0 ∧ win2_6.index t (0 : Fin 1) = 0
    ∧ win2_7.index t (0 : Fin 3) = t.val / 16 ∧ win2_7.index t (1 : Fin 3) = t.val % 16 ∧ win2_7.index t (2 : Fin 3) = 0 :=
  (by decide +kernel : ∀ t : Fin grid2.N, _)

/-- The body's output block read at (0, p, c) is the aggregation of the input blocks at that point and channel. -/
abbrev PayloadFact : Prop :=
  ∀ (x0 x1 : Vec Ideal S1x256x128 .f32) (x2 : Vec Ideal S1x256x16x128 .f32) (x3 x4 x5 x6 : Vec Ideal S128 .f32)
    (p : Fin 256) (c : Fin 128),
    out2_7 (F := Ideal) x0 x1 x2 x3 x4 x5 x6 (ix3 (0 : Fin 1) p c)
      = aggPt (x0 (ix3 (0 : Fin 1) p c)) (x1 (ix3 (0 : Fin 1) p c)) (fun k => x2 (ix4 (0 : Fin 1) p k c))
          (x3 (ix1 c)) (x4 (ix1 c)) (x5 (ix1 c)) (x6 (ix1 c))

/-- The region's output as one function of its arrays at entry. -/
abbrev G (c : Dev nD) : Act :=
  aggS (V c main_v2) (V c main_v9) (V c main_v16) (V c main_v18) (V c main_v20) (V c main_v22) (V c main_v24)

/-- What point t writes back is block t of `G`. -/
theorem flushed_eq (hpay : PayloadFact) (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  obtain ⟨e00, e01, e02, e10, e11, e12, e20, e21, e22, e23, e30, e40, e50, e60, e70, e71, e72⟩ := idx_facts t
  funext j
  obtain ⟨z, p, cc, rfl⟩ : ∃ (z : Fin 1) (p : Fin 256) (cc : Fin 128), j = ix3 z p cc := ⟨j 0, j 1, j 2, eq_ix3 j⟩
  obtain rfl : z = 0 := Subsingleton.elim _ _
  have key : ∀ E : S8x4096x128.Idx, (E 0).val = t.val / 16 → (E 1).val = t.val % 16 * 256 + p.val → (E 2).val = cc.val →
      aggPt (iblk2 V c 0 t (ix3 (0 : Fin 1) p cc)) (iblk2 V c 1 t (ix3 (0 : Fin 1) p cc))
        (fun k => iblk2 V c 2 t (ix4 (0 : Fin 1) p k cc)) (iblk2 V c 3 t (ix1 cc)) (iblk2 V c 4 t (ix1 cc))
        (iblk2 V c 5 t (ix1 cc)) (iblk2 V c 6 t (ix1 cc)) = G V c E := by
    intro E E0 E1 E2
    show _ = aggPt (V c main_v2 E) (V c main_v9 E) (fun k => V c main_v16 (ix4 (E 0) (E 1) k (E 2)))
      (V c main_v18 (ix1 (E 2))) (V c main_v20 (ix1 (E 2))) (V c main_v22 (ix1 (E 2))) (V c main_v24 (ix1 (E 2)))
    refine congr (congr (congr (congr (congr (congr (congrArg aggPt ?_) ?_) ?_) ?_) ?_) ?_) ?_
    · show V c main_v2 (((cfg2.win 0).blk t).view.emb (ix3 (0 : Fin 1) p cc)) = _
      refine congrArg (V c main_v2) (funext fun a => Fin.ext ?_)
      match a with
      | ⟨0, _⟩ => show win2_0.index t (0 : Fin 3) * 1 + 1 * 0 = (E 0).val; omega
      | ⟨1, _⟩ => show win2_0.index t (1 : Fin 3) * 256 + 1 * p.val = (E 1).val; omega
      | ⟨2, _⟩ => show win2_0.index t (2 : Fin 3) * 128 + 1 * cc.val = (E 2).val; omega
    · show V c main_v9 (((cfg2.win 1).blk t).view.emb (ix3 (0 : Fin 1) p cc)) = _
      refine congrArg (V c main_v9) (funext fun a => Fin.ext ?_)
      match a with
      | ⟨0, _⟩ => show win2_1.index t (0 : Fin 3) * 1 + 1 * 0 = (E 0).val; omega
      | ⟨1, _⟩ => show win2_1.index t (1 : Fin 3) * 256 + 1 * p.val = (E 1).val; omega
      | ⟨2, _⟩ => show win2_1.index t (2 : Fin 3) * 128 + 1 * cc.val = (E 2).val; omega
    · funext k
      show V c main_v16 (((cfg2.win 2).blk t).view.emb (ix4 (0 : Fin 1) p k cc)) = _
      refine congrArg (V c main_v16) (funext fun a => Fin.ext ?_)
      match a with
      | ⟨0, _⟩ => show win2_2.index t (0 : Fin 4) * 1 + 1 * 0 = (E 0).val; omega
      | ⟨1, _⟩ => show win2_2.index t (1 : Fin 4) * 256 + 1 * p.val = (E 1).val; omega
      | ⟨2, _⟩ => show win2_2.index t (2 : Fin 4) * 16 + 1 * k.val = k.val; omega
      | ⟨3, _⟩ => show win2_2.index t (3 : Fin 4) * 128 + 1 * cc.val = (E 2).val; omega
    · show V c main_v18 (((cfg2.win 3).blk t).view.emb (ix1 cc)) = _
      refine congrArg (V c main_v18) (funext fun a => Fin.ext ?_)
      match a with
      | ⟨0, _⟩ => show win2_3.index t (0 : Fin 1) * 128 + 1 * cc.val = (E 2).val; omega
    · show V c main_v20 (((cfg2.win 4).blk t).view.emb (ix1 cc)) = _
      refine congrArg (V c main_v20) (funext fun a => Fin.ext ?_)
      match a with
      | ⟨0, _⟩ => show win2_4.index t (0 : Fin 1) * 128 + 1 * cc.val = (E 2).val; omega
    · show V c main_v22 (((cfg2.win 5).blk t).view.emb (ix1 cc)) = _
      refine congrArg (V c main_v22) (funext fun a => Fin.ext ?_)
      match a with
      | ⟨0, _⟩ => show win2_5.index t (0 : Fin 1) * 128 + 1 * cc.val = (E 2).val; omega
    · show V c main_v24 (((cfg2.win 6).blk t).view.emb (ix1 cc)) = _
      refine congrArg (V c main_v24) (funext fun a => Fin.ext ?_)
      match a with
      | ⟨0, _⟩ => show win2_6.index t (0 : Fin 1) * 128 + 1 * cc.val = (E 2).val; omega
  refine (hpay (iblk2 V c 0 t) (iblk2 V c 1 t) (iblk2 V c 2 t) (iblk2 V c 3 t) (iblk2 V c 4 t) (iblk2 V c 5 t)
    (iblk2 V c 6 t) p cc).trans ?_
  refine key _ ?_ ?_ ?_
  · show win2_7.index t (0 : Fin 3) * 1 + 1 * 0 = t.val / 16; omega
  · show win2_7.index t (1 : Fin 3) * 256 + 1 * p.val = t.val % 16 * 256 + p.val; omega
  · show win2_7.index t (2 : Fin 3) * 128 + 1 * cc.val = cc.val; omega

/-- An index of the output array is in point t's block iff each coordinate is in the block's range. -/
theorem mem_blk (t : Fin cfg2.N) (i : S8x4096x128.Idx) :
    i ∈ ((cfg2.win 7).blk t).view.set ↔ ∀ a : Fin 3, win2_7.index t a * S1x256x128.size a ≤ (i a).val ∧ (i a).val < win2_7.index t a * S1x256x128.size a + S1x256x128.size a := by
  show i ∈ ((View.whole main_v25).slice (win2_7.rect t)).set ↔ _
  rw [View.set_slice_whole, Rect.mem_set_unit]
  exact Iff.rfl

/-- The 128 blocks tile the output: point P of batch B is in the block of grid point (B, P / 256). -/
theorem cover (i : S8x4096x128.Idx) :
    ∃ t : Fin cfg2.N, (cfg2.win 7).flush t = true ∧ i ∈ ((cfg2.win 7).blk t).view.set := by
  have hi0 : (i 0).val < 8 := (i 0).isLt
  have hi1 : (i 1).val < 4096 := (i 1).isLt
  have hi2 : (i 2).val < 128 := (i 2).isLt
  refine ⟨⟨(i 0).val * 16 + (i 1).val / 256, by show (i 0).val * 16 + (i 1).val / 256 < 128; omega⟩, flush2_7 _, ?_⟩
  rw [mem_blk]
  obtain ⟨e00, e01, e02, e10, e11, e12, e20, e21, e22, e23, e30, e40, e50, e60, e70, e71, e72⟩ :=
    idx_facts ⟨(i 0).val * 16 + (i 1).val / 256, by show (i 0).val * 16 + (i 1).val / 256 < 128; omega⟩
  intro a
  match a with
  | ⟨0, _⟩ =>
    show win2_7.index _ (0 : Fin 3) * 1 ≤ (i 0).val ∧ (i 0).val < win2_7.index _ (0 : Fin 3) * 1 + 1
    rw [e70]; show ((i 0).val * 16 + (i 1).val / 256) / 16 * 1 ≤ (i 0).val ∧ (i 0).val < ((i 0).val * 16 + (i 1).val / 256) / 16 * 1 + 1; omega
  | ⟨1, _⟩ =>
    show win2_7.index _ (1 : Fin 3) * 256 ≤ (i 1).val ∧ (i 1).val < win2_7.index _ (1 : Fin 3) * 256 + 256
    rw [e71]; show ((i 0).val * 16 + (i 1).val / 256) % 16 * 256 ≤ (i 1).val ∧ (i 1).val < ((i 0).val * 16 + (i 1).val / 256) % 16 * 256 + 256; omega
  | ⟨2, _⟩ =>
    show win2_7.index _ (2 : Fin 3) * 128 ≤ (i 2).val ∧ (i 2).val < win2_7.index _ (2 : Fin 3) * 128 + 128
    rw [e72]; omega

/-- After the region its output array is the edge aggregation of its arrays as the region found them. -/
theorem final (hpay : PayloadFact) (c : Dev nD) : (dat2 V c).arrAt 7 cfg2.N = G V c :=
  (dat2 V c).arrAt_eq_of_cover 7 (G V c) (fun t _ => flushed_eq V hpay c t) cover

end Cert.KernelIdeal.Reg2

end
-- ==== Proof.Reg3.lean ====
/-
  Region 3 of the kernel program, a feed-forward stage on flat rows: from blocks to the whole array.

  The grid has 32 points; point t takes rows 1024 t … 1024 t + 1023 of the flat activations and the whole of
  each weight array, and writes the same rows of the output.  What a point writes back is therefore block t of
  ONE function of the region's arrays, the row-wise feed-forward stage; the 32 blocks tile the output, so after
  the region the output array is that function of the arrays as the region found them.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg3

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: the activations' and the output's block index is (t, 0); every weight
    block is the whole array. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0
    ∧ win3_7.index t (0 : Fin 1) = 0 ∧ win3_8.index t (0 : Fin 1) = 0
    ∧ win3_9.index t (0 : Fin 2) = t.val ∧ win3_9.index t (1 : Fin 2) = 0 :=
  (by decide +kernel : ∀ t : Fin grid3.N, _)

/-- The body's output block read at (r, c) is the feed-forward row function of the input blocks. -/
abbrev PayloadFact : Prop :=
  ∀ (x0 : Vec Ideal S1024x128 .f32) (x1 : Vec Ideal S128x512 .f32) (x2 : Vec Ideal S512 .f32) (x3 : Vec Ideal S512x128 .f32)
    (x4 x5 x6 x7 x8 : Vec Ideal S128 .f32) (r : Fin 1024) (c : Fin 128),
    out3_9 (F := Ideal) x0 x1 x2 x3 x4 x5 x6 x7 x8 (ix2 r c)
      = ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c

/-- The region's output as one function of its arrays at entry. -/
abbrev G (c : Dev nD) : Rows :=
  ffnRows (V c main_v42) (V c main_v27) (V c main_v29) (V c main_v31) (V c main_v33) (V c main_v35) (V c main_v37) (V c main_v39) (V c main_v41)

set_option maxHeartbeats 4000000 in
/-- What point t writes back is block t of `G`. -/
theorem flushed_eq (hpay : PayloadFact) (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9]
  obtain ⟨e00, e01, e10, e11, e20, e30, e31, e40, e50, e60, e70, e80, e90, e91⟩ := idx_facts t
  funext j
  obtain ⟨r, cc, rfl⟩ : ∃ (r : Fin 1024) (cc : Fin 128), j = ix2 r cc := ⟨j 0, j 1, eq_ix2 j⟩
  show out3_9 (iblk3 V c 0 t) (iblk3 V c 1 t) (iblk3 V c 2 t) (iblk3 V c 3 t) (iblk3 V c 4 t) (iblk3 V c 5 t)
      (iblk3 V c 6 t) (iblk3 V c 7 t) (iblk3 V c 8 t) (ix2 r cc)
    = G V c (((cfg3.win 9).blk t).view.emb (ix2 r cc))
  rw [hpay]
  have hrow : (((cfg3.win 9).blk t).view.emb (ix2 r cc)) 0 = (⟨t.val * 1024 + r.val, by have ht : t.val < 32 := t.isLt; have := r.isLt; omega⟩ : Fin 32768) :=
    Fin.ext (by show win3_9.index t (0 : Fin 2) * 1024 + 1 * r.val = t.val * 1024 + r.val; omega)
  have hcol : (((cfg3.win 9).blk t).view.emb (ix2 r cc)) 1 = cc :=
    Fin.ext (by show win3_9.index t (1 : Fin 2) * 128 + 1 * cc.val = cc.val; omega)
  show _ = ffnRow (fun j => V c main_v42 (ix2 ((((cfg3.win 9).blk t).view.emb (ix2 r cc)) 0) j)) _ _ _ _ _ _ _ _ ((((cfg3.win 9).blk t).view.emb (ix2 r cc)) 1)
  rw [hrow, hcol]
  congr 1
  · funext j
    show V c main_v42 (((cfg3.win 0).blk t).view.emb (ix2 r j)) = _
    refine congrArg (V c main_v42) (funext fun a => Fin.ext ?_)
    match a with
    | ⟨0, _⟩ => show win3_0.index t (0 : Fin 2) * 1024 + 1 * r.val = t.val * 1024 + r.val; omega
    | ⟨1, _⟩ => show win3_0.index t (1 : Fin 2) * 128 + 1 * j.val = j.val; omega
  · funext j k
    show V c main_v27 (((cfg3.win 1).blk t).view.emb (ix2 j k)) = _
    refine congrArg (V c main_v27) (funext fun a => Fin.ext ?_)
    match a with
    | ⟨0, _⟩ => show win3_1.index t (0 : Fin 2) * 128 + 1 * j.val = j.val; omega
    | ⟨1, _⟩ => show win3_1.index t (1 : Fin 2) * 512 + 1 * k.val = k.val; omega
  · funext k
    show V c main_v29 (((cfg3.win 2).blk t).view.emb (ix1 k)) = _
    refine congrArg (V c main_v29) (funext fun a => Fin.ext ?_)
    match a with
    | ⟨0, _⟩ => show win3_2.index t (0 : Fin 1) * 512 + 1 * k.val = k.val; omega
  · funext k c'
    show V c main_v31 (((cfg3.win 3).blk t).view.emb (ix2 k c')) = _
    refine congrArg (V c main_v31) (funext fun a => Fin.ext ?_)
    match a with
    | ⟨0, _⟩ => show win3_3.index t (0 : Fin 2) * 512 + 1 * k.val = k.val; omega
    | ⟨1, _⟩ => show win3_3.index t (1 : Fin 2) * 128 + 1 * c'.val = c'.val; omega
  · funext c'
    show V c main_v33 (((cfg3.win 4).blk t).view.emb (ix1 c')) = _
    refine congrArg (V c main_v33) (funext fun a => Fin.ext ?_)
    match a with
    | ⟨0, _⟩ => show win3_4.index t (0 : Fin 1) * 128 + 1 * c'.val = c'.val; omega
  · funext c'
    show V c main_v35 (((cfg3.win 5).blk t).view.emb (ix1 c')) = _
    refine congrArg (V c main_v35) (funext fun a => Fin.ext ?_)
    match a with
    | ⟨0, _⟩ => show win3_5.index t (0 : Fin 1) * 128 + 1 * c'.val = c'.val; omega
  · funext c'
    show V c main_v37 (((cfg3.win 6).blk t).view.emb (ix1 c')) = _
    refine congrArg (V c main_v37) (funext fun a => Fin.ext ?_)
    match a with
    | ⟨0, _⟩ => show win3_6.index t (0 : Fin 1) * 128 + 1 * c'.val = c'.val; omega
  · funext c'
    show V c main_v39 (((cfg3.win 7).blk t).view.emb (ix1 c')) = _
    refine congrArg (V c main_v39) (funext fun a => Fin.ext ?_)
    match a with
    | ⟨0, _⟩ => show win3_7.index t (0 : Fin 1) * 128 + 1 * c'.val = c'.val; omega
  · funext c'
    show V c main_v41 (((cfg3.win 8).blk t).view.emb (ix1 c')) = _
    refine congrArg (V c main_v41) (funext fun a => Fin.ext ?_)
    match a with
    | ⟨0, _⟩ => show win3_8.index t (0 : Fin 1) * 128 + 1 * c'.val = c'.val; omega

/-- An index of the output array is in point t's block iff each coordinate is in the block's range. -/
theorem mem_blk (t : Fin cfg3.N) (i : S32768x128.Idx) :
    i ∈ ((cfg3.win 9).blk t).view.set ↔ ∀ a : Fin 2, win3_9.index t a * S1024x128.size a ≤ (i a).val ∧ (i a).val < win3_9.index t a * S1024x128.size a + S1024x128.size a := by
  show i ∈ ((View.whole main_v43).slice (win3_9.rect t)).set ↔ _
  rw [View.set_slice_whole, Rect.mem_set_unit]
  exact Iff.rfl

/-- The 32 blocks tile the output: row R is in the block of point R / 1024. -/
theorem cover (i : S32768x128.Idx) :
    ∃ t : Fin cfg3.N, (cfg3.win 9).flush t = true ∧ i ∈ ((cfg3.win 9).blk t).view.set := by
  have hi0 : (i 0).val < 32768 := (i 0).isLt
  have hi1 : (i 1).val < 128 := (i 1).isLt
  refine ⟨⟨(i 0).val / 1024, by show (i 0).val / 1024 < 32; omega⟩, flush3_9 _, ?_⟩
  rw [mem_blk]
  obtain ⟨e00, e01, e10, e11, e20, e30, e31, e40, e50, e60, e70, e80, e90, e91⟩ := idx_facts ⟨(i 0).val / 1024, by show (i 0).val / 1024 < 32; omega⟩
  intro a
  match a with
  | ⟨0, _⟩ =>
    show win3_9.index _ (0 : Fin 2) * 1024 ≤ (i 0).val ∧ (i 0).val < win3_9.index _ (0 : Fin 2) * 1024 + 1024
    rw [e90]; show (i 0).val / 1024 * 1024 ≤ (i 0).val ∧ (i 0).val < (i 0).val / 1024 * 1024 + 1024; omega
  | ⟨1, _⟩ =>
    show win3_9.index _ (1 : Fin 2) * 128 ≤ (i 1).val ∧ (i 1).val < win3_9.index _ (1 : Fin 2) * 128 + 128
    rw [e91]; omega

/-- After the region its output array is the row-wise feed-forward stage of its arrays as the region found them. -/
theorem final (hpay : PayloadFact) (c : Dev nD) : (dat3 V c).arrAt 9 cfg3.N = G V c :=
  (dat3 V c).arrAt_eq_of_cover 9 (G V c) (fun t _ => flushed_eq V hpay c t) cover

end Cert.KernelIdeal.Reg3

end
-- ==== Proof.Reg4.lean ====
/-
  Region 4 of the kernel program, a linear map on flat rows: from blocks to the whole array.

  The grid has 32 points; point t takes rows 1024 t … 1024 t + 1023 of the flat activations, the whole weight
  matrix and the whole bias, and writes the same rows of the output.  What a point writes back is block t of the
  row-wise linear map of the region's arrays; the 32 blocks tile the output.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg4

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: the activations' and the output's block index is (t, 0); the weight and
    bias blocks are the whole arrays. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The body's output block read at (r, c) is the linear row function of the input blocks. -/
abbrev PayloadFact : Prop :=
  ∀ (x0 : Vec Ideal S1024x128 .f32) (x1 : Vec Ideal S128x128 .f32) (x2 : Vec Ideal S128 .f32) (r : Fin 1024) (c : Fin 128),
    out4_3 (F := Ideal) x0 x1 x2 (ix2 r c)
      = linRow (fun j => x0 (ix2 r j)) (fun j c => x1 (ix2 j c)) (fun c => x2 (ix1 c)) c

/-- The region's output as one function of its arrays at entry. -/
abbrev G (c : Dev nD) : Rows := linRows (V c main_v49) (V c main_v46) (V c main_v48)

/-- What point t writes back is block t of `G`. -/
theorem flushed_eq (hpay : PayloadFact) (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  obtain ⟨e00, e01, e10, e11, e20, e30, e31⟩ := idx_facts t
  funext j
  obtain ⟨r, cc, rfl⟩ : ∃ (r : Fin 1024) (cc : Fin 128), j = ix2 r cc := ⟨j 0, j 1, eq_ix2 j⟩
  show out4_3 (iblk4 V c 0 t) (iblk4 V c 1 t) (iblk4 V c 2 t) (ix2 r cc)
    = G V c (((cfg4.win 3).blk t).view.emb (ix2 r cc))
  rw [hpay]
  have hrow : (((cfg4.win 3).blk t).view.emb (ix2 r cc)) 0 = (⟨t.val * 1024 + r.val, by have ht : t.val < 32 := t.isLt; have := r.isLt; omega⟩ : Fin 32768) :=
    Fin.ext (by show win4_3.index t (0 : Fin 2) * 1024 + 1 * r.val = t.val * 1024 + r.val; omega)
  have hcol : (((cfg4.win 3).blk t).view.emb (ix2 r cc)) 1 = cc :=
    Fin.ext (by show win4_3.index t (1 : Fin 2) * 128 + 1 * cc.val = cc.val; omega)
  show _ = linRow (fun j => V c main_v49 (ix2 ((((cfg4.win 3).blk t).view.emb (ix2 r cc)) 0) j)) _ _ ((((cfg4.win 3).blk t).view.emb (ix2 r cc)) 1)
  rw [hrow, hcol]
  congr 1
  · funext j
    show V c main_v49 (((cfg4.win 0).blk t).view.emb (ix2 r j)) = _
    refine congrArg (V c main_v49) (funext fun a => Fin.ext ?_)
    match a with
    | ⟨0, _⟩ => show win4_0.index t (0 : Fin 2) * 1024 + 1 * r.val = t.val * 1024 + r.val; omega
    | ⟨1, _⟩ => show win4_0.index t (1 : Fin 2) * 128 + 1 * j.val = j.val; omega
  · funext j k
    show V c main_v46 (((cfg4.win 1).blk t).view.emb (ix2 j k)) = _
    refine congrArg (V c main_v46) (funext fun a => Fin.ext ?_)
    match a with
    | ⟨0, _⟩ => show win4_1.index t (0 : Fin 2) * 128 + 1 * j.val = j.val; omega
    | ⟨1, _⟩ => show win4_1.index t (1 : Fin 2) * 128 + 1 * k.val = k.val; omega
  · funext c'
    show V c main_v48 (((cfg4.win 2).blk t).view.emb (ix1 c')) = _
    refine congrArg (V c main_v48) (funext fun a => Fin.ext ?_)
    match a with
    | ⟨0, _⟩ => show win4_2.index t (0 : Fin 1) * 128 + 1 * c'.val = c'.val; omega

/-- An index of the output array is in point t's block iff each coordinate is in the block's range. -/
theorem mem_blk (t : Fin cfg4.N) (i : S32768x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v50).slice (win4_3.rect t)).set ↔ _
  rw [View.set_slice_whole, Rect.mem_set_unit]
  exact Iff.rfl

/-- The 32 blocks tile the output: row R is in the block of point R / 1024. -/
theorem cover (i : S32768x128.Idx) :
    ∃ t : Fin cfg4.N, (cfg4.win 3).flush t = true ∧ i ∈ ((cfg4.win 3).blk t).view.set := by
  have hi0 : (i 0).val < 32768 := (i 0).isLt
  have hi1 : (i 1).val < 128 := (i 1).isLt
  refine ⟨⟨(i 0).val / 1024, by show (i 0).val / 1024 < 32; omega⟩, flush4_3 _, ?_⟩
  rw [mem_blk]
  obtain ⟨e00, e01, e10, e11, e20, e30, e31⟩ := idx_facts ⟨(i 0).val / 1024, by show (i 0).val / 1024 < 32; omega⟩
  intro a
  match a with
  | ⟨0, _⟩ =>
    show win4_3.index _ (0 : Fin 2) * 1024 ≤ (i 0).val ∧ (i 0).val < win4_3.index _ (0 : Fin 2) * 1024 + 1024
    rw [e30]; show (i 0).val / 1024 * 1024 ≤ (i 0).val ∧ (i 0).val < (i 0).val / 1024 * 1024 + 1024; omega
  | ⟨1, _⟩ =>
    show win4_3.index _ (1 : Fin 2) * 128 ≤ (i 1).val ∧ (i 1).val < win4_3.index _ (1 : Fin 2) * 128 + 128
    rw [e31]; omega

/-- After the region its output array is the row-wise linear map of its arrays as the region found them. -/
theorem final (hpay : PayloadFact) (c : Dev nD) : (dat4 V c).arrAt 3 cfg4.N = G V c :=
  (dat4 V c).arrAt_eq_of_cover 3 (G V c) (fun t _ => flushed_eq V hpay c t) cover

end Cert.KernelIdeal.Reg4

end
-- ==== Proof.Reg5.lean ====
/-
  Region 5 of the kernel program, the edge aggregation: from blocks to the whole array.

  The grid is 8 × 16: point (b, q) takes points 256 q … 256 q + 255 of batch b of the activations, of the linear
  map's output and of the gathered neighbour rows, and the whole of each per-channel vector, and writes the same
  points of the output.  The body acts on each (point, channel) by itself, so what a point of the grid writes back
  is its block of the aggregation of the region's whole arrays; the 128 blocks tile the output.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg5

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: point t of the grid is (t / 16, t % 16); the three activation-shaped
    windows and the output have block index (t / 16, t % 16, 0), the neighbour rows (t / 16, t % 16, 0, 0), the
    per-channel vectors are whole. -/
theorem idx_facts : ∀ t : Fin cfg5.N,
    win5_0.index t (0 : Fin 3) = t.val / 16 ∧ win5_0.index t (1 : Fin 3) = t.val % 16 ∧ win5_0.index t (2 : Fin 3) = 0
    ∧ win5_1.index t (0 : Fin 3) = t.val / 16 ∧ win5_1.index t (1 : Fin 3) = t.val % 16 ∧ win5_1.index t (2 : Fin 3) = 0
    ∧ win5_2.index t (0 : Fin 4) = t.val / 16 ∧ win5_2.index t (1 : Fin 4) = t.val % 16 ∧ win5_2.index t (2 : Fin 4) = 0 ∧ win5_2.index t (3 : Fin 4) = 0
    ∧ win5_3.index t (0 : Fin 1) = 0 ∧ win5_4.index t (0 : Fin 1) = 0 ∧ win5_5.index t (0 : Fin 1) = 0 ∧ win5_6.index t (0 : Fin 1) = 0
    ∧ win5_7.index t (0 : Fin 3) = t.val / 16 ∧ win5_7.index t (1 : Fin 3) = t.val % 16 ∧ win5_7.index t (2 : Fin 3) = 0 :=
  (by decide +kernel : ∀ t : Fin grid5.N, _)

/-- The body's output block read at (0, p, c) is the aggregation of the input blocks at that point and channel. -/
abbrev PayloadFact : Prop :=
  ∀ (x0 x1 : Vec Ideal S1x256x128 .f32) (x2 : Vec Ideal S1x256x16x128 .f32) (x3 x4 x5 x6 : Vec Ideal S128 .f32)
    (p : Fin 256) (c : Fin 128),
    out5_7 (F := Ideal) x0 x1 x2 x3 x4 x5 x6 (ix3 (0 : Fin 1) p c)
      = aggPt (x0 (ix3 (0 : Fin 1) p c)) (x1 (ix3 (0 : Fin 1) p c)) (fun k => x2 (ix4 (0 : Fin 1) p k c))
          (x3 (ix1 c)) (x4 (ix1 c)) (x5 (ix1 c)) (x6 (ix1 c))

/-- The region's output as one function of its arrays at entry. -/
abbrev G (c : Dev nD) : Act :=
  aggS (V c main_v44) (V c main_v51) (V c main_v58) (V c main_v60) (V c main_v62) (V c main_v64) (V c main_v66)

set_option maxHeartbeats 4000000 in
/-- What point t writes back is block t of `G`. -/
theorem flushed_eq (hpay : PayloadFact) (c : Dev nD) (t : Fin cfg5.N) :
    (dat5 V c).flushed 7 t = ((cfg5.win 7).blk t).view.read (Elt Ideal) (G V c) := by
  show (cfg5.win 7).cut (grid5.coords t) ((dat5 V c).after 7 t) = _
  rw [after5_7]
  obtain ⟨e00, e01, e02, e10, e11, e12, e20, e21, e22, e23, e30, e40, e50, e60, e70, e71, e72⟩ := idx_facts t
  funext j
  obtain ⟨z, p, cc, rfl⟩ : ∃ (z : Fin 1) (p : Fin 256) (cc : Fin 128), j = ix3 z p cc := ⟨j 0, j 1, j 2, eq_ix3 j⟩
  obtain rfl : z = 0 := Subsingleton.elim _ _
  have key : ∀ E : S8x4096x128.Idx, (E 0).val = t.val / 16 → (E 1).val = t.val % 16 * 256 + p.val → (E 2).val = cc.val →
      aggPt (iblk5 V c 0 t (ix3 (0 : Fin 1) p cc)) (iblk5 V c 1 t (ix3 (0 : Fin 1) p cc))
        (fun k => iblk5 V c 2 t (ix4 (0 : Fin 1) p k cc)) (iblk5 V c 3 t (ix1 cc)) (iblk5 V c 4 t (ix1 cc))
        (iblk5 V c 5 t (ix1 cc)) (iblk5 V c 6 t (ix1 cc)) = G V c E := by
    intro E E0 E1 E2
    show _ = aggPt (V c main_v44 E) (V c main_v51 E) (fun k => V c main_v58 (ix4 (E 0) (E 1) k (E 2)))
      (V c main_v60 (ix1 (E 2))) (V c main_v62 (ix1 (E 2))) (V c main_v64 (ix1 (E 2))) (V c main_v66 (ix1 (E 2)))
    refine congr (congr (congr (congr (congr (congr (congrArg aggPt ?_) ?_) ?_) ?_) ?_) ?_) ?_
    · show V c main_v44 (((cfg5.win 0).blk t).view.emb (ix3 (0 : Fin 1) p cc)) = _
      refine congrArg (V c main_v44) (funext fun a => Fin.ext ?_)
      match a with
      | ⟨0, _⟩ => show win5_0.index t (0 : Fin 3) * 1 + 1 * 0 = (E 0).val; omega
      | ⟨1, _⟩ => show win5_0.index t (1 : Fin 3) * 256 + 1 * p.val = (E 1).val; omega
      | ⟨2, _⟩ => show win5_0.index t (2 : Fin 3) * 128 + 1 * cc.val = (E 2).val; omega
    · show V c main_v51 (((cfg5.win 1).blk t).view.emb (ix3 (0 : Fin 1) p cc)) = _
      refine congrArg (V c main_v51) (funext fun a => Fin.ext ?_)
      match a with
      | ⟨0, _⟩ => show win5_1.index t (0 : Fin 3) * 1 + 1 * 0 = (E 0).val; omega
      | ⟨1, _⟩ => show win5_1.index t (1 : Fin 3) * 256 + 1 * p.val = (E 1).val; omega
      | ⟨2, _⟩ => show win5_1.index t (2 : Fin 3) * 128 + 1 * cc.val = (E 2).val; omega
    · funext k
      show V c main_v58 (((cfg5.win 2).blk t).view.emb (ix4 (0 : Fin 1) p k cc)) = _
      refine congrArg (V c main_v58) (funext fun a => Fin.ext ?_)
      match a with
      | ⟨0, _⟩ => show win5_2.index t (0 : Fin 4) * 1 + 1 * 0 = (E 0).val; omega
      | ⟨1, _⟩ => show win5_2.index t (1 : Fin 4) * 256 + 1 * p.val = (E 1).val; omega
      | ⟨2, _⟩ => show win5_2.index t (2 : Fin 4) * 16 + 1 * k.val = k.val; omega
      | ⟨3, _⟩ => show win5_2.index t (3 : Fin 4) * 128 + 1 * cc.val = (E 2).val; omega
    · show V c main_v60 (((cfg5.win 3).blk t).view.emb (ix1 cc)) = _
      refine congrArg (V c main_v60) (funext fun a => Fin.ext ?_)
      match a with
      | ⟨0, _⟩ => show win5_3.index t (0 : Fin 1) * 128 + 1 * cc.val = (E 2).val; omega
    · show V c main_v62 (((cfg5.win 4).blk t).view.emb (ix1 cc)) = _
      refine congrArg (V c main_v62) (funext fun a => Fin.ext ?_)
      match a with
      | ⟨0, _⟩ => show win5_4.index t (0 : Fin 1) * 128 + 1 * cc.val = (E 2).val; omega
    · show V c main_v64 (((cfg5.win 5).blk t).view.emb (ix1 cc)) = _
      refine congrArg (V c main_v64) (funext fun a => Fin.ext ?_)
      match a with
      | ⟨0, _⟩ => show win5_5.index t (0 : Fin 1) * 128 + 1 * cc.val = (E 2).val; omega
    · show V c main_v66 (((cfg5.win 6).blk t).view.emb (ix1 cc)) = _
      refine congrArg (V c main_v66) (funext fun a => Fin.ext ?_)
      match a with
      | ⟨0, _⟩ => show win5_6.index t (0 : Fin 1) * 128 + 1 * cc.val = (E 2).val; omega
  refine (hpay (iblk5 V c 0 t) (iblk5 V c 1 t) (iblk5 V c 2 t) (iblk5 V c 3 t) (iblk5 V c 4 t) (iblk5 V c 5 t)
    (iblk5 V c 6 t) p cc).trans ?_
  refine key _ ?_ ?_ ?_
  · show win5_7.index t (0 : Fin 3) * 1 + 1 * 0 = t.val / 16; omega
  · show win5_7.index t (1 : Fin 3) * 256 + 1 * p.val = t.val % 16 * 256 + p.val; omega
  · show win5_7.index t (2 : Fin 3) * 128 + 1 * cc.val = cc.val; omega

/-- An index of the output array is in point t's block iff each coordinate is in the block's range. -/
theorem mem_blk (t : Fin cfg5.N) (i : S8x4096x128.Idx) :
    i ∈ ((cfg5.win 7).blk t).view.set ↔ ∀ a : Fin 3, win5_7.index t a * S1x256x128.size a ≤ (i a).val ∧ (i a).val < win5_7.index t a * S1x256x128.size a + S1x256x128.size a := by
  show i ∈ ((View.whole main_v67).slice (win5_7.rect t)).set ↔ _
  rw [View.set_slice_whole, Rect.mem_set_unit]
  exact Iff.rfl

/-- The 128 blocks tile the output: point P of batch B is in the block of grid point (B, P / 256). -/
theorem cover (i : S8x4096x128.Idx) :
    ∃ t : Fin cfg5.N, (cfg5.win 7).flush t = true ∧ i ∈ ((cfg5.win 7).blk t).view.set := by
  have hi0 : (i 0).val < 8 := (i 0).isLt
  have hi1 : (i 1).val < 4096 := (i 1).isLt
  have hi2 : (i 2).val < 128 := (i 2).isLt
  refine ⟨⟨(i 0).val * 16 + (i 1).val / 256, by show (i 0).val * 16 + (i 1).val / 256 < 128; omega⟩, flush5_7 _, ?_⟩
  rw [mem_blk]
  obtain ⟨e00, e01, e02, e10, e11, e12, e20, e21, e22, e23, e30, e40, e50, e60, e70, e71, e72⟩ :=
    idx_facts ⟨(i 0).val * 16 + (i 1).val / 256, by show (i 0).val * 16 + (i 1).val / 256 < 128; omega⟩
  intro a
  match a with
  | ⟨0, _⟩ =>
    show win5_7.index _ (0 : Fin 3) * 1 ≤ (i 0).val ∧ (i 0).val < win5_7.index _ (0 : Fin 3) * 1 + 1
    rw [e70]; show ((i 0).val * 16 + (i 1).val / 256) / 16 * 1 ≤ (i 0).val ∧ (i 0).val < ((i 0).val * 16 + (i 1).val / 256) / 16 * 1 + 1; omega
  | ⟨1, _⟩ =>
    show win5_7.index _ (1 : Fin 3) * 256 ≤ (i 1).val ∧ (i 1).val < win5_7.index _ (1 : Fin 3) * 256 + 256
    rw [e71]; show ((i 0).val * 16 + (i 1).val / 256) % 16 * 256 ≤ (i 1).val ∧ (i 1).val < ((i 0).val * 16 + (i 1).val / 256) % 16 * 256 + 256; omega
  | ⟨2, _⟩ =>
    show win5_7.index _ (2 : Fin 3) * 128 ≤ (i 2).val ∧ (i 2).val < win5_7.index _ (2 : Fin 3) * 128 + 128
    rw [e72]; omega

/-- After the region its output array is the edge aggregation of its arrays as the region found them. -/
theorem final (hpay : PayloadFact) (c : Dev nD) : (dat5 V c).arrAt 7 cfg5.N = G V c :=
  (dat5 V c).arrAt_eq_of_cover 7 (G V c) (fun t _ => flushed_eq V hpay c t) cover

end Cert.KernelIdeal.Reg5

end
-- ==== Proof.Reg6.lean ====
/-
  Region 6 of the kernel program, a feed-forward stage on flat rows: from blocks to the whole array.

  The grid has 32 points; point t takes rows 1024 t … 1024 t + 1023 of the flat activations and the whole of
  each weight array, and writes the same rows of the output.  What a point writes back is therefore block t of
  ONE function of the region's arrays, the row-wise feed-forward stage; the 32 blocks tile the output, so after
  the region the output array is that function of the arrays as the region found them.
-/
import proofs.«102175_j61538291417254_1_alg».proof.Proof.Gen.KernelIdeal.Frame
import proofs.«102175_j61538291417254_1_alg».proof.Proof.Layout

set_option maxRecDepth 16384

noncomputable section

open scoped BigOperators

namespace Cert.KernelIdeal.Reg6

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout

variable (V : (c : Dev nD) → (b : Ref sig .tc) → Buf (Elt Ideal) ((c : Thread nD τ).loc b))

/-- The printed index maps over the grid: the activations' and the output's block index is (t, 0); every weight
    block is the whole array. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0 ∧ win6_5.index t (0 : Fin 1) = 0 ∧ win6_6.index t (0 : Fin 1) = 0
    ∧ win6_7.index t (0 : Fin 1) = 0 ∧ win6_8.index t (0 : Fin 1) = 0
    ∧ win6_9.index t (0 : Fin 2) = t.val ∧ win6_9.index t (1 : Fin 2) = 0 :=
  (by decide +kernel : ∀ t : Fin grid6.N, _)

/-- The body's output block read at (r, c) is the feed-forward row function of the input blocks. -/
abbrev PayloadFact : Prop :=
  ∀ (x0 : Vec Ideal S1024x128 .f32) (x1 : Vec Ideal S128x512 .f32) (x2 : Vec Ideal S512 .f32) (x3 : Vec Ideal S512x128 .f32)
    (x4 x5 x6 x7 x8 : Vec Ideal S128 .f32) (r : Fin 1024) (c : Fin 128),
    out6_9 (F := Ideal) x0 x1 x2 x3 x4 x5 x6 x7 x8 (ix2 r c)
      = ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c

/-- The region's output as one function of its arrays at entry. -/
abbrev G (c : Dev nD) : Rows :=
  ffnRows (V c main_v84) (V c main_v69) (V c main_v71) (V c main_v73) (V c main_v75) (V c main_v77) (V c main_v79) (V c main_v81) (V c main_v83)

set_option maxHeartbeats 4000000 in
/-- What point t writes back is block t of `G`. -/
theorem flushed_eq (hpay : PayloadFact) (c : Dev nD) (t : Fin cfg6.N) :
    (dat6 V c).flushed 9 t = ((cfg6.win 9).blk t).view.read (Elt Ideal) (G V c) := by
  show (cfg6.win 9).cut (grid6.coords t) ((dat6 V c).after 9 t) = _
  rw [after6_9]
  obtain ⟨e00, e01, e10, e11, e20, e30, e31, e40, e50, e60, e70, e80, e90, e91⟩ := idx_facts t
  funext j
  obtain ⟨r, cc, rfl⟩ : ∃ (r : Fin 1024) (cc : Fin 128), j = ix2 r cc := ⟨j 0, j 1, eq_ix2 j⟩
  show out6_9 (iblk6 V c 0 t) (iblk6 V c 1 t) (iblk6 V c 2 t) (iblk6 V c 3 t) (iblk6 V c 4 t) (iblk6 V c 5 t)
      (iblk6 V c 6 t) (iblk6 V c 7 t) (iblk6 V c 8 t) (ix2 r cc)
    = G V c (((cfg6.win 9).blk t).view.emb (ix2 r cc))
  rw [hpay]
  have hrow : (((cfg6.win 9).blk t).view.emb (ix2 r cc)) 0 = (⟨t.val * 1024 + r.val, by have ht : t.val < 32 := t.isLt; have := r.isLt; omega⟩ : Fin 32768) :=
    Fin.ext (by show win6_9.index t (0 : Fin 2) * 1024 + 1 * r.val = t.val * 1024 + r.val; omega)
  have hcol : (((cfg6.win 9).blk t).view.emb (ix2 r cc)) 1 = cc :=
    Fin.ext (by show win6_9.index t (1 : Fin 2) * 128 + 1 * cc.val = cc.val; omega)
  show _ = ffnRow (fun j => V c main_v84 (ix2 ((((cfg6.win 9).blk t).view.emb (ix2 r cc)) 0) j)) _ _ _ _ _ _ _ _ ((((cfg6.win 9).blk t).view.emb (ix2 r cc)) 1)
  rw [hrow, hcol]
  congr 1
  · funext j
    show V c main_v84 (((cfg6.win 0).blk t).view.emb (ix2 r j)) = _
    refine congrArg (V c main_v84) (funext fun a => Fin.ext ?_)
    match a with
    | ⟨0, _⟩ => show win6_0.index t (0 : Fin 2) * 1024 + 1 * r.val = t.val * 1024 + r.val; omega
    | ⟨1, _⟩ => show win6_0.index t (1 : Fin 2) * 128 + 1 * j.val = j.val; omega
  · funext j k
    show V c main_v69 (((cfg6.win 1).blk t).view.emb (ix2 j k)) = _
    refine congrArg (V c main_v69) (funext fun a => Fin.ext ?_)
    match a with
    | ⟨0, _⟩ => show win6_1.index t (0 : Fin 2) * 128 + 1 * j.val = j.val; omega
    | ⟨1, _⟩ => show win6_1.index t (1 : Fin 2) * 512 + 1 * k.val = k.val; omega
  · funext k
    show V c main_v71 (((cfg6.win 2).blk t).view.emb (ix1 k)) = _
    refine congrArg (V c main_v71) (funext fun a => Fin.ext ?_)
    match a with
    | ⟨0, _⟩ => show win6_2.index t (0 : Fin 1) * 512 + 1 * k.val = k.val; omega
  · funext k c'
    show V c main_v73 (((cfg6.win 3).blk t).view.emb (ix2 k c')) = _
    refine congrArg (V c main_v73) (funext fun a => Fin.ext ?_)
    match a with
    | ⟨0, _⟩ => show win6_3.index t (0 : Fin 2) * 512 + 1 * k.val = k.val; omega
    | ⟨1, _⟩ => show win6_3.index t (1 : Fin 2) * 128 + 1 * c'.val = c'.val; omega
  · funext c'
    show V c main_v75 (((cfg6.win 4).blk t).view.emb (ix1 c')) = _
    refine congrArg (V c main_v75) (funext fun a => Fin.ext ?_)
    match a with
    | ⟨0, _⟩ => show win6_4.index t (0 : Fin 1) * 128 + 1 * c'.val = c'.val; omega
  · funext c'
    show V c main_v77 (((cfg6.win 5).blk t).view.emb (ix1 c')) = _
    refine congrArg (V c main_v77) (funext fun a => Fin.ext ?_)
    match a with
    | ⟨0, _⟩ => show win6_5.index t (0 : Fin 1) * 128 + 1 * c'.val = c'.val; omega
  · funext c'
    show V c main_v79 (((cfg6.win 6).blk t).view.emb (ix1 c')) = _
    refine congrArg (V c main_v79) (funext fun a => Fin.ext ?_)
    match a with
    | ⟨0, _⟩ => show win6_6.index t (0 : Fin 1) * 128 + 1 * c'.val = c'.val; omega
  · funext c'
    show V c main_v81 (((cfg6.win 7).blk t).view.emb (ix1 c')) = _
    refine congrArg (V c main_v81) (funext fun a => Fin.ext ?_)
    match a with
    | ⟨0, _⟩ => show win6_7.index t (0 : Fin 1) * 128 + 1 * c'.val = c'.val; omega
  · funext c'
    show V c main_v83 (((cfg6.win 8).blk t).view.emb (ix1 c')) = _
    refine congrArg (V c main_v83) (funext fun a => Fin.ext ?_)
    match a with
    | ⟨0, _⟩ => show win6_8.index t (0 : Fin 1) * 128 + 1 * c'.val = c'.val; omega

/-- An index of the output array is in point t's block iff each coordinate is in the block's range. -/
theorem mem_blk (t : Fin cfg6.N) (i : S32768x128.Idx) :
    i ∈ ((cfg6.win 9).blk t).view.set ↔ ∀ a : Fin 2, win6_9.index t a * S1024x128.size a ≤ (i a).val ∧ (i a).val < win6_9.index t a * S1024x128.size a + S1024x128.size a := by
  show i ∈ ((View.whole main_v85).slice (win6_9.rect t)).set ↔ _
  rw [View.set_slice_whole, Rect.mem_set_unit]
  exact Iff.rfl

/-- The 32 blocks tile the output: row R is in the block of point R / 1024. -/
theorem cover (i : S32768x128.Idx) :
    ∃ t : Fin cfg6.N, (cfg6.win 9).flush t = true ∧ i ∈ ((cfg6.win 9).blk t).view.set := by
  have hi0 : (i 0).val < 32768 := (i 0).isLt
  have hi1 : (i 1).val < 128 := (i 1).isLt
  refine ⟨⟨(i 0).val / 1024, by show (i 0).val / 1024 < 32; omega⟩, flush6_9 _, ?_⟩
  rw [mem_blk]
  obtain ⟨e00, e01, e10, e11, e20, e30, e31, e40, e50, e60, e70, e80, e90, e91⟩ := idx_facts ⟨(i 0).val / 1024, by show (i 0).val / 1024 < 32; omega⟩
  intro a
  match a with
  | ⟨0, _⟩ =>
    show win6_9.index _ (0 : Fin 2) * 1024 ≤ (i 0).val ∧ (i 0).val < win6_9.index _ (0 : Fin 2) * 1024 + 1024
    rw [e90]; show (i 0).val / 1024 * 1024 ≤ (i 0).val ∧ (i 0).val < (i 0).val / 1024 * 1024 + 1024; omega
  | ⟨1, _⟩ =>
    show win6_9.index _ (1 : Fin 2) * 128 ≤ (i 1).val ∧ (i 1).val < win6_9.index _ (1 : Fin 2) * 128 + 128
    rw [e91]; omega

/-- After the region its output array is the row-wise feed-forward stage of its arrays as the region found them. -/
theorem final (hpay : PayloadFact) (c : Dev nD) : (dat6 V c).arrAt 9 cfg6.N = G V c :=
  (dat6 V c).arrAt_eq_of_cover 9 (G V c) (fun t _ => flushed_eq V hpay c t) cover

end Cert.KernelIdeal.Reg6

end
-- ==== Proof.Chain0.lean ====
/-
  The kernel program's boundary contents, read: the first feed-forward stage.

  The first stretch of host operations flattens the activations; region 0 applies the feed-forward stage to the
  flat rows with the first stage's weights, which are arguments and still hold their launch contents.  Flattening
  commutes with a row-wise stage, so the region's output, unflattened, is the feed-forward stage of the launch
  activations.
-/
import proofs.«102175_j61538291417254_1_alg».proof.Proof.Gen.KernelIdeal.Frame
import proofs.«102175_j61538291417254_1_alg».proof.Proof.Fold
import proofs.«102175_j61538291417254_1_alg».proof.Proof.Layout
import proofs.«102175_j61538291417254_1_alg».proof.Proof.Reg0
import proofs.«102175_j61538291417254_1_alg».proof.Proof.Reg1
import proofs.«102175_j61538291417254_1_alg».proof.Proof.Reg2
import proofs.«102175_j61538291417254_1_alg».proof.Proof.Reg3
import proofs.«102175_j61538291417254_1_alg».proof.Proof.Reg4
import proofs.«102175_j61538291417254_1_alg».proof.Proof.Reg5
import proofs.«102175_j61538291417254_1_alg».proof.Proof.Reg6

set_option maxRecDepth 16384

noncomputable section

open scoped BigOperators

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout Cert.KernelIdeal.Fold

variable (m : (ℓ : Loc nD τ sig) → Buf (Elt Ideal) ℓ) (ρ : Dev nD → PrngReg) (c : Dev nD)

/-- The launch contents of a buffer. -/
abbrev A (b : Ref sig .tc) : Buf (Elt Ideal) ((c : Thread nD τ).loc b) := m ((c : Thread nD τ).loc b)

/-- The neighbour rows as the program fetches them: the index array normalised (a negative index counted from the
    end) and the gather applied to the array `h`.  Its meaning is never opened: the reference applies the same. -/
def gatK (idx : (⟨S8x4096x16, .i32⟩ : BufTy).Contents (Elt Ideal)) (h : Act) : Nbr :=
  Host.gather gather_S8x4096x128_S8x4096x16x1_S8x4096x16x128_3_1_0_0_1_3_11128 h
    (broadcastInDim S8x4096x16x1 ![0, 1, 2] bcast_S8x4096x16_S8x4096x16x1_0_1_2
      (select (cmpi .slt idx (broadcastInDim S8x4096x16 ![] bcast_S_S8x4096x16 (constantI S_ 32 0#32)))
        (addi idx (broadcastInDim S8x4096x16 ![] bcast_S_S8x4096x16 (constantI S_ 32 4096#32))) idx))

/-- What each region's body computes, read at an index (one fact per region). -/
structure Pays : Prop where
  p0 : Reg0.PayloadFact
  p1 : Reg1.PayloadFact
  p2 : Reg2.PayloadFact
  p3 : Reg3.PayloadFact
  p4 : Reg4.PayloadFact
  p5 : Reg5.PayloadFact
  p6 : Reg6.PayloadFact

/-- The activations after the first feed-forward stage. -/
def s0 : Act :=
  ffnS (A m c main_arg0) (A m c main_arg2) (A m c main_arg3) (A m c main_arg4) (A m c main_arg5) (A m c main_arg6)
    (A m c main_arg7) (A m c main_arg8) (A m c main_arg9)

/-- Region 0 is entered with the flattened launch activations. -/
theorem w1_rows : (W1 m ρ c (Proc.devRef .tc main_v0) : Rows)
    = shapeCast S32768x128 (A m c main_arg0) shapeCasts_S8x4096x128_S32768x128 := by
  show StableHlo.after hostOps0 (W0 m ρ c) (Proc.devRef .tc main_v0) = _
  after_results
  rfl

/-- After region 0 its output, unflattened, is the first feed-forward stage of the launch activations. -/
theorem w2_act (hp : Pays) :
    shapeCast S8x4096x128 (W2 m ρ c (Proc.devRef .tc main_v1) : Rows) shapeCasts_S32768x128_S8x4096x128 = s0 m c := by
  have h : (W2 m ρ c (Proc.devRef .tc main_v1) : Rows)
      = ffnRows (W1 m ρ c (Proc.devRef .tc main_v0)) (W1 m ρ c (Proc.devRef .tc main_arg2)) (W1 m ρ c (Proc.devRef .tc main_arg3))
          (W1 m ρ c (Proc.devRef .tc main_arg4)) (W1 m ρ c (Proc.devRef .tc main_arg5)) (W1 m ρ c (Proc.devRef .tc main_arg6))
          (W1 m ρ c (Proc.devRef .tc main_arg7)) (W1 m ρ c (Proc.devRef .tc main_arg8)) (W1 m ρ c (Proc.devRef .tc main_arg9)) :=
    (W2_arr m ρ c 9).trans (Reg0.final (V1 m ρ) hp.p0 c)
  rw [h, w1_rows, kept1 m ρ c (b := main_arg2) (by decide), kept1 m ρ c (b := main_arg3) (by decide),
    kept1 m ρ c (b := main_arg4) (by decide), kept1 m ρ c (b := main_arg5) (by decide), kept1 m ρ c (b := main_arg6) (by decide),
    kept1 m ρ c (b := main_arg7) (by decide), kept1 m ρ c (b := main_arg8) (by decide), kept1 m ρ c (b := main_arg9) (by decide)]
  exact unflat_ffnRows_flat _ _ _ _ _ _ _ _ _ _ _

end Cert.KernelIdeal.Chain

end
-- ==== Proof.Chain1.lean ====
/-
  The kernel program's boundary contents, read: depth step 0.

  Entered with the activations `a` (as flat rows in the previous feed-forward region's output), the step is three
  regions among three stretches of host operations.  The host operations only re-arrange: they unflatten and
  flatten the activations, take layer 0 of each stacked weight array, and fetch the neighbour rows.  Each
  region's output array is its stage applied to its arrays as the region found them.  Read in order, the
  feed-forward region's output, unflattened, is the specification's depth step applied to `a`.
-/
import proofs.«102175_j61538291417254_1_alg».proof.Proof.Chain0

set_option maxRecDepth 16384

noncomputable section

open scoped BigOperators

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout Cert.KernelIdeal.Fold

variable (m : (ℓ : Loc nD τ sig) → Buf (Elt Ideal) ℓ) (ρ : Dev nD → PrngReg) (c : Dev nD)

set_option maxHeartbeats 16000000 in
theorem layer0 (hp : Pays) (a : Act)
    (hin : shapeCast S8x4096x128 (W2 m ρ c (Proc.devRef .tc main_v1) : Rows) shapeCasts_S32768x128_S8x4096x128 = a) :
    shapeCast S8x4096x128 (W8 m ρ c (Proc.devRef .tc main_v43) : Rows) shapeCasts_S32768x128_S8x4096x128
      = layerS (gatK (A m c main_arg1)) 0 a (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) := by
  -- the stretch before the linear region: the activations unflattened and flattened again, layer 0 of the linear weights
  have e_act : (W3 m ρ c (Proc.devRef .tc main_v2) : Act) = a := by
    refine Eq.trans ?_ hin
    show StableHlo.after hostOps1 (W2 m ρ c) (Proc.devRef .tc main_v2) = _
    after_results
    rfl
  have e_flat : (W3 m ρ c (Proc.devRef .tc main_v7) : Rows) = shapeCast S32768x128 a shapeCasts_S8x4096x128_S32768x128 := by
    have h0 : (W3 m ρ c (Proc.devRef .tc main_v7) : Rows) = shapeCast S32768x128 (shapeCast S8x4096x128 (W2 m ρ c (Proc.devRef .tc main_v1) : Rows) shapeCasts_S32768x128_S8x4096x128) shapeCasts_S8x4096x128_S32768x128 := by
      show StableHlo.after hostOps1 (W2 m ρ c) (Proc.devRef .tc main_v7) = _
      after_results
      rfl
    rw [h0, hin]
  have e_wl : (W3 m ρ c (Proc.devRef .tc main_v4) : Mat 128 128) = sl3 0 (A m c main_arg10) := by
    have h0 : (W3 m ρ c (Proc.devRef .tc main_v4) : Mat 128 128) = shapeCast S128x128 (extractStridedSlice S1x128x128 ![0, 0, 0] (W2 m ρ c (Proc.devRef .tc main_arg10)) slices_S2x128x128_S1x128x128_0_0_0) shapeCasts_S1x128x128_S128x128 := by
      show StableHlo.after hostOps1 (W2 m ρ c) (Proc.devRef .tc main_v4) = _
      after_results
      rfl
    rw [h0, kept2 m ρ c (b := main_arg10) (by decide)]
    exact slice3_eq 0 ![0, 0, 0] rfl rfl rfl _ _ _
  have e_main_v6 : (W3 m ρ c (Proc.devRef .tc main_v6) : Vc 128) = sl2 0 (A m c main_arg11) := by
    have h0 : (W3 m ρ c (Proc.devRef .tc main_v6) : Vc 128) = shapeCast S128 (extractStridedSlice S1x128 ![0, 0] (W2 m ρ c (Proc.devRef .tc main_arg11)) slices_S2x128_S1x128_0_0) shapeCasts_S1x128_S128 := by
      show StableHlo.after hostOps1 (W2 m ρ c) (Proc.devRef .tc main_v6) = _
      after_results
      rfl
    rw [h0, kept2 m ρ c (b := main_arg11) (by decide)]
    exact slice2_eq 0 ![0, 0] rfl rfl _ _ _
  -- the linear region
  have e_lin : (W4 m ρ c (Proc.devRef .tc main_v8) : Rows) = linRows (shapeCast S32768x128 a shapeCasts_S8x4096x128_S32768x128) (sl3 0 (A m c main_arg10)) (sl2 0 (A m c main_arg11)) := by
    have h0 : (W4 m ρ c (Proc.devRef .tc main_v8) : Rows) = linRows (W3 m ρ c (Proc.devRef .tc main_v7)) (W3 m ρ c (Proc.devRef .tc main_v4)) (W3 m ρ c (Proc.devRef .tc main_v6)) :=
      (W4_arr m ρ c 3).trans (Reg1.final (V3 m ρ) hp.p1 c)
    rw [h0, e_flat, e_wl, e_main_v6]
  -- the stretch before the aggregation: the linear map's output unflattened, the neighbour rows fetched, layer 0 of the batch-norm vectors
  have e_h : (W5 m ρ c (Proc.devRef .tc main_v9) : Act) = linS a (sl3 0 (A m c main_arg10)) (sl2 0 (A m c main_arg11)) := by
    have h0 : (W5 m ρ c (Proc.devRef .tc main_v9) : Act) = shapeCast S8x4096x128 (W4 m ρ c (Proc.devRef .tc main_v8) : Rows) shapeCasts_S32768x128_S8x4096x128 := by
      show StableHlo.after hostOps2 (W4 m ρ c) (Proc.devRef .tc main_v9) = _
      after_results
      rfl
    rw [h0, e_lin]
    exact unflat_linRows_flat _ _ _ _ _
  have e_nb : (W5 m ρ c (Proc.devRef .tc main_v16) : Nbr) = gatK (A m c main_arg1) (linS a (sl3 0 (A m c main_arg10)) (sl2 0 (A m c main_arg11))) := by
    have h0 : (W5 m ρ c (Proc.devRef .tc main_v16) : Nbr) = gatK (W4 m ρ c (Proc.devRef .tc main_arg1)) (shapeCast S8x4096x128 (W4 m ρ c (Proc.devRef .tc main_v8) : Rows) shapeCasts_S32768x128_S8x4096x128) := by
      show StableHlo.after hostOps2 (W4 m ρ c) (Proc.devRef .tc main_v16) = _
      after_results
      rfl
    rw [h0, kept4 m ρ c (b := main_arg1) (by decide), e_lin]
    exact congrArg (gatK (A m c main_arg1)) (unflat_linRows_flat _ _ _ _ _)
  have e_main_v18 : (W5 m ρ c (Proc.devRef .tc main_v18) : Vc 128) = sl2 0 (A m c main_arg12) := by
    have h0 : (W5 m ρ c (Proc.devRef .tc main_v18) : Vc 128) = shapeCast S128 (extractStridedSlice S1x128 ![0, 0] (W4 m ρ c (Proc.devRef .tc main_arg12)) slices_S2x128_S1x128_0_0) shapeCasts_S1x128_S128 := by
      show StableHlo.after hostOps2 (W4 m ρ c) (Proc.devRef .tc main_v18) = _
      after_results
      rfl
    rw [h0, kept4 m ρ c (b := main_arg12) (by decide)]
    exact slice2_eq 0 ![0, 0] rfl rfl _ _ _
  have e_main_v20 : (W5 m ρ c (Proc.devRef .tc main_v20) : Vc 128) = sl2 0 (A m c main_arg13) := by
    have h0 : (W5 m ρ c (Proc.devRef .tc main_v20) : Vc 128) = shapeCast S128 (extractStridedSlice S1x128 ![0, 0] (W4 m ρ c (Proc.devRef .tc main_arg13)) slices_S2x128_S1x128_0_0) shapeCasts_S1x128_S128 := by
      show StableHlo.after hostOps2 (W4 m ρ c) (Proc.devRef .tc main_v20) = _
      after_results
      rfl
    rw [h0, kept4 m ρ c (b := main_arg13) (by decide)]
    exact slice2_eq 0 ![0, 0] rfl rfl _ _ _
  have e_main_v22 : (W5 m ρ c (Proc.devRef .tc main_v22) : Vc 128) = sl2 0 (A m c main_arg14) := by
    have h0 : (W5 m ρ c (Proc.devRef .tc main_v22) : Vc 128) = shapeCast S128 (extractStridedSlice S1x128 ![0, 0] (W4 m ρ c (Proc.devRef .tc main_arg14)) slices_S2x128_S1x128_0_0) shapeCasts_S1x128_S128 := by
      show StableHlo.after hostOps2 (W4 m ρ c) (Proc.devRef .tc main_v22) = _
      after_results
      rfl
    rw [h0, kept4 m ρ c (b := main_arg14) (by decide)]
    exact slice2_eq 0 ![0, 0] rfl rfl _ _ _
  have e_main_v24 : (W5 m ρ c (Proc.devRef .tc main_v24) : Vc 128) = sl2 0 (A m c main_arg15) := by
    have h0 : (W5 m ρ c (Proc.devRef .tc main_v24) : Vc 128) = shapeCast S128 (extractStridedSlice S1x128 ![0, 0] (W4 m ρ c (Proc.devRef .tc main_arg15)) slices_S2x128_S1x128_0_0) shapeCasts_S1x128_S128 := by
      show StableHlo.after hostOps2 (W4 m ρ c) (Proc.devRef .tc main_v24) = _
      after_results
      rfl
    rw [h0, kept4 m ρ c (b := main_arg15) (by decide)]
    exact slice2_eq 0 ![0, 0] rfl rfl _ _ _
  have e_x : (W5 m ρ c (Proc.devRef .tc main_v2) : Act) = a := by
    have h0 : (W5 m ρ c (Proc.devRef .tc main_v2) : Act) = W4 m ρ c (Proc.devRef .tc main_v2) := by
      show StableHlo.after hostOps2 (W4 m ρ c) (Proc.devRef .tc main_v2) = _
      after_results
    rw [h0, W4_of_ne m ρ c main_v2 (by decide), e_act]
  -- the aggregation region
  have e_agg : (W6 m ρ c (Proc.devRef .tc main_v25) : Act)
      = aggS a (linS a (sl3 0 (A m c main_arg10)) (sl2 0 (A m c main_arg11)))
          (gatK (A m c main_arg1) (linS a (sl3 0 (A m c main_arg10)) (sl2 0 (A m c main_arg11))))
          (sl2 0 (A m c main_arg12)) (sl2 0 (A m c main_arg13)) (sl2 0 (A m c main_arg14)) (sl2 0 (A m c main_arg15)) := by
    have h0 : (W6 m ρ c (Proc.devRef .tc main_v25) : Act) = aggS (W5 m ρ c (Proc.devRef .tc main_v2)) (W5 m ρ c (Proc.devRef .tc main_v9)) (W5 m ρ c (Proc.devRef .tc main_v16)) (W5 m ρ c (Proc.devRef .tc main_v18)) (W5 m ρ c (Proc.devRef .tc main_v20)) (W5 m ρ c (Proc.devRef .tc main_v22)) (W5 m ρ c (Proc.devRef .tc main_v24)) :=
      (W6_arr m ρ c 7).trans (Reg2.final (V5 m ρ) hp.p2 c)
    rw [h0, e_x, e_h, e_nb, e_main_v18, e_main_v20, e_main_v22, e_main_v24]
  -- the stretch before the feed-forward region: the aggregation's output flattened, layer 0 of the feed-forward weights
  have e_flat2 : (W7 m ρ c (Proc.devRef .tc main_v42) : Rows) = shapeCast S32768x128 (W6 m ρ c (Proc.devRef .tc main_v25) : Act) shapeCasts_S8x4096x128_S32768x128 := by
    show StableHlo.after hostOps3 (W6 m ρ c) (Proc.devRef .tc main_v42) = _
    after_results
    rfl
  have e_w1 : (W7 m ρ c (Proc.devRef .tc main_v27) : Mat 128 512) = sl3 0 (A m c main_arg16) := by
    have h0 : (W7 m ρ c (Proc.devRef .tc main_v27) : Mat 128 512) = shapeCast S128x512 (extractStridedSlice S1x128x512 ![0, 0, 0] (W6 m ρ c (Proc.devRef .tc main_arg16)) slices_S2x128x512_S1x128x512_0_0_0) shapeCasts_S1x128x512_S128x512 := by
      show StableHlo.after hostOps3 (W6 m ρ c) (Proc.devRef .tc main_v27) = _
      after_results
      rfl
    rw [h0, kept6 m ρ c (b := main_arg16) (by decide)]
    exact slice3_eq 0 ![0, 0, 0] rfl rfl rfl _ _ _
  have e_b1 : (W7 m ρ c (Proc.devRef .tc main_v29) : Vc 512) = sl2 0 (A m c main_arg17) := by
    have h0 : (W7 m ρ c (Proc.devRef .tc main_v29) : Vc 512) = shapeCast S512 (extractStridedSlice S1x512 ![0, 0] (W6 m ρ c (Proc.devRef .tc main_arg17)) slices_S2x512_S1x512_0_0) shapeCasts_S1x512_S512 := by
      show StableHlo.after hostOps3 (W6 m ρ c) (Proc.devRef .tc main_v29) = _
      after_results
      rfl
    rw [h0, kept6 m ρ c (b := main_arg17) (by decide)]
    exact slice2_eq 0 ![0, 0] rfl rfl _ _ _
  have e_w2 : (W7 m ρ c (Proc.devRef .tc main_v31) : Mat 512 128) = sl3 0 (A m c main_arg18) := by
    have h0 : (W7 m ρ c (Proc.devRef .tc main_v31) : Mat 512 128) = shapeCast S512x128 (extractStridedSlice S1x512x128 ![0, 0, 0] (W6 m ρ c (Proc.devRef .tc main_arg18)) slices_S2x512x128_S1x512x128_0_0_0) shapeCasts_S1x512x128_S512x128 := by
      show StableHlo.after hostOps3 (W6 m ρ c) (Proc.devRef .tc main_v31) = _
      after_results
      rfl
    rw [h0, kept6 m ρ c (b := main_arg18) (by decide)]
    exact slice3_eq 0 ![0, 0, 0] rfl rfl rfl _ _ _
  have e_main_v33 : (W7 m ρ c (Proc.devRef .tc main_v33) : Vc 128) = sl2 0 (A m c main_arg19) := by
    have h0 : (W7 m ρ c (Proc.devRef .tc main_v33) : Vc 128) = shapeCast S128 (extractStridedSlice S1x128 ![0, 0] (W6 m ρ c (Proc.devRef .tc main_arg19)) slices_S2x128_S1x128_0_0) shapeCasts_S1x128_S128 := by
      show StableHlo.after hostOps3 (W6 m ρ c) (Proc.devRef .tc main_v33) = _
      after_results
      rfl
    rw [h0, kept6 m ρ c (b := main_arg19) (by decide)]
    exact slice2_eq 0 ![0, 0] rfl rfl _ _ _
  have e_main_v35 : (W7 m ρ c (Proc.devRef .tc main_v35) : Vc 128) = sl2 0 (A m c main_arg20) := by
    have h0 : (W7 m ρ c (Proc.devRef .tc main_v35) : Vc 128) = shapeCast S128 (extractStridedSlice S1x128 ![0, 0] (W6 m ρ c (Proc.devRef .tc main_arg20)) slices_S2x128_S1x128_0_0) shapeCasts_S1x128_S128 := by
      show StableHlo.after hostOps3 (W6 m ρ c) (Proc.devRef .tc main_v35) = _
      after_results
      rfl
    rw [h0, kept6 m ρ c (b := main_arg20) (by decide)]
    exact slice2_eq 0 ![0, 0] rfl rfl _ _ _
  have e_main_v37 : (W7 m ρ c (Proc.devRef .tc main_v37) : Vc 128) = sl2 0 (A m c main_arg21) := by
    have h0 : (W7 m ρ c (Proc.devRef .tc main_v37) : Vc 128) = shapeCast S128 (extractStridedSlice S1x128 ![0, 0] (W6 m ρ c (Proc.devRef .tc main_arg21)) slices_S2x128_S1x128_0_0) shapeCasts_S1x128_S128 := by
      show StableHlo.after hostOps3 (W6 m ρ c) (Proc.devRef .tc main_v37) = _
      after_results
      rfl
    rw [h0, kept6 m ρ c (b := main_arg21) (by decide)]
    exact slice2_eq 0 ![0, 0] rfl rfl _ _ _
  have e_main_v39 : (W7 m ρ c (Proc.devRef .tc main_v39) : Vc 128) = sl2 0 (A m c main_arg22) := by
    have h0 : (W7 m ρ c (Proc.devRef .tc main_v39) : Vc 128) = shapeCast S128 (extractStridedSlice S1x128 ![0, 0] (W6 m ρ c (Proc.devRef .tc main_arg22)) slices_S2x128_S1x128_0_0) shapeCasts_S1x128_S128 := by
      show StableHlo.after hostOps3 (W6 m ρ c) (Proc.devRef .tc main_v39) = _
      after_results
      rfl
    rw [h0, kept6 m ρ c (b := main_arg22) (by decide)]
    exact slice2_eq 0 ![0, 0] rfl rfl _ _ _
  have e_main_v41 : (W7 m ρ c (Proc.devRef .tc main_v41) : Vc 128) = sl2 0 (A m c main_arg23) := by
    have h0 : (W7 m ρ c (Proc.devRef .tc main_v41) : Vc 128) = shapeCast S128 (extractStridedSlice S1x128 ![0, 0] (W6 m ρ c (Proc.devRef .tc main_arg23)) slices_S2x128_S1x128_0_0) shapeCasts_S1x128_S128 := by
      show StableHlo.after hostOps3 (W6 m ρ c) (Proc.devRef .tc main_v41) = _
      after_results
      rfl
    rw [h0, kept6 m ρ c (b := main_arg23) (by decide)]
    exact slice2_eq 0 ![0, 0] rfl rfl _ _ _
  -- the feed-forward region
  have e_ffn : (W8 m ρ c (Proc.devRef .tc main_v43) : Rows) = ffnRows (W7 m ρ c (Proc.devRef .tc main_v42)) (W7 m ρ c (Proc.devRef .tc main_v27)) (W7 m ρ c (Proc.devRef .tc main_v29)) (W7 m ρ c (Proc.devRef .tc main_v31)) (W7 m ρ c (Proc.devRef .tc main_v33)) (W7 m ρ c (Proc.devRef .tc main_v35)) (W7 m ρ c (Proc.devRef .tc main_v37)) (W7 m ρ c (Proc.devRef .tc main_v39)) (W7 m ρ c (Proc.devRef .tc main_v41)) :=
    (W8_arr m ρ c 9).trans (Reg3.final (V7 m ρ) hp.p3 c)
  rw [e_ffn, e_flat2, e_w1, e_b1, e_w2, e_main_v33, e_main_v35, e_main_v37, e_main_v39, e_main_v41, e_agg]
  exact unflat_ffnRows_flat _ _ _ _ _ _ _ _ _ _ _

end Cert.KernelIdeal.Chain

end
-- ==== Proof.Chain2.lean ====
/-
  The kernel program's boundary contents, read: depth step 1.

  Entered with the activations `a` (as flat rows in the previous feed-forward region's output), the step is three
  regions among three stretches of host operations.  The host operations only re-arrange: they unflatten and
  flatten the activations, take layer 1 of each stacked weight array, and fetch the neighbour rows.  Each
  region's output array is its stage applied to its arrays as the region found them.  Read in order, the
  feed-forward region's output, unflattened, is the specification's depth step applied to `a`.
-/
import proofs.«102175_j61538291417254_1_alg».proof.Proof.Chain0

set_option maxRecDepth 16384

noncomputable section

open scoped BigOperators

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout Cert.KernelIdeal.Fold

variable (m : (ℓ : Loc nD τ sig) → Buf (Elt Ideal) ℓ) (ρ : Dev nD → PrngReg) (c : Dev nD)

set_option maxHeartbeats 16000000 in
theorem layer1 (hp : Pays) (a : Act)
    (hin : shapeCast S8x4096x128 (W8 m ρ c (Proc.devRef .tc main_v43) : Rows) shapeCasts_S32768x128_S8x4096x128 = a) :
    shapeCast S8x4096x128 (W14 m ρ c (Proc.devRef .tc main_v85) : Rows) shapeCasts_S32768x128_S8x4096x128
      = layerS (gatK (A m c main_arg1)) 1 a (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) := by
  -- the stretch before the linear region: the activations unflattened and flattened again, layer 1 of the linear weights
  have e_act : (W9 m ρ c (Proc.devRef .tc main_v44) : Act) = a := by
    refine Eq.trans ?_ hin
    show StableHlo.after hostOps4 (W8 m ρ c) (Proc.devRef .tc main_v44) = _
    after_results
    rfl
  have e_flat : (W9 m ρ c (Proc.devRef .tc main_v49) : Rows) = shapeCast S32768x128 a shapeCasts_S8x4096x128_S32768x128 := by
    have h0 : (W9 m ρ c (Proc.devRef .tc main_v49) : Rows) = shapeCast S32768x128 (shapeCast S8x4096x128 (W8 m ρ c (Proc.devRef .tc main_v43) : Rows) shapeCasts_S32768x128_S8x4096x128) shapeCasts_S8x4096x128_S32768x128 := by
      show StableHlo.after hostOps4 (W8 m ρ c) (Proc.devRef .tc main_v49) = _
      after_results
      rfl
    rw [h0, hin]
  have e_wl : (W9 m ρ c (Proc.devRef .tc main_v46) : Mat 128 128) = sl3 1 (A m c main_arg10) := by
    have h0 : (W9 m ρ c (Proc.devRef .tc main_v46) : Mat 128 128) = shapeCast S128x128 (extractStridedSlice S1x128x128 ![1, 0, 0] (W8 m ρ c (Proc.devRef .tc main_arg10)) slices_S2x128x128_S1x128x128_1_0_0) shapeCasts_S1x128x128_S128x128 := by
      show StableHlo.after hostOps4 (W8 m ρ c) (Proc.devRef .tc main_v46) = _
      after_results
      rfl
    rw [h0, kept8 m ρ c (b := main_arg10) (by decide)]
    exact slice3_eq 1 ![1, 0, 0] rfl rfl rfl _ _ _
  have e_main_v48 : (W9 m ρ c (Proc.devRef .tc main_v48) : Vc 128) = sl2 1 (A m c main_arg11) := by
    have h0 : (W9 m ρ c (Proc.devRef .tc main_v48) : Vc 128) = shapeCast S128 (extractStridedSlice S1x128 ![1, 0] (W8 m ρ c (Proc.devRef .tc main_arg11)) slices_S2x128_S1x128_1_0) shapeCasts_S1x128_S128 := by
      show StableHlo.after hostOps4 (W8 m ρ c) (Proc.devRef .tc main_v48) = _
      after_results
      rfl
    rw [h0, kept8 m ρ c (b := main_arg11) (by decide)]
    exact slice2_eq 1 ![1, 0] rfl rfl _ _ _
  -- the linear region
  have e_lin : (W10 m ρ c (Proc.devRef .tc main_v50) : Rows) = linRows (shapeCast S32768x128 a shapeCasts_S8x4096x128_S32768x128) (sl3 1 (A m c main_arg10)) (sl2 1 (A m c main_arg11)) := by
    have h0 : (W10 m ρ c (Proc.devRef .tc main_v50) : Rows) = linRows (W9 m ρ c (Proc.devRef .tc main_v49)) (W9 m ρ c (Proc.devRef .tc main_v46)) (W9 m ρ c (Proc.devRef .tc main_v48)) :=
      (W10_arr m ρ c 3).trans (Reg4.final (V9 m ρ) hp.p4 c)
    rw [h0, e_flat, e_wl, e_main_v48]
  -- the stretch before the aggregation: the linear map's output unflattened, the neighbour rows fetched, layer 1 of the batch-norm vectors
  have e_h : (W11 m ρ c (Proc.devRef .tc main_v51) : Act) = linS a (sl3 1 (A m c main_arg10)) (sl2 1 (A m c main_arg11)) := by
    have h0 : (W11 m ρ c (Proc.devRef .tc main_v51) : Act) = shapeCast S8x4096x128 (W10 m ρ c (Proc.devRef .tc main_v50) : Rows) shapeCasts_S32768x128_S8x4096x128 := by
      show StableHlo.after hostOps5 (W10 m ρ c) (Proc.devRef .tc main_v51) = _
      after_results
      rfl
    rw [h0, e_lin]
    exact unflat_linRows_flat _ _ _ _ _
  have e_nb : (W11 m ρ c (Proc.devRef .tc main_v58) : Nbr) = gatK (A m c main_arg1) (linS a (sl3 1 (A m c main_arg10)) (sl2 1 (A m c main_arg11))) := by
    have h0 : (W11 m ρ c (Proc.devRef .tc main_v58) : Nbr) = gatK (W10 m ρ c (Proc.devRef .tc main_arg1)) (shapeCast S8x4096x128 (W10 m ρ c (Proc.devRef .tc main_v50) : Rows) shapeCasts_S32768x128_S8x4096x128) := by
      show StableHlo.after hostOps5 (W10 m ρ c) (Proc.devRef .tc main_v58) = _
      after_results
      rfl
    rw [h0, kept10 m ρ c (b := main_arg1) (by decide), e_lin]
    exact congrArg (gatK (A m c main_arg1)) (unflat_linRows_flat _ _ _ _ _)
  have e_main_v60 : (W11 m ρ c (Proc.devRef .tc main_v60) : Vc 128) = sl2 1 (A m c main_arg12) := by
    have h0 : (W11 m ρ c (Proc.devRef .tc main_v60) : Vc 128) = shapeCast S128 (extractStridedSlice S1x128 ![1, 0] (W10 m ρ c (Proc.devRef .tc main_arg12)) slices_S2x128_S1x128_1_0) shapeCasts_S1x128_S128 := by
      show StableHlo.after hostOps5 (W10 m ρ c) (Proc.devRef .tc main_v60) = _
      after_results
      rfl
    rw [h0, kept10 m ρ c (b := main_arg12) (by decide)]
    exact slice2_eq 1 ![1, 0] rfl rfl _ _ _
  have e_main_v62 : (W11 m ρ c (Proc.devRef .tc main_v62) : Vc 128) = sl2 1 (A m c main_arg13) := by
    have h0 : (W11 m ρ c (Proc.devRef .tc main_v62) : Vc 128) = shapeCast S128 (extractStridedSlice S1x128 ![1, 0] (W10 m ρ c (Proc.devRef .tc main_arg13)) slices_S2x128_S1x128_1_0) shapeCasts_S1x128_S128 := by
      show StableHlo.after hostOps5 (W10 m ρ c) (Proc.devRef .tc main_v62) = _
      after_results
      rfl
    rw [h0, kept10 m ρ c (b := main_arg13) (by decide)]
    exact slice2_eq 1 ![1, 0] rfl rfl _ _ _
  have e_main_v64 : (W11 m ρ c (Proc.devRef .tc main_v64) : Vc 128) = sl2 1 (A m c main_arg14) := by
    have h0 : (W11 m ρ c (Proc.devRef .tc main_v64) : Vc 128) = shapeCast S128 (extractStridedSlice S1x128 ![1, 0] (W10 m ρ c (Proc.devRef .tc main_arg14)) slices_S2x128_S1x128_1_0) shapeCasts_S1x128_S128 := by
      show StableHlo.after hostOps5 (W10 m ρ c) (Proc.devRef .tc main_v64) = _
      after_results
      rfl
    rw [h0, kept10 m ρ c (b := main_arg14) (by decide)]
    exact slice2_eq 1 ![1, 0] rfl rfl _ _ _
  have e_main_v66 : (W11 m ρ c (Proc.devRef .tc main_v66) : Vc 128) = sl2 1 (A m c main_arg15) := by
    have h0 : (W11 m ρ c (Proc.devRef .tc main_v66) : Vc 128) = shapeCast S128 (extractStridedSlice S1x128 ![1, 0] (W10 m ρ c (Proc.devRef .tc main_arg15)) slices_S2x128_S1x128_1_0) shapeCasts_S1x128_S128 := by
      show StableHlo.after hostOps5 (W10 m ρ c) (Proc.devRef .tc main_v66) = _
      after_results
      rfl
    rw [h0, kept10 m ρ c (b := main_arg15) (by decide)]
    exact slice2_eq 1 ![1, 0] rfl rfl _ _ _
  have e_x : (W11 m ρ c (Proc.devRef .tc main_v44) : Act) = a := by
    have h0 : (W11 m ρ c (Proc.devRef .tc main_v44) : Act) = W10 m ρ c (Proc.devRef .tc main_v44) := by
      show StableHlo.after hostOps5 (W10 m ρ c) (Proc.devRef .tc main_v44) = _
      after_results
    rw [h0, W10_of_ne m ρ c main_v44 (by decide), e_act]
  -- the aggregation region
  have e_agg : (W12 m ρ c (Proc.devRef .tc main_v67) : Act)
      = aggS a (linS a (sl3 1 (A m c main_arg10)) (sl2 1 (A m c main_arg11)))
          (gatK (A m c main_arg1) (linS a (sl3 1 (A m c main_arg10)) (sl2 1 (A m c main_arg11))))
          (sl2 1 (A m c main_arg12)) (sl2 1 (A m c main_arg13)) (sl2 1 (A m c main_arg14)) (sl2 1 (A m c main_arg15)) := by
    have h0 : (W12 m ρ c (Proc.devRef .tc main_v67) : Act) = aggS (W11 m ρ c (Proc.devRef .tc main_v44)) (W11 m ρ c (Proc.devRef .tc main_v51)) (W11 m ρ c (Proc.devRef .tc main_v58)) (W11 m ρ c (Proc.devRef .tc main_v60)) (W11 m ρ c (Proc.devRef .tc main_v62)) (W11 m ρ c (Proc.devRef .tc main_v64)) (W11 m ρ c (Proc.devRef .tc main_v66)) :=
      (W12_arr m ρ c 7).trans (Reg5.final (V11 m ρ) hp.p5 c)
    rw [h0, e_x, e_h, e_nb, e_main_v60, e_main_v62, e_main_v64, e_main_v66]
  -- the stretch before the feed-forward region: the aggregation's output flattened, layer 1 of the feed-forward weights
  have e_flat2 : (W13 m ρ c (Proc.devRef .tc main_v84) : Rows) = shapeCast S32768x128 (W12 m ρ c (Proc.devRef .tc main_v67) : Act) shapeCasts_S8x4096x128_S32768x128 := by
    show StableHlo.after hostOps6 (W12 m ρ c) (Proc.devRef .tc main_v84) = _
    after_results
    rfl
  have e_w1 : (W13 m ρ c (Proc.devRef .tc main_v69) : Mat 128 512) = sl3 1 (A m c main_arg16) := by
    have h0 : (W13 m ρ c (Proc.devRef .tc main_v69) : Mat 128 512) = shapeCast S128x512 (extractStridedSlice S1x128x512 ![1, 0, 0] (W12 m ρ c (Proc.devRef .tc main_arg16)) slices_S2x128x512_S1x128x512_1_0_0) shapeCasts_S1x128x512_S128x512 := by
      show StableHlo.after hostOps6 (W12 m ρ c) (Proc.devRef .tc main_v69) = _
      after_results
      rfl
    rw [h0, kept12 m ρ c (b := main_arg16) (by decide)]
    exact slice3_eq 1 ![1, 0, 0] rfl rfl rfl _ _ _
  have e_b1 : (W13 m ρ c (Proc.devRef .tc main_v71) : Vc 512) = sl2 1 (A m c main_arg17) := by
    have h0 : (W13 m ρ c (Proc.devRef .tc main_v71) : Vc 512) = shapeCast S512 (extractStridedSlice S1x512 ![1, 0] (W12 m ρ c (Proc.devRef .tc main_arg17)) slices_S2x512_S1x512_1_0) shapeCasts_S1x512_S512 := by
      show StableHlo.after hostOps6 (W12 m ρ c) (Proc.devRef .tc main_v71) = _
      after_results
      rfl
    rw [h0, kept12 m ρ c (b := main_arg17) (by decide)]
    exact slice2_eq 1 ![1, 0] rfl rfl _ _ _
  have e_w2 : (W13 m ρ c (Proc.devRef .tc main_v73) : Mat 512 128) = sl3 1 (A m c main_arg18) := by
    have h0 : (W13 m ρ c (Proc.devRef .tc main_v73) : Mat 512 128) = shapeCast S512x128 (extractStridedSlice S1x512x128 ![1, 0, 0] (W12 m ρ c (Proc.devRef .tc main_arg18)) slices_S2x512x128_S1x512x128_1_0_0) shapeCasts_S1x512x128_S512x128 := by
      show StableHlo.after hostOps6 (W12 m ρ c) (Proc.devRef .tc main_v73) = _
      after_results
      rfl
    rw [h0, kept12 m ρ c (b := main_arg18) (by decide)]
    exact slice3_eq 1 ![1, 0, 0] rfl rfl rfl _ _ _
  have e_main_v75 : (W13 m ρ c (Proc.devRef .tc main_v75) : Vc 128) = sl2 1 (A m c main_arg19) := by
    have h0 : (W13 m ρ c (Proc.devRef .tc main_v75) : Vc 128) = shapeCast S128 (extractStridedSlice S1x128 ![1, 0] (W12 m ρ c (Proc.devRef .tc main_arg19)) slices_S2x128_S1x128_1_0) shapeCasts_S1x128_S128 := by
      show StableHlo.after hostOps6 (W12 m ρ c) (Proc.devRef .tc main_v75) = _
      after_results
      rfl
    rw [h0, kept12 m ρ c (b := main_arg19) (by decide)]
    exact slice2_eq 1 ![1, 0] rfl rfl _ _ _
  have e_main_v77 : (W13 m ρ c (Proc.devRef .tc main_v77) : Vc 128) = sl2 1 (A m c main_arg20) := by
    have h0 : (W13 m ρ c (Proc.devRef .tc main_v77) : Vc 128) = shapeCast S128 (extractStridedSlice S1x128 ![1, 0] (W12 m ρ c (Proc.devRef .tc main_arg20)) slices_S2x128_S1x128_1_0) shapeCasts_S1x128_S128 := by
      show StableHlo.after hostOps6 (W12 m ρ c) (Proc.devRef .tc main_v77) = _
      after_results
      rfl
    rw [h0, kept12 m ρ c (b := main_arg20) (by decide)]
    exact slice2_eq 1 ![1, 0] rfl rfl _ _ _
  have e_main_v79 : (W13 m ρ c (Proc.devRef .tc main_v79) : Vc 128) = sl2 1 (A m c main_arg21) := by
    have h0 : (W13 m ρ c (Proc.devRef .tc main_v79) : Vc 128) = shapeCast S128 (extractStridedSlice S1x128 ![1, 0] (W12 m ρ c (Proc.devRef .tc main_arg21)) slices_S2x128_S1x128_1_0) shapeCasts_S1x128_S128 := by
      show StableHlo.after hostOps6 (W12 m ρ c) (Proc.devRef .tc main_v79) = _
      after_results
      rfl
    rw [h0, kept12 m ρ c (b := main_arg21) (by decide)]
    exact slice2_eq 1 ![1, 0] rfl rfl _ _ _
  have e_main_v81 : (W13 m ρ c (Proc.devRef .tc main_v81) : Vc 128) = sl2 1 (A m c main_arg22) := by
    have h0 : (W13 m ρ c (Proc.devRef .tc main_v81) : Vc 128) = shapeCast S128 (extractStridedSlice S1x128 ![1, 0] (W12 m ρ c (Proc.devRef .tc main_arg22)) slices_S2x128_S1x128_1_0) shapeCasts_S1x128_S128 := by
      show StableHlo.after hostOps6 (W12 m ρ c) (Proc.devRef .tc main_v81) = _
      after_results
      rfl
    rw [h0, kept12 m ρ c (b := main_arg22) (by decide)]
    exact slice2_eq 1 ![1, 0] rfl rfl _ _ _
  have e_main_v83 : (W13 m ρ c (Proc.devRef .tc main_v83) : Vc 128) = sl2 1 (A m c main_arg23) := by
    have h0 : (W13 m ρ c (Proc.devRef .tc main_v83) : Vc 128) = shapeCast S128 (extractStridedSlice S1x128 ![1, 0] (W12 m ρ c (Proc.devRef .tc main_arg23)) slices_S2x128_S1x128_1_0) shapeCasts_S1x128_S128 := by
      show StableHlo.after hostOps6 (W12 m ρ c) (Proc.devRef .tc main_v83) = _
      after_results
      rfl
    rw [h0, kept12 m ρ c (b := main_arg23) (by decide)]
    exact slice2_eq 1 ![1, 0] rfl rfl _ _ _
  -- the feed-forward region
  have e_ffn : (W14 m ρ c (Proc.devRef .tc main_v85) : Rows) = ffnRows (W13 m ρ c (Proc.devRef .tc main_v84)) (W13 m ρ c (Proc.devRef .tc main_v69)) (W13 m ρ c (Proc.devRef .tc main_v71)) (W13 m ρ c (Proc.devRef .tc main_v73)) (W13 m ρ c (Proc.devRef .tc main_v75)) (W13 m ρ c (Proc.devRef .tc main_v77)) (W13 m ρ c (Proc.devRef .tc main_v79)) (W13 m ρ c (Proc.devRef .tc main_v81)) (W13 m ρ c (Proc.devRef .tc main_v83)) :=
    (W14_arr m ρ c 9).trans (Reg6.final (V13 m ρ) hp.p6 c)
  rw [e_ffn, e_flat2, e_w1, e_b1, e_w2, e_main_v75, e_main_v77, e_main_v79, e_main_v81, e_main_v83, e_agg]
  exact unflat_ffnRows_flat _ _ _ _ _ _ _ _ _ _ _

end Cert.KernelIdeal.Chain

end
-- ==== Proof.Chain3.lean ====
/-
  The kernel program's result, read.

  The last host operation unflattens the last feed-forward region's output.  Composing the first feed-forward
  stage with the two depth steps, the result buffer at the last boundary holds the specification's network of
  the launch contents of the arguments.
-/
import proofs.«102175_j61538291417254_1_alg».proof.Proof.Chain0
import proofs.«102175_j61538291417254_1_alg».proof.Proof.Chain1
import proofs.«102175_j61538291417254_1_alg».proof.Proof.Chain2

set_option maxRecDepth 16384

noncomputable section

open scoped BigOperators

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec Cert.Layout Cert.KernelIdeal.Fold

variable (m : (ℓ : Loc nD τ sig) → Buf (Elt Ideal) ℓ) (ρ : Dev nD → PrngReg) (c : Dev nD)

/-- At the last boundary the result buffer holds the network of the arguments' launch contents. -/
theorem result (hp : Pays) :
    (W15 m ρ c (Proc.devRef .tc main_v86) : Act)
      = netS (gatK (A m c main_arg1)) (A m c main_arg0) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) := by
  have h0 : (W15 m ρ c (Proc.devRef .tc main_v86) : Act)
      = shapeCast S8x4096x128 (W14 m ρ c (Proc.devRef .tc main_v85) : Rows) shapeCasts_S32768x128_S8x4096x128 := by
    show StableHlo.after hostOps7 (W14 m ρ c) (Proc.devRef .tc main_v86) = _
    after_results
    rfl
  rw [h0, layer1 m ρ c hp _ (layer0 m ρ c hp _ (w2_act m ρ c hp))]
  rfl

end Cert.KernelIdeal.Chain

end
-- ==== Proof.KernelValue.lean ====
/-
  The idealized kernel's run, re-posted: every weakly fair execution terminates without a fault, the result buffer
  ends at the specification's network of the arguments as launched, and the arguments end unchanged.
-/
import proofs.«102175_j61538291417254_1_alg».proof.Proof.KernelRun
import proofs.«102175_j61538291417254_1_alg».proof.Proof.Chain3

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Spec Cert.KernelIdeal.Chain

/-- The run of the idealized kernel with its result named. -/
theorem run (hp : Pays) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86)
        = netS (gatK (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ Cert.KernelIdeal.Named.result_mem).trans (result m ρ c hp),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c),
     (h c _ (mem_uc main_arg22 (by decide))).trans (W15_main_arg22 m ρ c),
     (h c _ (mem_uc main_arg23 (by decide))).trans (W15_main_arg23 m ρ c)⟩)
    (Cert.KernelIdeal.Named.run_all m ρ)

end Cert.KernelIdeal.Value

end
-- ==== Proof.RefStages.lean ====
/-
  The reference program's stages as functions of arbitrary operands, and what each computes.

  Each definition below is, literally, the reference's composition of array operations for one stage of the
  network, with the stage's inputs as variables: the feed-forward stage, the linear map, the edge aggregation, the
  neighbour gather, and "layer l of a stacked weight array".  Each is then read at an index and identified with the
  program-free specification (Spec.lean): a matrix product is the finite sum over the contracted channel, a
  per-channel vector spread over all points reads the vector at the channel, the rectifier is the maximum against the
  zero word, the maximum-reduce over the neighbour axis is the finite maximum over the 16 neighbours starting from
  the minus-infinity word.  The gather's meaning is never opened.
-/
import proofs.«102175_j61538291417254_1_alg».proof.Proof.Gen.ReferenceIdeal
import proofs.«102175_j61538291417254_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.RefStages

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable {F : FTy → Type} [FloatOps F]

/-- The contents of a single-precision array of shape `s`. -/
abbrev Arr (F : FTy → Type) [FloatOps F] (s : Shape) : Type := (⟨s, .f32⟩ : BufTy).Contents (Elt F)

/-! ## The stages, as the reference composes them -/

/-- A 128-channel vector spread over all points: `[128] → [1,1,128] → [8,4096,128]`. -/
def chan128 (v : Arr F S128) : Arr F S8x4096x128 :=
  broadcastInDim S8x4096x128 ![0, 1, 2] bcast_S1x1x128_S8x4096x128_0_1_2 (broadcastInDim S1x1x128 ![2] bcast_S128_S1x1x128_2 v)

/-- A 512-channel vector spread over all points: `[512] → [1,1,512] → [8,4096,512]`. -/
def chan512 (v : Arr F S512) : Arr F S8x4096x512 :=
  broadcastInDim S8x4096x512 ![0, 1, 2] bcast_S1x1x512_S8x4096x512_0_1_2 (broadcastInDim S1x1x512 ![2] bcast_S512_S1x1x512_2 v)

/-- The batch norm's per-channel scale: gamma · rsqrt (var + eps), eps a splat of the 1e-5 word. -/
def scaleH (g var : Arr F S128) : Arr F S128 :=
  mulf g (Host.rsqrt (addf var (broadcastInDim S128 ![] bcast_S_S128 (constant S_ .f32 0x3727C5AC#32))))

/-- Inference-mode batch norm of an activation array, per channel. -/
def bnH (y : Arr F S8x4096x128) (g beta mu var : Arr F S128) : Arr F S8x4096x128 :=
  addf (mulf (subf y (chan128 mu)) (chan128 (scaleH g var))) (chan128 beta)

/-- The rectifier: the maximum against a splat of the zero word. -/
def reluH (y : Arr F S8x4096x512) : Arr F S8x4096x512 :=
  maximumf y (broadcastInDim S8x4096x512 ![] bcast_S_S8x4096x512 (constant S_ .f32 0x00000000#32))

/-- The feed-forward stage: X + bn (relu (X · W1 + b1) · W2 + b2). -/
def ffnH (X : Arr F S8x4096x128) (w1 : Arr F S128x512) (b1 : Arr F S512) (w2 : Arr F S512x128)
    (b2 g beta mu var : Arr F S128) : Arr F S8x4096x128 :=
  addf X (bnH (addf (Host.dotGeneral dot_S8x4096x512_S512x128_S8x4096x128_2_0_01_1_n_n none
      (reluH (addf (Host.dotGeneral dot_S8x4096x128_S128x512_S8x4096x512_2_0_01_1_n_n none X w1) (chan512 b1))) w2)
    (chan128 b2)) g beta mu var)

/-- The linear map: X · W + b. -/
def linH (X : Arr F S8x4096x128) (w : Arr F S128x128) (b : Arr F S128) : Arr F S8x4096x128 :=
  addf (Host.dotGeneral dot_S8x4096x128_S128x128_S8x4096x128_2_0_01_1_n_n none X w) (chan128 b)

/-- A point's own row repeated for each of its 16 neighbours: `[8,4096,128] → [8,4096,1,128] → [8,4096,16,128]`. -/
def centreH (h : Arr F S8x4096x128) : Arr F S8x4096x16x128 :=
  broadcastInDim S8x4096x16x128 ![0, 1, 2, 3] bcast_S8x4096x1x128_S8x4096x16x128_0_1_2_3
    (broadcastInDim S8x4096x1x128 ![0, 1, 3] bcast_S8x4096x128_S8x4096x1x128_0_1_3 h)

/-- The edge aggregation: x + bn (max over the neighbour axis of (nb - centre), from the minus-infinity word). -/
def aggH (x h : Arr F S8x4096x128) (nb : Arr F S8x4096x16x128) (g beta mu var : Arr F S128) : Arr F S8x4096x128 :=
  addf x (bnH (Host.reduce FloatOps.maximumf (subf nb (centreH h)) (constant S_ .f32 0xFF800000#32)
    reducesTo_S8x4096x16x128_S8x4096x128_d2 h_S_) g beta mu var)

/-- The neighbour gather of the reference: negative indices wrapped by adding 4096, an index axis of size one
    appended, and `stablehlo.gather` of the rows of `h`.  Its meaning is not opened anywhere. -/
def gatH (idx : (⟨S8x4096x16, .i32⟩ : BufTy).Contents (Elt F)) (h : Arr F S8x4096x128) : Arr F S8x4096x16x128 :=
  Host.gather gather_S8x4096x128_S8x4096x16x1_S8x4096x16x128_3_1_0_0_1_3_11128 h
    (broadcastInDim S8x4096x16x1 ![0, 1, 2] bcast_S8x4096x16_S8x4096x16x1_0_1_2
      (select (cmpi .slt idx (broadcastInDim S8x4096x16 ![] bcast_S_S8x4096x16 (constantI S_ 32 0#32)))
        (addi idx (broadcastInDim S8x4096x16 ![] bcast_S_S8x4096x16 (constantI S_ 32 4096#32))) idx))

/-! ## Reading the layout operations at an index (any instance) -/

/-- A 128-channel vector spread over all points reads the vector at the point's channel. -/
theorem chan128_apply (v : Arr F S128) (i : S8x4096x128.Idx) : chan128 v i = v (ix1 (i 2)) := by
  unfold chan128
  refine (broadcastInDim_apply _ bcast_S1x1x128_S8x4096x128_0_1_2 _ i (ix3 (0 : Fin 1) (0 : Fin 1) (i 2)) (fun a => ?_)).trans
    (broadcastInDim_apply _ bcast_S128_S1x1x128_2 v _ (ix1 (i 2)) (fun a => ?_))
  · match a with
    | ⟨0, _⟩ => show 0 = if (1 : Nat) = 1 then 0 else (i 0).val; rw [if_pos rfl]
    | ⟨1, _⟩ => show 0 = if (1 : Nat) = 1 then 0 else (i 1).val; rw [if_pos rfl]
    | ⟨2, _⟩ => show (i 2).val = if (128 : Nat) = 1 then 0 else (i 2).val; rw [if_neg (by decide)]
  · match a with
    | ⟨0, _⟩ => show (i 2).val = if (128 : Nat) = 1 then 0 else (i 2).val; rw [if_neg (by decide)]

/-- A 512-channel vector spread over all points reads the vector at the point's channel. -/
theorem chan512_apply (v : Arr F S512) (i : S8x4096x512.Idx) : chan512 v i = v (ix1 (i 2)) := by
  unfold chan512
  refine (broadcastInDim_apply _ bcast_S1x1x512_S8x4096x512_0_1_2 _ i (ix3 (0 : Fin 1) (0 : Fin 1) (i 2)) (fun a => ?_)).trans
    (broadcastInDim_apply _ bcast_S512_S1x1x512_2 v _ (ix1 (i 2)) (fun a => ?_))
  · match a with
    | ⟨0, _⟩ => show 0 = if (1 : Nat) = 1 then 0 else (i 0).val; rw [if_pos rfl]
    | ⟨1, _⟩ => show 0 = if (1 : Nat) = 1 then 0 else (i 1).val; rw [if_pos rfl]
    | ⟨2, _⟩ => show (i 2).val = if (512 : Nat) = 1 then 0 else (i 2).val; rw [if_neg (by decide)]
  · match a with
    | ⟨0, _⟩ => show (i 2).val = if (512 : Nat) = 1 then 0 else (i 2).val; rw [if_neg (by decide)]

/-- A point's own row repeated over its neighbours reads the row, whatever the neighbour. -/
theorem centreH_apply (h : Arr F S8x4096x128) (i : S8x4096x16x128.Idx) : centreH h i = h (ix3 (i 0) (i 1) (i 3)) := by
  unfold centreH
  refine (broadcastInDim_apply _ bcast_S8x4096x1x128_S8x4096x16x128_0_1_2_3 _ i (ix4 (i 0) (i 1) (0 : Fin 1) (i 3)) (fun a => ?_)).trans
    (broadcastInDim_apply _ bcast_S8x4096x128_S8x4096x1x128_0_1_3 h _ (ix3 (i 0) (i 1) (i 3)) (fun a => ?_))
  · match a with
    | ⟨0, _⟩ => show (i 0).val = if (8 : Nat) = 1 then 0 else (i 0).val; rw [if_neg (by decide)]
    | ⟨1, _⟩ => show (i 1).val = if (4096 : Nat) = 1 then 0 else (i 1).val; rw [if_neg (by decide)]
    | ⟨2, _⟩ => show 0 = if (1 : Nat) = 1 then 0 else (i 2).val; rw [if_pos rfl]
    | ⟨3, _⟩ => show (i 3).val = if (128 : Nat) = 1 then 0 else (i 3).val; rw [if_neg (by decide)]
  · match a with
    | ⟨0, _⟩ => show (i 0).val = if (8 : Nat) = 1 then 0 else (i 0).val; rw [if_neg (by decide)]
    | ⟨1, _⟩ => show (i 1).val = if (4096 : Nat) = 1 then 0 else (i 1).val; rw [if_neg (by decide)]
    | ⟨2, _⟩ => show (i 3).val = if (128 : Nat) = 1 then 0 else (i 3).val; rw [if_neg (by decide)]

/-- A splat of one word over the 128 channels reads the word. -/
theorem splat128_apply (b : BitVec 32) (j : S128.Idx) :
    broadcastInDim S128 ![] bcast_S_S128 (constant (F := F) S_ .f32 b) j = FloatOps.ofBits .f32 b :=
  broadcastInDim_apply _ bcast_S_S128 _ j (fun a => a.elim0) (fun a => a.elim0)

/-- A splat of one word over the hidden activations reads the word. -/
theorem splat512_apply (b : BitVec 32) (i : S8x4096x512.Idx) :
    broadcastInDim S8x4096x512 ![] bcast_S_S8x4096x512 (constant (F := F) S_ .f32 b) i = FloatOps.ofBits .f32 b :=
  broadcastInDim_apply _ bcast_S_S8x4096x512 _ i (fun a => a.elim0) (fun a => a.elim0)

/-! ## The matrix products at an index (the exact instance) -/

/-! The product into the 512 hidden channels: `[8,4096,128] · [128,512]`. -/
theorem dotUp_lhs0 (i : S8x4096x512.Idx) (q : dot_S8x4096x128_S128x512_S8x4096x512_2_0_01_1_n_n.contr.Idx) : (dot_S8x4096x128_S128x512_S8x4096x512_2_0_01_1_n_n.lhsIdx i q 0).val = (i 0).val := by
  unfold DotDims.lhsIdx
  rw [dif_neg (show ¬(0 : Fin S8x4096x128.rank) ∈ dot_S8x4096x128_S128x512_S8x4096x512_2_0_01_1_n_n.lhsBatch by decide), dif_pos (show (0 : Fin S8x4096x128.rank) ∈ dot_S8x4096x128_S128x512_S8x4096x512_2_0_01_1_n_n.lhsNonContracting by decide)]
  rfl
theorem dotUp_lhs1 (i : S8x4096x512.Idx) (q : dot_S8x4096x128_S128x512_S8x4096x512_2_0_01_1_n_n.contr.Idx) : (dot_S8x4096x128_S128x512_S8x4096x512_2_0_01_1_n_n.lhsIdx i q 1).val = (i 1).val := by
  unfold DotDims.lhsIdx
  rw [dif_neg (show ¬(1 : Fin S8x4096x128.rank) ∈ dot_S8x4096x128_S128x512_S8x4096x512_2_0_01_1_n_n.lhsBatch by decide), dif_pos (show (1 : Fin S8x4096x128.rank) ∈ dot_S8x4096x128_S128x512_S8x4096x512_2_0_01_1_n_n.lhsNonContracting by decide)]
  rfl
theorem dotUp_lhs2 (i : S8x4096x512.Idx) (q : dot_S8x4096x128_S128x512_S8x4096x512_2_0_01_1_n_n.contr.Idx) : (dot_S8x4096x128_S128x512_S8x4096x512_2_0_01_1_n_n.lhsIdx i q 2).val = (q ⟨0, by decide⟩).val :=
  dot_S8x4096x128_S128x512_S8x4096x512_2_0_01_1_n_n.lhsIdx_val_of_single rfl i q
theorem dotUp_rhs0 (i : S8x4096x512.Idx) (q : dot_S8x4096x128_S128x512_S8x4096x512_2_0_01_1_n_n.contr.Idx) : (dot_S8x4096x128_S128x512_S8x4096x512_2_0_01_1_n_n.rhsIdx i q 0).val = (q ⟨0, by decide⟩).val :=
  dot_S8x4096x128_S128x512_S8x4096x512_2_0_01_1_n_n.rhsIdx_val_of_single rfl i q
theorem dotUp_rhs1 (i : S8x4096x512.Idx) (q : dot_S8x4096x128_S128x512_S8x4096x512_2_0_01_1_n_n.contr.Idx) : (dot_S8x4096x128_S128x512_S8x4096x512_2_0_01_1_n_n.rhsIdx i q 1).val = (i 2).val := by
  unfold DotDims.rhsIdx
  rw [dif_neg (show ¬(1 : Fin S128x512.rank) ∈ dot_S8x4096x128_S128x512_S8x4096x512_2_0_01_1_n_n.rhsBatch by decide), dif_pos (show (1 : Fin S128x512.rank) ∈ dot_S8x4096x128_S128x512_S8x4096x512_2_0_01_1_n_n.rhsNonContracting by decide)]
  rfl
/-- Entry (a, b, e) of the product is the sum over the contracted channel k of X (a, b, k) · W (k, e). -/
theorem dotUp_apply (X : Arr Ideal S8x4096x128) (w : Arr Ideal S128x512) (a : Fin 8) (b : Fin 4096) (e : Fin 512) :
    Host.dotGeneral (F := Ideal) (φ₁ := .f32) (φ₂ := .f32) dot_S8x4096x128_S128x512_S8x4096x512_2_0_01_1_n_n none X w (ix3 a b e)
      = ∑ k : Fin 128, X (ix3 a b k) * w (ix2 k e) := by
  simp only [Host.dotGeneral]
  rw [Ideal.dotGeneral_apply, ← Equiv.sum_comp (ValueIdx.contrEquiv1 dot_S8x4096x128_S128x512_S8x4096x512_2_0_01_1_n_n 128 rfl rfl).symm]
  refine Finset.sum_congr rfl fun k _ => ?_
  have hk := ValueIdx.contrEquiv1_symm_val dot_S8x4096x128_S128x512_S8x4096x512_2_0_01_1_n_n 128 rfl rfl k
  have el : dot_S8x4096x128_S128x512_S8x4096x512_2_0_01_1_n_n.lhsIdx (ix3 a b e) ((ValueIdx.contrEquiv1 dot_S8x4096x128_S128x512_S8x4096x512_2_0_01_1_n_n 128 rfl rfl).symm k) = ix3 a b k := funext fun x => Fin.ext (by
    match x with
    | ⟨0, _⟩ => exact dotUp_lhs0 _ _
    | ⟨1, _⟩ => exact dotUp_lhs1 _ _
    | ⟨2, _⟩ => exact (dotUp_lhs2 _ _).trans hk)
  have er : dot_S8x4096x128_S128x512_S8x4096x512_2_0_01_1_n_n.rhsIdx (ix3 a b e) ((ValueIdx.contrEquiv1 dot_S8x4096x128_S128x512_S8x4096x512_2_0_01_1_n_n 128 rfl rfl).symm k) = ix2 k e := funext fun x => Fin.ext (by
    match x with
    | ⟨0, _⟩ => exact (dotUp_rhs0 _ _).trans hk
    | ⟨1, _⟩ => exact dotUp_rhs1 _ _)
  rw [el, er]

/-! The product back to the 128 channels: `[8,4096,512] · [512,128]`. -/
theorem dotDown_lhs0 (i : S8x4096x128.Idx) (q : dot_S8x4096x512_S512x128_S8x4096x128_2_0_01_1_n_n.contr.Idx) : (dot_S8x4096x512_S512x128_S8x4096x128_2_0_01_1_n_n.lhsIdx i q 0).val = (i 0).val := by
  unfold DotDims.lhsIdx
  rw [dif_neg (show ¬(0 : Fin S8x4096x512.rank) ∈ dot_S8x4096x512_S512x128_S8x4096x128_2_0_01_1_n_n.lhsBatch by decide), dif_pos (show (0 : Fin S8x4096x512.rank) ∈ dot_S8x4096x512_S512x128_S8x4096x128_2_0_01_1_n_n.lhsNonContracting by decide)]
  rfl
theorem dotDown_lhs1 (i : S8x4096x128.Idx) (q : dot_S8x4096x512_S512x128_S8x4096x128_2_0_01_1_n_n.contr.Idx) : (dot_S8x4096x512_S512x128_S8x4096x128_2_0_01_1_n_n.lhsIdx i q 1).val = (i 1).val := by
  unfold DotDims.lhsIdx
  rw [dif_neg (show ¬(1 : Fin S8x4096x512.rank) ∈ dot_S8x4096x512_S512x128_S8x4096x128_2_0_01_1_n_n.lhsBatch by decide), dif_pos (show (1 : Fin S8x4096x512.rank) ∈ dot_S8x4096x512_S512x128_S8x4096x128_2_0_01_1_n_n.lhsNonContracting by decide)]
  rfl
theorem dotDown_lhs2 (i : S8x4096x128.Idx) (q : dot_S8x4096x512_S512x128_S8x4096x128_2_0_01_1_n_n.contr.Idx) : (dot_S8x4096x512_S512x128_S8x4096x128_2_0_01_1_n_n.lhsIdx i q 2).val = (q ⟨0, by decide⟩).val :=
  dot_S8x4096x512_S512x128_S8x4096x128_2_0_01_1_n_n.lhsIdx_val_of_single rfl i q
theorem dotDown_rhs0 (i : S8x4096x128.Idx) (q : dot_S8x4096x512_S512x128_S8x4096x128_2_0_01_1_n_n.contr.Idx) : (dot_S8x4096x512_S512x128_S8x4096x128_2_0_01_1_n_n.rhsIdx i q 0).val = (q ⟨0, by decide⟩).val :=
  dot_S8x4096x512_S512x128_S8x4096x128_2_0_01_1_n_n.rhsIdx_val_of_single rfl i q
theorem dotDown_rhs1 (i : S8x4096x128.Idx) (q : dot_S8x4096x512_S512x128_S8x4096x128_2_0_01_1_n_n.contr.Idx) : (dot_S8x4096x512_S512x128_S8x4096x128_2_0_01_1_n_n.rhsIdx i q 1).val = (i 2).val := by
  unfold DotDims.rhsIdx
  rw [dif_neg (show ¬(1 : Fin S512x128.rank) ∈ dot_S8x4096x512_S512x128_S8x4096x128_2_0_01_1_n_n.rhsBatch by decide), dif_pos (show (1 : Fin S512x128.rank) ∈ dot_S8x4096x512_S512x128_S8x4096x128_2_0_01_1_n_n.rhsNonContracting by decide)]
  rfl
/-- Entry (a, b, e) of the product is the sum over the contracted channel k of X (a, b, k) · W (k, e). -/
theorem dotDown_apply (X : Arr Ideal S8x4096x512) (w : Arr Ideal S512x128) (a : Fin 8) (b : Fin 4096) (e : Fin 128) :
    Host.dotGeneral (F := Ideal) (φ₁ := .f32) (φ₂ := .f32) dot_S8x4096x512_S512x128_S8x4096x128_2_0_01_1_n_n none X w (ix3 a b e)
      = ∑ k : Fin 512, X (ix3 a b k) * w (ix2 k e) := by
  simp only [Host.dotGeneral]
  rw [Ideal.dotGeneral_apply, ← Equiv.sum_comp (ValueIdx.contrEquiv1 dot_S8x4096x512_S512x128_S8x4096x128_2_0_01_1_n_n 512 rfl rfl).symm]
  refine Finset.sum_congr rfl fun k _ => ?_
  have hk := ValueIdx.contrEquiv1_symm_val dot_S8x4096x512_S512x128_S8x4096x128_2_0_01_1_n_n 512 rfl rfl k
  have el : dot_S8x4096x512_S512x128_S8x4096x128_2_0_01_1_n_n.lhsIdx (ix3 a b e) ((ValueIdx.contrEquiv1 dot_S8x4096x512_S512x128_S8x4096x128_2_0_01_1_n_n 512 rfl rfl).symm k) = ix3 a b k := funext fun x => Fin.ext (by
    match x with
    | ⟨0, _⟩ => exact dotDown_lhs0 _ _
    | ⟨1, _⟩ => exact dotDown_lhs1 _ _
    | ⟨2, _⟩ => exact (dotDown_lhs2 _ _).trans hk)
  have er : dot_S8x4096x512_S512x128_S8x4096x128_2_0_01_1_n_n.rhsIdx (ix3 a b e) ((ValueIdx.contrEquiv1 dot_S8x4096x512_S512x128_S8x4096x128_2_0_01_1_n_n 512 rfl rfl).symm k) = ix2 k e := funext fun x => Fin.ext (by
    match x with
    | ⟨0, _⟩ => exact (dotDown_rhs0 _ _).trans hk
    | ⟨1, _⟩ => exact dotDown_rhs1 _ _)
  rw [el, er]

/-! The linear map's product: `[8,4096,128] · [128,128]`. -/
theorem dotLin_lhs0 (i : S8x4096x128.Idx) (q : dot_S8x4096x128_S128x128_S8x4096x128_2_0_01_1_n_n.contr.Idx) : (dot_S8x4096x128_S128x128_S8x4096x128_2_0_01_1_n_n.lhsIdx i q 0).val = (i 0).val := by
  unfold DotDims.lhsIdx
  rw [dif_neg (show ¬(0 : Fin S8x4096x128.rank) ∈ dot_S8x4096x128_S128x128_S8x4096x128_2_0_01_1_n_n.lhsBatch by decide), dif_pos (show (0 : Fin S8x4096x128.rank) ∈ dot_S8x4096x128_S128x128_S8x4096x128_2_0_01_1_n_n.lhsNonContracting by decide)]
  rfl
theorem dotLin_lhs1 (i : S8x4096x128.Idx) (q : dot_S8x4096x128_S128x128_S8x4096x128_2_0_01_1_n_n.contr.Idx) : (dot_S8x4096x128_S128x128_S8x4096x128_2_0_01_1_n_n.lhsIdx i q 1).val = (i 1).val := by
  unfold DotDims.lhsIdx
  rw [dif_neg (show ¬(1 : Fin S8x4096x128.rank) ∈ dot_S8x4096x128_S128x128_S8x4096x128_2_0_01_1_n_n.lhsBatch by decide), dif_pos (show (1 : Fin S8x4096x128.rank) ∈ dot_S8x4096x128_S128x128_S8x4096x128_2_0_01_1_n_n.lhsNonContracting by decide)]
  rfl
theorem dotLin_lhs2 (i : S8x4096x128.Idx) (q : dot_S8x4096x128_S128x128_S8x4096x128_2_0_01_1_n_n.contr.Idx) : (dot_S8x4096x128_S128x128_S8x4096x128_2_0_01_1_n_n.lhsIdx i q 2).val = (q ⟨0, by decide⟩).val :=
  dot_S8x4096x128_S128x128_S8x4096x128_2_0_01_1_n_n.lhsIdx_val_of_single rfl i q
theorem dotLin_rhs0 (i : S8x4096x128.Idx) (q : dot_S8x4096x128_S128x128_S8x4096x128_2_0_01_1_n_n.contr.Idx) : (dot_S8x4096x128_S128x128_S8x4096x128_2_0_01_1_n_n.rhsIdx i q 0).val = (q ⟨0, by decide⟩).val :=
  dot_S8x4096x128_S128x128_S8x4096x128_2_0_01_1_n_n.rhsIdx_val_of_single rfl i q
theorem dotLin_rhs1 (i : S8x4096x128.Idx) (q : dot_S8x4096x128_S128x128_S8x4096x128_2_0_01_1_n_n.contr.Idx) : (dot_S8x4096x128_S128x128_S8x4096x128_2_0_01_1_n_n.rhsIdx i q 1).val = (i 2).val := by
  unfold DotDims.rhsIdx
  rw [dif_neg (show ¬(1 : Fin S128x128.rank) ∈ dot_S8x4096x128_S128x128_S8x4096x128_2_0_01_1_n_n.rhsBatch by decide), dif_pos (show (1 : Fin S128x128.rank) ∈ dot_S8x4096x128_S128x128_S8x4096x128_2_0_01_1_n_n.rhsNonContracting by decide)]
  rfl
/-- Entry (a, b, e) of the product is the sum over the contracted channel k of X (a, b, k) · W (k, e). -/
theorem dotLin_apply (X : Arr Ideal S8x4096x128) (w : Arr Ideal S128x128) (a : Fin 8) (b : Fin 4096) (e : Fin 128) :
    Host.dotGeneral (F := Ideal) (φ₁ := .f32) (φ₂ := .f32) dot_S8x4096x128_S128x128_S8x4096x128_2_0_01_1_n_n none X w (ix3 a b e)
      = ∑ k : Fin 128, X (ix3 a b k) * w (ix2 k e) := by
  simp only [Host.dotGeneral]
  rw [Ideal.dotGeneral_apply, ← Equiv.sum_comp (ValueIdx.contrEquiv1 dot_S8x4096x128_S128x128_S8x4096x128_2_0_01_1_n_n 128 rfl rfl).symm]
  refine Finset.sum_congr rfl fun k _ => ?_
  have hk := ValueIdx.contrEquiv1_symm_val dot_S8x4096x128_S128x128_S8x4096x128_2_0_01_1_n_n 128 rfl rfl k
  have el : dot_S8x4096x128_S128x128_S8x4096x128_2_0_01_1_n_n.lhsIdx (ix3 a b e) ((ValueIdx.contrEquiv1 dot_S8x4096x128_S128x128_S8x4096x128_2_0_01_1_n_n 128 rfl rfl).symm k) = ix3 a b k := funext fun x => Fin.ext (by
    match x with
    | ⟨0, _⟩ => exact dotLin_lhs0 _ _
    | ⟨1, _⟩ => exact dotLin_lhs1 _ _
    | ⟨2, _⟩ => exact (dotLin_lhs2 _ _).trans hk)
  have er : dot_S8x4096x128_S128x128_S8x4096x128_2_0_01_1_n_n.rhsIdx (ix3 a b e) ((ValueIdx.contrEquiv1 dot_S8x4096x128_S128x128_S8x4096x128_2_0_01_1_n_n 128 rfl rfl).symm k) = ix2 k e := funext fun x => Fin.ext (by
    match x with
    | ⟨0, _⟩ => exact (dotLin_rhs0 _ _).trans hk
    | ⟨1, _⟩ => exact dotLin_rhs1 _ _)
  rw [el, er]

/-! ## Layer `l` of a stacked weight array (any instance, any extents) -/

/-- The slice `[l : l+1, :, :]` of a `[2, a, b]` array with its unit axis dropped reads, at (p, q), the array at (l, p, q). -/
theorem layer3_apply {α : Type} {a b : ℕ} (l : Fin 2) (W : (⟨3, ![2, a, b]⟩ : Shape).Idx → α)
    (hs : (⟨3, ![2, a, b]⟩ : Shape).Slices ![l.val, 0, 0] ⟨3, ![1, a, b]⟩)
    (hc : (⟨3, ![1, a, b]⟩ : Shape).ShapeCasts ⟨2, ![a, b]⟩) (j : (⟨2, ![a, b]⟩ : Shape).Idx) :
    shapeCast ⟨2, ![a, b]⟩ (extractStridedSlice ⟨3, ![1, a, b]⟩ ![l.val, 0, 0] W hs) hc j = W (ix3 l (j 0) (j 1)) := by
  obtain ⟨p, q, rfl⟩ : ∃ (p : Fin a) (q : Fin b), j = ix2 p q := ⟨j 0, j 1, eq_ix2 j⟩
  refine (shapeCast_1ab_ab_apply _ hc p q).trans
    (extractStridedSlice_apply _ W hs (ix3 (0 : Fin 1) p q) (ix3 l p q) (fun x => ?_))
  match x with
  | ⟨0, _⟩ => show l.val = l.val + 0; rfl
  | ⟨1, _⟩ => show p.val = 0 + p.val; omega
  | ⟨2, _⟩ => show q.val = 0 + q.val; omega

/-- The slice `[l : l+1, :]` of a `[2, a]` array with its unit axis dropped reads, at p, the array at (l, p). -/
theorem layer2_apply {α : Type} {a : ℕ} (l : Fin 2) (W : (⟨2, ![2, a]⟩ : Shape).Idx → α)
    (hs : (⟨2, ![2, a]⟩ : Shape).Slices ![l.val, 0] ⟨2, ![1, a]⟩)
    (hc : (⟨2, ![1, a]⟩ : Shape).ShapeCasts ⟨1, ![a]⟩) (j : (⟨1, ![a]⟩ : Shape).Idx) :
    shapeCast ⟨1, ![a]⟩ (extractStridedSlice ⟨2, ![1, a]⟩ ![l.val, 0] W hs) hc j = W (ix2 l (j 0)) := by
  obtain ⟨p, rfl⟩ : ∃ (p : Fin a), j = ix1 p := ⟨j 0, eq_ix1 j⟩
  refine (shapeCast_1a_a_apply _ hc p).trans
    (extractStridedSlice_apply _ W hs (ix2 (0 : Fin 1) p) (ix2 l p) (fun x => ?_))
  match x with
  | ⟨0, _⟩ => show l.val = l.val + 0; rfl
  | ⟨1, _⟩ => show p.val = 0 + p.val; omega

/-- Layer `l` of a stacked matrix, in the specification's words. -/
theorem layer3_eq {a b : ℕ} (l : Fin 2) (W : (⟨3, ![2, a, b]⟩ : Shape).Idx → EReal)
    (hs : (⟨3, ![2, a, b]⟩ : Shape).Slices ![l.val, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![l.val, 0, 0] W hs) hc = Cert.Spec.sl3 l W :=
  funext fun j => layer3_apply l W hs hc j

/-- Layer `l` of a stacked per-channel vector, in the specification's words. -/
theorem layer2_eq {a : ℕ} (l : Fin 2) (W : (⟨2, ![2, a]⟩ : Shape).Idx → EReal)
    (hs : (⟨2, ![2, a]⟩ : Shape).Slices ![l.val, 0] ⟨2, ![1, a]⟩)
    (hc : (⟨2, ![1, a]⟩ : Shape).ShapeCasts ⟨1, ![a]⟩) :
    shapeCast ⟨1, ![a]⟩ (extractStridedSlice ⟨2, ![1, a]⟩ ![l.val, 0] W hs) hc = Cert.Spec.sl2 l W :=
  funext fun j => layer2_apply l W hs hc j

/-! ## The stages are the specification's (the exact instance) -/

/-- The host's reciprocal square root of an array, at an index. -/
theorem rsqrt_apply {s : Shape} {φ : FTy} (v : FVec Ideal s φ) (j : s.Idx) : Host.rsqrt v j = Ideal.rsqrt (v j) := rfl

/-- The per-channel scale of the batch norm at a channel. -/
theorem scaleH_apply (g var : Arr Ideal S128) (j : S128.Idx) :
    scaleH g var j = g j * Ideal.rsqrt (var j + Cert.Spec.eps) := by
  unfold scaleH
  rw [mulf_apply, rsqrt_apply, addf_apply, splat128_apply]
  rfl

/-- The batch norm of an array at an index is the specification's batch norm of the entry with the channel's parameters. -/
theorem bnH_apply (y : Arr Ideal S8x4096x128) (g beta mu var : Arr Ideal S128) (i : S8x4096x128.Idx) :
    bnH y g beta mu var i
      = Cert.Spec.bn (y i) (g (ix1 (i 2))) (beta (ix1 (i 2))) (mu (ix1 (i 2))) (var (ix1 (i 2))) := by
  unfold bnH Cert.Spec.bn
  rw [addf_apply, mulf_apply, subf_apply, chan128_apply, chan128_apply, chan128_apply, scaleH_apply]

/-- The rectifier at an index: the maximum against the zero word. -/
theorem reluH_apply (y : Arr Ideal S8x4096x512) (i : S8x4096x512.Idx) : reluH y i = max (y i) Cert.Spec.zeroW := by
  unfold reluH
  rw [maximumf_apply, splat512_apply]
  rfl

/-- The feed-forward stage of the reference is the specification's. -/
theorem ffnH_eq (X : Arr Ideal S8x4096x128) (w1 : Arr Ideal S128x512) (b1 : Arr Ideal S512) (w2 : Arr Ideal S512x128)
    (b2 g beta mu var : Arr Ideal S128) :
    ffnH X w1 b1 w2 b2 g beta mu var = Cert.Spec.ffnS X w1 b1 w2 b2 g beta mu var := by
  funext i
  obtain ⟨a, b, c, rfl⟩ : ∃ (a : Fin 8) (b : Fin 4096) (c : Fin 128), i = ix3 a b c := ⟨i 0, i 1, i 2, eq_ix3 i⟩
  unfold ffnH Cert.Spec.ffnS Cert.Spec.ffnRow
  rw [addf_apply, bnH_apply, addf_apply, chan128_apply, dotDown_apply]
  refine congrArg (fun s => X (ix3 a b c) + Cert.Spec.bn (s + b2 (ix1 c)) (g (ix1 c)) (beta (ix1 c)) (mu (ix1 c)) (var (ix1 c))) ?_
  refine Finset.sum_congr rfl fun k _ => ?_
  rw [reluH_apply, addf_apply, chan512_apply, dotUp_apply]

/-- The linear map of the reference is the specification's. -/
theorem linH_eq (X : Arr Ideal S8x4096x128) (w : Arr Ideal S128x128) (b : Arr Ideal S128) :
    linH X w b = Cert.Spec.linS X w b := by
  funext i
  obtain ⟨a, b', c, rfl⟩ : ∃ (a : Fin 8) (b' : Fin 4096) (c : Fin 128), i = ix3 a b' c := ⟨i 0, i 1, i 2, eq_ix3 i⟩
  unfold linH Cert.Spec.linS Cert.Spec.linRow
  rw [addf_apply, chan128_apply, dotLin_apply]

/-- The source index over (p, q, c) with neighbour k inserted on the reduced axis. -/
theorem lift_eq (hR : S8x4096x16x128.Reduces [2] S8x4096x128) (j : S8x4096x128.Idx) (k : Fin 16) :
    hR.lift j k = ix4 (j 0) (j 1) k (j 2) := by
  funext c
  refine Fin.ext ?_
  match c with
  | ⟨0, _⟩ => rfl
  | ⟨1, _⟩ => rfl
  | ⟨2, _⟩ => rfl
  | ⟨3, _⟩ => rfl

/-- The maximum-reduce over the neighbour axis, from the minus-infinity word, is the finite maximum over the 16 neighbours. -/
theorem reduceMax_apply (Y : Arr Ideal S8x4096x16x128) (j : S8x4096x128.Idx) :
    Host.reduce (FloatOps.maximumf (F := Ideal) (φ := .f32)) Y (constant (F := Ideal) S_ .f32 0xFF800000#32)
        reducesTo_S8x4096x16x128_S8x4096x128_d2 h_S_ j
      = (Finset.univ : Finset (Fin 16)).fold max Cert.Spec.negInfW (fun k => Y (ix4 (j 0) (j 1) k (j 2))) := by
  have hR : S8x4096x16x128.Reduces [2] S8x4096x128 := by decide
  refine (Host.reduce_eq_fold_single (FloatOps.maximumf (F := Ideal) (φ := .f32)) Y _
    reducesTo_S8x4096x16x128_S8x4096x128_d2 hR h_S_ j).trans ?_
  show (Finset.univ : Finset (Fin 16)).fold max Cert.Spec.negInfW (fun k => Y (hR.lift j k)) = _
  exact congrArg (fun f => (Finset.univ : Finset (Fin 16)).fold max Cert.Spec.negInfW f)
    (funext fun k => congrArg Y (lift_eq hR j k))

/-- The edge aggregation of the reference is the specification's. -/
theorem aggH_eq (x h : Arr Ideal S8x4096x128) (nb : Arr Ideal S8x4096x16x128) (g beta mu var : Arr Ideal S128) :
    aggH x h nb g beta mu var = Cert.Spec.aggS x h nb g beta mu var := by
  funext i
  obtain ⟨a, b, c, rfl⟩ : ∃ (a : Fin 8) (b : Fin 4096) (c : Fin 128), i = ix3 a b c := ⟨i 0, i 1, i 2, eq_ix3 i⟩
  unfold aggH Cert.Spec.aggS Cert.Spec.aggPt
  rw [addf_apply, bnH_apply, reduceMax_apply]
  refine congrArg (fun s => x (ix3 a b c) + Cert.Spec.bn s (g (ix1 c)) (beta (ix1 c)) (mu (ix1 c)) (var (ix1 c))) ?_
  refine congrArg (fun f => (Finset.univ : Finset (Fin 16)).fold max Cert.Spec.negInfW f) (funext fun k => ?_)
  rw [subf_apply, centreH_apply]

end Cert.RefStages

end
-- ==== Proof.RefNet.lean ====
/-
  The reference program is the specified network.

  The generated reading of the reference gives, per operation, its value as a function of the program's arguments.
  Unfolding one stage at a time shows that chain to be the composition of the stage functions of RefStages.lean
  (each equation holds by unfolding definitions), and those are the specification's stages; so the program's result
  is the network `netS` with the reference's own gather as the neighbour fetch.
-/
import proofs.«102175_j61538291417254_1_alg».proof.Proof.Gen.ReferenceIdeal.Read
import proofs.«102175_j61538291417254_1_alg».proof.Proof.RefStages

noncomputable section

namespace Cert.RefStages

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 : Arr Ideal S8x4096x128) (x1 : (⟨S8x4096x16, .i32⟩ : BufTy).Contents (Elt Ideal))
  (x2 : Arr Ideal S128x512) (x3 : Arr Ideal S512) (x4 : Arr Ideal S512x128) (x5 x6 x7 x8 x9 : Arr Ideal S128)
  (x10 : Arr Ideal S2x128x128) (x11 x12 x13 x14 x15 : Arr Ideal S2x128) (x16 : Arr Ideal S2x128x512)
  (x17 : Arr Ideal S2x512) (x18 : Arr Ideal S2x512x128) (x19 x20 x21 x22 x23 : Arr Ideal S2x128)

/-! ## The stacked weights' layers -/

theorem v24_eq : val_main_v24 (F := Ideal) x10 = Cert.Spec.sl3 0 x10 :=
  layer3_eq 0 x10 slices_S2x128x128_S1x128x128_0_0_0 shapeCasts_S1x128x128_S128x128
theorem v104_eq : val_main_v104 (F := Ideal) x10 = Cert.Spec.sl3 1 x10 :=
  layer3_eq 1 x10 slices_S2x128x128_S1x128x128_1_0_0 shapeCasts_S1x128x128_S128x128
theorem v65_eq : val_main_v65 (F := Ideal) x16 = Cert.Spec.sl3 0 x16 :=
  layer3_eq 0 x16 slices_S2x128x512_S1x128x512_0_0_0 shapeCasts_S1x128x512_S128x512
theorem v145_eq : val_main_v145 (F := Ideal) x16 = Cert.Spec.sl3 1 x16 :=
  layer3_eq 1 x16 slices_S2x128x512_S1x128x512_1_0_0 shapeCasts_S1x128x512_S128x512
theorem v69_eq : val_main_v69 (F := Ideal) x18 = Cert.Spec.sl3 0 x18 :=
  layer3_eq 0 x18 slices_S2x512x128_S1x512x128_0_0_0 shapeCasts_S1x512x128_S512x128
theorem v149_eq : val_main_v149 (F := Ideal) x18 = Cert.Spec.sl3 1 x18 :=
  layer3_eq 1 x18 slices_S2x512x128_S1x512x128_1_0_0 shapeCasts_S1x512x128_S512x128
theorem v67_eq : val_main_v67 (F := Ideal) x17 = Cert.Spec.sl2 0 x17 :=
  layer2_eq 0 x17 slices_S2x512_S1x512_0_0 shapeCasts_S1x512_S512
theorem v147_eq : val_main_v147 (F := Ideal) x17 = Cert.Spec.sl2 1 x17 :=
  layer2_eq 1 x17 slices_S2x512_S1x512_1_0 shapeCasts_S1x512_S512
/-- Layer 0 of a stacked 128-channel vector: every such operation of the reference is this one function. -/
theorem v27_eq (W : Arr Ideal S2x128) : val_main_v27 (F := Ideal) W = Cert.Spec.sl2 0 W :=
  layer2_eq 0 W slices_S2x128_S1x128_0_0 shapeCasts_S1x128_S128
/-- Layer 1 of a stacked 128-channel vector. -/
theorem v107_eq (W : Arr Ideal S2x128) : val_main_v107 (F := Ideal) W = Cert.Spec.sl2 1 W :=
  layer2_eq 1 W slices_S2x128_S1x128_1_0 shapeCasts_S1x128_S128

/-! ## The chain of operations is the composition of the stages (by unfolding) -/

theorem v22_stage : val_main_v22 (F := Ideal) x0 x2 x3 x4 x5 x6 x7 x8 x9 = ffnH x0 x2 x3 x4 x5 x6 x7 x8 x9 := rfl

theorem v30_stage : val_main_v30 (F := Ideal) x0 x2 x3 x4 x5 x6 x7 x8 x9 x10 x11 = linH (val_main_v22 (F := Ideal) x0 x2 x3 x4 x5 x6 x7 x8 x9) (val_main_v24 (F := Ideal) x10) (val_main_v27 (F := Ideal) x11) := rfl

theorem v63_stage : val_main_v63 (F := Ideal) x0 x1 x2 x3 x4 x5 x6 x7 x8 x9 x10 x11 x12 x13 x14 x15
    = aggH (val_main_v22 (F := Ideal) x0 x2 x3 x4 x5 x6 x7 x8 x9) (val_main_v30 (F := Ideal) x0 x2 x3 x4 x5 x6 x7 x8 x9 x10 x11) (gatH x1 (val_main_v30 (F := Ideal) x0 x2 x3 x4 x5 x6 x7 x8 x9 x10 x11))
        (val_main_v27 (F := Ideal) x12) (val_main_v27 (F := Ideal) x13) (val_main_v27 (F := Ideal) x14) (val_main_v27 (F := Ideal) x15) := rfl

theorem v102_stage : val_main_v102 (F := Ideal) x0 x1 x2 x3 x4 x5 x6 x7 x8 x9 x10 x11 x12 x13 x14 x15 x16 x17 x18 x19 x20 x21 x22 x23
    = ffnH (val_main_v63 (F := Ideal) x0 x1 x2 x3 x4 x5 x6 x7 x8 x9 x10 x11 x12 x13 x14 x15) (val_main_v65 (F := Ideal) x16) (val_main_v67 (F := Ideal) x17) (val_main_v69 (F := Ideal) x18)
        (val_main_v27 (F := Ideal) x19) (val_main_v27 (F := Ideal) x20) (val_main_v27 (F := Ideal) x21) (val_main_v27 (F := Ideal) x22) (val_main_v27 (F := Ideal) x23) := rfl

theorem v110_stage : val_main_v110 (F := Ideal) x0 x1 x2 x3 x4 x5 x6 x7 x8 x9 x10 x11 x12 x13 x14 x15 x16 x17 x18 x19 x20 x21 x22 x23 = linH (val_main_v102 (F := Ideal) x0 x1 x2 x3 x4 x5 x6 x7 x8 x9 x10 x11 x12 x13 x14 x15 x16 x17 x18 x19 x20 x21 x22 x23) (val_main_v104 (F := Ideal) x10) (val_main_v107 (F := Ideal) x11) := rfl

theorem v143_stage : val_main_v143 (F := Ideal) x0 x1 x2 x3 x4 x5 x6 x7 x8 x9 x10 x11 x12 x13 x14 x15 x16 x17 x18 x19 x20 x21 x22 x23
    = aggH (val_main_v102 (F := Ideal) x0 x1 x2 x3 x4 x5 x6 x7 x8 x9 x10 x11 x12 x13 x14 x15 x16 x17 x18 x19 x20 x21 x22 x23) (val_main_v110 (F := Ideal) x0 x1 x2 x3 x4 x5 x6 x7 x8 x9 x10 x11 x12 x13 x14 x15 x16 x17 x18 x19 x20 x21 x22 x23) (gatH x1 (val_main_v110 (F := Ideal) x0 x1 x2 x3 x4 x5 x6 x7 x8 x9 x10 x11 x12 x13 x14 x15 x16 x17 x18 x19 x20 x21 x22 x23))
        (val_main_v107 (F := Ideal) x12) (val_main_v107 (F := Ideal) x13) (val_main_v107 (F := Ideal) x14) (val_main_v107 (F := Ideal) x15) := rfl

theorem v182_stage : val_main_v182 (F := Ideal) x0 x1 x2 x3 x4 x5 x6 x7 x8 x9 x10 x11 x12 x13 x14 x15 x16 x17 x18 x19 x20 x21 x22 x23
    = ffnH (val_main_v143 (F := Ideal) x0 x1 x2 x3 x4 x5 x6 x7 x8 x9 x10 x11 x12 x13 x14 x15 x16 x17 x18 x19 x20 x21 x22 x23) (val_main_v145 (F := Ideal) x16) (val_main_v147 (F := Ideal) x17) (val_main_v149 (F := Ideal) x18)
        (val_main_v107 (F := Ideal) x19) (val_main_v107 (F := Ideal) x20) (val_main_v107 (F := Ideal) x21) (val_main_v107 (F := Ideal) x22) (val_main_v107 (F := Ideal) x23) := rfl

/-! ## The stages are the specification's -/

/-- After the first feed-forward stage. -/
theorem v22_spec : val_main_v22 (F := Ideal) x0 x2 x3 x4 x5 x6 x7 x8 x9 = Cert.Spec.ffnS x0 x2 x3 x4 x5 x6 x7 x8 x9 :=
  (v22_stage x0 x2 x3 x4 x5 x6 x7 x8 x9).trans (ffnH_eq _ _ _ _ _ _ _ _ _)

/-- After the first depth step. -/
theorem v102_spec : val_main_v102 (F := Ideal) x0 x1 x2 x3 x4 x5 x6 x7 x8 x9 x10 x11 x12 x13 x14 x15 x16 x17 x18 x19 x20 x21 x22 x23
    = Cert.Spec.layerS (gatH x1) 0 (Cert.Spec.ffnS x0 x2 x3 x4 x5 x6 x7 x8 x9)
        x10 x11 x12 x13 x14 x15 x16 x17 x18 x19 x20 x21 x22 x23 := by
  rw [v102_stage, ffnH_eq, v63_stage, aggH_eq, v30_stage, linH_eq, v22_spec, v24_eq, v65_eq, v67_eq, v69_eq]
  simp only [v27_eq]
  rfl

/-- The reference's result is the specified network on its arguments, the neighbour rows fetched by the reference's own gather. -/
theorem ref_eq_net : val_main_v182 (F := Ideal) x0 x1 x2 x3 x4 x5 x6 x7 x8 x9 x10 x11 x12 x13 x14 x15 x16 x17 x18 x19 x20 x21 x22 x23
    = Cert.Spec.netS (gatH x1) x0 x2 x3 x4 x5 x6 x7 x8 x9 x10 x11 x12 x13 x14 x15 x16 x17 x18 x19 x20 x21 x22 x23 := by
  rw [v182_stage, ffnH_eq, v143_stage, aggH_eq, v110_stage, linH_eq, v102_spec, v104_eq, v145_eq, v147_eq, v149_eq]
  simp only [v107_eq]
  rfl

end Cert.RefStages

end
-- ==== Proof.RefRun.lean ====
/-
  The reference program's run, in the specification's words.

  Every weakly fair execution of the reference from a memory `m'` terminates with its arguments unchanged and its
  result the specified network `netS` of the argument arrays of `m'`, the neighbour rows fetched by the reference's
  own gather of the index argument: the generated run gives the result as the composed term of the arguments, the
  generated reading names that term per operation, and RefNet.lean identifies it with the network.
  The frame claim of the reference is the same run with the result dropped.
-/
import proofs.«102175_j61538291417254_1_alg».proof.Defs
import proofs.«102175_j61538291417254_1_alg».proof.Proof.Gen.ReferenceIdeal
import proofs.«102175_j61538291417254_1_alg».proof.Proof.Gen.ReferenceIdeal.Run
import proofs.«102175_j61538291417254_1_alg».proof.Proof.Gen.ReferenceIdeal.Read
import proofs.«102175_j61538291417254_1_alg».proof.Proof.Gen.Pre_finite_inputs
import proofs.«102175_j61538291417254_1_alg».proof.Proof.RefNet

noncomputable section

namespace Cert.RefStages

open Idealize.ShloMosaic Idealize.ShloMosaic.TcCoe Idealize.SL.Sem

/-- The reference leaves its arguments as it found them: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The reference's run from `m'`: the result is the specified network of `m'`'s argument arrays, and every argument
    ends as `m'` had it. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
    r.2.mem ((c.tc : Thread Cert.ReferenceIdeal.nD Cert.ReferenceIdeal.τ).loc Cert.ReferenceIdeal.main_v182) = Cert.Spec.netS (gatH (m' ((c.tc : Thread Cert.ReferenceIdeal.nD Cert.ReferenceIdeal.τ).loc Cert.ReferenceIdeal.main_arg1)))
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
              (m' ((c.tc : Thread Cert.ReferenceIdeal.nD Cert.ReferenceIdeal.τ).loc Cert.ReferenceIdeal.main_arg9))
              (m' ((c.tc : Thread Cert.ReferenceIdeal.nD Cert.ReferenceIdeal.τ).loc Cert.ReferenceIdeal.main_arg10))
              (m' ((c.tc : Thread Cert.ReferenceIdeal.nD Cert.ReferenceIdeal.τ).loc Cert.ReferenceIdeal.main_arg11))
              (m' ((c.tc : Thread Cert.ReferenceIdeal.nD Cert.ReferenceIdeal.τ).loc Cert.ReferenceIdeal.main_arg12))
              (m' ((c.tc : Thread Cert.ReferenceIdeal.nD Cert.ReferenceIdeal.τ).loc Cert.ReferenceIdeal.main_arg13))
              (m' ((c.tc : Thread Cert.ReferenceIdeal.nD Cert.ReferenceIdeal.τ).loc Cert.ReferenceIdeal.main_arg14))
              (m' ((c.tc : Thread Cert.ReferenceIdeal.nD Cert.ReferenceIdeal.τ).loc Cert.ReferenceIdeal.main_arg15))
              (m' ((c.tc : Thread Cert.ReferenceIdeal.nD Cert.ReferenceIdeal.τ).loc Cert.ReferenceIdeal.main_arg16))
              (m' ((c.tc : Thread Cert.ReferenceIdeal.nD Cert.ReferenceIdeal.τ).loc Cert.ReferenceIdeal.main_arg17))
              (m' ((c.tc : Thread Cert.ReferenceIdeal.nD Cert.ReferenceIdeal.τ).loc Cert.ReferenceIdeal.main_arg18))
              (m' ((c.tc : Thread Cert.ReferenceIdeal.nD Cert.ReferenceIdeal.τ).loc Cert.ReferenceIdeal.main_arg19))
              (m' ((c.tc : Thread Cert.ReferenceIdeal.nD Cert.ReferenceIdeal.τ).loc Cert.ReferenceIdeal.main_arg20))
              (m' ((c.tc : Thread Cert.ReferenceIdeal.nD Cert.ReferenceIdeal.τ).loc Cert.ReferenceIdeal.main_arg21))
              (m' ((c.tc : Thread Cert.ReferenceIdeal.nD Cert.ReferenceIdeal.τ).loc Cert.ReferenceIdeal.main_arg22))
              (m' ((c.tc : Thread Cert.ReferenceIdeal.nD Cert.ReferenceIdeal.τ).loc Cert.ReferenceIdeal.main_arg23))
    ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
    ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
    ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
    ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
    ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
    ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
    ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
    ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
    ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
    ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
    ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
    ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
    ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
    ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
    ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
    ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
    ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
    ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
    ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)) :=
  (θ_run Cert.ReferenceIdeal.defs _ _).mono
    (fun _ h c => ⟨(h c).1.trans ((Cert.ReferenceIdeal.Read.val_main_v182_eq m' c).trans
      (ref_eq_net _ _ _ _ _ _ _ _ _ _ _ _ _ _ _ _ _ _ _ _ _ _ _ _)), (h c).2⟩)
    (Cert.ReferenceIdeal.Value.run (F := Ideal) m' g')

end Cert.RefStages

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.PayLin.lean ====
/-
  The linear kernels' arithmetic read at an index, at the exact (extended-real) instance.

  Each of the two linear kernel bodies computes, on a block of 1024 rows of 128 channels, `x · W + b`: the operands are cast
  to a narrower format (the identity at this instance), multiplied into a zero accumulator, and the bias row is spread over the
  rows and added. Read at row `r` and channel `c` that is `(∑ j, x (r, j) * W (j, c)) + b c`, which is `Cert.Spec.linRow` of the row.
-/
import proofs.«102175_j61538291417254_1_alg».proof.Proof.Gen.KernelIdeal.Skeleton
import proofs.«102175_j61538291417254_1_alg».proof.Proof.Spec
import proofs.«102175_j61538291417254_1_alg».proof.Proof.LibIdealLayout
import proofs.«102175_j61538291417254_1_alg».proof.Proof.LibPlainMatmul

noncomputable section

open scoped BigOperators

namespace Cert.KPay

open Idealize.ShloMosaic Idealize.ShloMosaic.ValueIdx Cert.KernelIdeal Cert.KernelIdeal.Gen

/-- The first linear kernel's stored value at `(r, c)` is the linear map of row `r` at channel `c`. -/
theorem k1_pay1_apply (x0 : Vec Ideal S1024x128 .f32) (x1 : Vec Ideal S128x128 .f32) (x2 : Vec Ideal S128 .f32)
    (r : Fin 1024) (c : Fin 128) :
    k1_pay1 (F := Ideal) x0 x1 x2 (ix2 r c)
      = Cert.Spec.linRow (fun j => x0 (ix2 r j)) (fun j c => x1 (ix2 j c)) (fun c => x2 (ix1 c)) c := by
  unfold k1_pay1 Cert.Spec.linRow
  -- the product at (r, c) is the sum over the contracted channel; the bias row spread over the rows reads its entry at c
  refine (congrArg₂ (· + ·)
    (Cert.Lib.matmul_plain_zero_apply (M := 1024) (K := 128) (N := 128) none _ _ r c)
    (IdealLayout.broadcastTo_row_apply (a := 1024) (b := 128) _ shapeCasts_S128_S1x128 broadcasts_S1x128_S1024x128 r c)).trans ?_
  -- what is left are casts to the same shape and format changes, all the identity here
  rw [shapeCast_self, shapeCast_self, shapeCast_self]
  rfl

/-- The second linear kernel's stored value at `(r, c)`: the same body, so the same reading. -/
theorem k4_pay1_apply (x0 : Vec Ideal S1024x128 .f32) (x1 : Vec Ideal S128x128 .f32) (x2 : Vec Ideal S128 .f32)
    (r : Fin 1024) (c : Fin 128) :
    k4_pay1 (F := Ideal) x0 x1 x2 (ix2 r c)
      = Cert.Spec.linRow (fun j => x0 (ix2 r j)) (fun j c => x1 (ix2 j c)) (fun c => x2 (ix1 c)) c := by
  unfold k4_pay1 Cert.Spec.linRow
  refine (congrArg₂ (· + ·)
    (Cert.Lib.matmul_plain_zero_apply (M := 1024) (K := 128) (N := 128) none _ _ r c)
    (IdealLayout.broadcastTo_row_apply (a := 1024) (b := 128) _ shapeCasts_S128_S1x128 broadcasts_S1x128_S1024x128 r c)).trans ?_
  rw [shapeCast_self, shapeCast_self, shapeCast_self]
  rfl

end Cert.KPay

end
-- ==== Proof.PayFfn.lean ====
/-
  The feed-forward kernels' arithmetic read at an index, at the exact (extended-real) instance.

  Each of the three feed-forward kernel bodies computes, on a block of 1024 rows of 128 channels,
  `x + bn (relu (x · W1 + b1) · W2 + b2)` with `bn y = (y - mean) · (gamma · rsqrt (var + eps)) + beta`: the operands of both products
  are cast to a narrower format (the identity at this instance) and multiplied into a zero accumulator, each per-channel row is
  spread over the rows of the block, and the rectifier is a maximum with the zero word. Read at row `r` and channel `c` this is
  `Cert.Spec.ffnRow` of the row: both products become sums over the contracted channel, every spread row reads its entry at the
  channel, and the two float words (zero, the variance guard) are the same words on both sides and are never evaluated.
-/
import proofs.«102175_j61538291417254_1_alg».proof.Proof.Gen.KernelIdeal.Skeleton
import proofs.«102175_j61538291417254_1_alg».proof.Proof.Spec
import proofs.«102175_j61538291417254_1_alg».proof.Proof.LibIdealLayout
import proofs.«102175_j61538291417254_1_alg».proof.Proof.LibPlainMatmul

noncomputable section

open scoped BigOperators

namespace Cert.KPay

open Idealize.ShloMosaic Idealize.ShloMosaic.ValueIdx Cert.KernelIdeal Cert.KernelIdeal.Gen

/-- The first feed-forward kernel's stored value at `(r, c)` is the feed-forward row function of row `r` at channel `c`. -/
theorem k0_pay1_apply (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    k0_pay1 (F := Ideal) x0 x1 x2 x3 x4 x5 x6 x7 x8 (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold k0_pay1 Cert.Spec.ffnRow Cert.Spec.bn
  -- outer arithmetic: x + (((h · W2 + b2) - mean) * scale + beta), the four rows spread over the block read at c
  refine (congrArg₂ (· + ·) rfl
    (congrArg₂ (· + ·)
      (congrArg₂ (· * ·)
        (congrArg₂ (· - ·)
          (congrArg₂ (· + ·)
            (Cert.Lib.matmul_plain_zero_apply (M := 1024) (K := 512) (N := 128) none _ _ r c)
            (IdealLayout.broadcastTo_row_apply (a := 1024) (b := 128) _ shapeCasts_S128_S1x128 broadcasts_S1x128_S1024x128 r c))
          (IdealLayout.broadcastTo_row_apply (a := 1024) (b := 128) _ shapeCasts_S128_S1x128 broadcasts_S1x128_S1024x128 r c))
        (IdealLayout.broadcastTo_row_apply (a := 1024) (b := 128) _ shapeCasts_S128_S1x128 broadcasts_S1x128_S1024x128 r c))
      (IdealLayout.broadcastTo_row_apply (a := 1024) (b := 128) _ shapeCasts_S128_S1x128 broadcasts_S1x128_S1024x128 r c))).trans ?_
  -- casts to the same shape are the identity
  simp only [shapeCast_self]
  -- inner arithmetic: h = max (x · W1 + b1) 0; the scale, the rectifier's zero and the variance guard agree word for word
  exact congrArg₂ (· + ·) rfl
    (congrArg₂ (· + ·) (congrArg₂ (· * ·) (congrArg₂ (· - ·) (congrArg₂ (· + ·)
      (Finset.sum_congr rfl fun k _ => congrArg₂ (· * ·)
        (congrArg₂ max
          (congrArg₂ (· + ·)
            (Cert.Lib.matmul_plain_zero_apply (M := 1024) (K := 128) (N := 512) none _ _ r k)
            (IdealLayout.broadcastTo_row_apply (a := 1024) (b := 512) _ shapeCasts_S512_S1x512 broadcasts_S1x512_S1024x512 r k))
          rfl)
        rfl) rfl) rfl) rfl) rfl)

/-- The second feed-forward kernel's stored value at `(r, c)`. Its body is the first one's with more casts to the same
    shape, and its value is the composition of three parts: the row itself, the centred and scaled product, and the shift
    row. Composed they read as the same row function. -/
theorem k3_pay_apply (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    k3_pay1 (F := Ideal) (k3_pay2 x0) (k3_pay3 x0 x1 x2 x3 x4 x5 x7 x8) (k3_pay4 x6) (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold k3_pay1 k3_pay3 k3_pay4 k3_pay2 Cert.Spec.ffnRow Cert.Spec.bn
  -- outer arithmetic: x + (((h · W2 + b2) - mean) * scale + beta), the four rows spread over the block read at c
  refine (congrArg₂ (· + ·) rfl
    (congrArg₂ (· + ·)
      (congrArg₂ (· * ·)
        (congrArg₂ (· - ·)
          (congrArg₂ (· + ·)
            (Cert.Lib.matmul_plain_zero_apply (M := 1024) (K := 512) (N := 128) none _ _ r c)
            (IdealLayout.broadcastTo_row_apply (a := 1024) (b := 128) _ shapeCasts_S128_S1x128 broadcasts_S1x128_S1024x128 r c))
          (IdealLayout.broadcastTo_row_apply (a := 1024) (b := 128) _ shapeCasts_S128_S1x128 broadcasts_S1x128_S1024x128 r c))
        (IdealLayout.broadcastTo_row_apply (a := 1024) (b := 128) _ shapeCasts_S128_S1x128 broadcasts_S1x128_S1024x128 r c))
      (IdealLayout.broadcastTo_row_apply (a := 1024) (b := 128) _ shapeCasts_S128_S1x128 broadcasts_S1x128_S1024x128 r c))).trans ?_
  -- casts to the same shape are the identity
  simp only [shapeCast_self]
  -- inner arithmetic: h = max (x · W1 + b1) 0; the scale, the rectifier's zero and the variance guard agree word for word
  exact congrArg₂ (· + ·) rfl
    (congrArg₂ (· + ·) (congrArg₂ (· * ·) (congrArg₂ (· - ·) (congrArg₂ (· + ·)
      (Finset.sum_congr rfl fun k _ => congrArg₂ (· * ·)
        (congrArg₂ max
          (congrArg₂ (· + ·)
            (Cert.Lib.matmul_plain_zero_apply (M := 1024) (K := 128) (N := 512) none _ _ r k)
            (IdealLayout.broadcastTo_row_apply (a := 1024) (b := 512) _ shapeCasts_S512_S1x512 broadcasts_S1x512_S1024x512 r k))
          rfl)
        rfl) rfl) rfl) rfl) rfl)

/-- The third feed-forward kernel's stored value at `(r, c)`. Its body is the first one's with more casts to the same
    shape, and its value is the composition of three parts: the row itself, the centred and scaled product, and the shift
    row. Composed they read as the same row function. -/
theorem k6_pay_apply (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    k6_pay1 (F := Ideal) (k6_pay2 x0) (k6_pay3 x0 x1 x2 x3 x4 x5 x7 x8) (k6_pay4 x6) (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold k6_pay1 k6_pay3 k6_pay4 k6_pay2 Cert.Spec.ffnRow Cert.Spec.bn
  -- outer arithmetic: x + (((h · W2 + b2) - mean) * scale + beta), the four rows spread over the block read at c
  refine (congrArg₂ (· + ·) rfl
    (congrArg₂ (· + ·)
      (congrArg₂ (· * ·)
        (congrArg₂ (· - ·)
          (congrArg₂ (· + ·)
            (Cert.Lib.matmul_plain_zero_apply (M := 1024) (K := 512) (N := 128) none _ _ r c)
            (IdealLayout.broadcastTo_row_apply (a := 1024) (b := 128) _ shapeCasts_S128_S1x128 broadcasts_S1x128_S1024x128 r c))
          (IdealLayout.broadcastTo_row_apply (a := 1024) (b := 128) _ shapeCasts_S128_S1x128 broadcasts_S1x128_S1024x128 r c))
        (IdealLayout.broadcastTo_row_apply (a := 1024) (b := 128) _ shapeCasts_S128_S1x128 broadcasts_S1x128_S1024x128 r c))
      (IdealLayout.broadcastTo_row_apply (a := 1024) (b := 128) _ shapeCasts_S128_S1x128 broadcasts_S1x128_S1024x128 r c))).trans ?_
  -- casts to the same shape are the identity
  simp only [shapeCast_self]
  -- inner arithmetic: h = max (x · W1 + b1) 0; the scale, the rectifier's zero and the variance guard agree word for word
  exact congrArg₂ (· + ·) rfl
    (congrArg₂ (· + ·) (congrArg₂ (· * ·) (congrArg₂ (· - ·) (congrArg₂ (· + ·)
      (Finset.sum_congr rfl fun k _ => congrArg₂ (· * ·)
        (congrArg₂ max
          (congrArg₂ (· + ·)
            (Cert.Lib.matmul_plain_zero_apply (M := 1024) (K := 128) (N := 512) none _ _ r k)
            (IdealLayout.broadcastTo_row_apply (a := 1024) (b := 512) _ shapeCasts_S512_S1x512 broadcasts_S1x512_S1024x512 r k))
          rfl)
        rfl) rfl) rfl) rfl) rfl)

end Cert.KPay

end
-- ==== Proof.PayOut.lean ====
/-
  Each feed-forward and linear kernel's output block after its body, read at an index, at the exact (extended-real) instance.

  A body loads every operand block whole, computes one value and stores it over the whole output block. So the output block
  after the body is that value of the operand blocks, and read at row `r` and channel `c` it is the row function of the
  network's specification (`Cert.Spec.ffnRow`, `Cert.Spec.linRow`) applied to row `r` of the first operand.
-/
import proofs.«102175_j61538291417254_1_alg».proof.Proof.Gen.KernelIdeal.Frame
import proofs.«102175_j61538291417254_1_alg».proof.Proof.Spec
import proofs.«102175_j61538291417254_1_alg».proof.Proof.PayLin
import proofs.«102175_j61538291417254_1_alg».proof.Proof.PayFfn

noncomputable section

namespace Cert.KPay

open Idealize.ShloMosaic Idealize.ShloMosaic.ValueIdx Cert.KernelIdeal Cert.KernelIdeal.Gen

/-- The zero offset of a rank-1 rectangle. -/
theorem zeros1 : (![0] : Fin 1 → Nat) = fun _ => 0 := funext fun a => by fin_cases a; rfl
/-- The zero offsets of a rank-2 rectangle. -/
theorem zeros2 : (![0, 0] : Fin 2 → Nat) = fun _ => 0 := funext fun a => by fin_cases a <;> rfl

/-- The first feed-forward kernel's output block at `(r, c)` is the feed-forward row function of the operand blocks. -/
theorem pay0 (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    out0_9 (F := Ideal) x0 x1 x2 x3 x4 x5 x6 x7 x8 (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold out0_9
  -- the block's one store covers it whole, so the block after the body is that store's value
  rw [View.canon_unit_zero (S := S1024x128) zeros2]
  -- and each operand is loaded whole
  simp only [View.ld_unit_zero (S := S1024x128) zeros2, View.ld_unit_zero (S := S128x512) zeros2,
    View.ld_unit_zero (S := S512) zeros1, View.ld_unit_zero (S := S512x128) zeros2, View.ld_unit_zero (S := S128) zeros1]
  exact k0_pay1_apply x0 x1 x2 x3 x4 x5 x6 x7 x8 r c

/-- The first linear kernel's output block at `(r, c)` is the linear row function of the operand blocks. -/
theorem pay1 (x0 : Vec Ideal S1024x128 .f32) (x1 : Vec Ideal S128x128 .f32) (x2 : Vec Ideal S128 .f32)
    (r : Fin 1024) (c : Fin 128) :
    out1_3 (F := Ideal) x0 x1 x2 (ix2 r c)
      = Cert.Spec.linRow (fun j => x0 (ix2 r j)) (fun j c => x1 (ix2 j c)) (fun c => x2 (ix1 c)) c := by
  unfold out1_3
  -- the block's one store covers it whole, so the block after the body is that store's value
  rw [View.canon_unit_zero (S := S1024x128) zeros2]
  -- and each operand is loaded whole
  simp only [View.ld_unit_zero (S := S1024x128) zeros2, View.ld_unit_zero (S := S128x128) zeros2,
    View.ld_unit_zero (S := S128) zeros1]
  exact k1_pay1_apply x0 x1 x2 r c

/-- The second feed-forward kernel's output block at `(r, c)`. -/
theorem pay3 (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    out3_9 (F := Ideal) x0 x1 x2 x3 x4 x5 x6 x7 x8 (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold out3_9
  -- the block's one store covers it whole, so the block after the body is that store's value
  rw [View.canon_unit_zero (S := S1024x128) zeros2]
  -- and each operand is loaded whole
  simp only [View.ld_unit_zero (S := S1024x128) zeros2, View.ld_unit_zero (S := S128x512) zeros2,
    View.ld_unit_zero (S := S512) zeros1, View.ld_unit_zero (S := S512x128) zeros2, View.ld_unit_zero (S := S128) zeros1]
  exact k3_pay_apply x0 x1 x2 x3 x4 x5 x6 x7 x8 r c

/-- The second linear kernel's output block at `(r, c)`. -/
theorem pay4 (x0 : Vec Ideal S1024x128 .f32) (x1 : Vec Ideal S128x128 .f32) (x2 : Vec Ideal S128 .f32)
    (r : Fin 1024) (c : Fin 128) :
    out4_3 (F := Ideal) x0 x1 x2 (ix2 r c)
      = Cert.Spec.linRow (fun j => x0 (ix2 r j)) (fun j c => x1 (ix2 j c)) (fun c => x2 (ix1 c)) c := by
  unfold out4_3
  -- the block's one store covers it whole, so the block after the body is that store's value
  rw [View.canon_unit_zero (S := S1024x128) zeros2]
  -- and each operand is loaded whole
  simp only [View.ld_unit_zero (S := S1024x128) zeros2, View.ld_unit_zero (S := S128x128) zeros2,
    View.ld_unit_zero (S := S128) zeros1]
  exact k4_pay1_apply x0 x1 x2 r c

/-- The third feed-forward kernel's output block at `(r, c)`. -/
theorem pay6 (x0 : Vec Ideal S1024x128 .f32) (x1 : Vec Ideal S128x512 .f32) (x2 : Vec Ideal S512 .f32)
    (x3 : Vec Ideal S512x128 .f32) (x4 x5 x6 x7 x8 : Vec Ideal S128 .f32) (r : Fin 1024) (c : Fin 128) :
    out6_9 (F := Ideal) x0 x1 x2 x3 x4 x5 x6 x7 x8 (ix2 r c)
      = Cert.Spec.ffnRow (fun j => x0 (ix2 r j)) (fun j k => x1 (ix2 j k)) (fun k => x2 (ix1 k)) (fun k c => x3 (ix2 k c))
          (fun c => x4 (ix1 c)) (fun c => x5 (ix1 c)) (fun c => x6 (ix1 c)) (fun c => x7 (ix1 c)) (fun c => x8 (ix1 c)) c := by
  unfold out6_9
  -- the block's one store covers it whole, so the block after the body is that store's value
  rw [View.canon_unit_zero (S := S1024x128) zeros2]
  -- and each operand is loaded whole
  simp only [View.ld_unit_zero (S := S1024x128) zeros2, View.ld_unit_zero (S := S128x512) zeros2,
    View.ld_unit_zero (S := S512) zeros1, View.ld_unit_zero (S := S512x128) zeros2, View.ld_unit_zero (S := S128) zeros1]
  exact k6_pay_apply x0 x1 x2 x3 x4 x5 x6 x7 x8 r c

end Cert.KPay

end
-- ==== Proof.PayAgg.lean ====
/-
  The aggregation kernels' arithmetic read at an index, at the exact (extended-real) instance.

  Each of the two aggregation kernel bodies takes a block of 256 points: the activations x, the linear map's output h,
  the 16 gathered neighbour rows nb of every point, and four per-channel vectors.  It spreads each point's own row of h
  over its 16 neighbours, subtracts, takes the maximum over the neighbour axis starting from the minus-infinity word,
  applies the inference-mode batch norm per channel, and adds x.  Read at point p and channel c that is
  `Cert.Spec.aggPt` of the entries at (p, c): the casts to the same shape are the identity, the reshape-and-broadcast of
  h reads h at (p, c) whatever the neighbour, a per-channel vector reshaped and broadcast over the points reads the
  vector at c, and the maximum-reduce is the finite maximum over the 16 neighbours.
  The block a grid point writes back is one store of that value over the whole block, of operands loaded whole.
-/
import proofs.«102175_j61538291417254_1_alg».proof.Proof.Gen.KernelIdeal.Frame
import proofs.«102175_j61538291417254_1_alg».proof.Proof.Spec
import Idealize.ShloMosaic.Lib.Pipeline.Value
import Idealize.ShloMosaic.Lib.ValueIdx
import Idealize.ShloMosaic.PureOps.Ideal.Laws

noncomputable section

open scoped BigOperators

namespace Cert.KPay

open Idealize.ShloMosaic Idealize.ShloMosaic.ValueIdx Cert.KernelIdeal Cert.KernelIdeal.Gen

/-! ## Layout operations of the body, read at an index (any element type) -/

/-- A 128-channel vector reshaped to `[1, 1, 128]` and broadcast over the block's 256 points reads the vector at the channel. -/
theorem chanK_apply {α : Type} (v : S128.Idx → α) (z : Fin 1) (p : Fin 256) (c : Fin 128) :
    broadcastTo S1x256x128 (shapeCast S1x1x128 v shapeCasts_S128_S1x1x128) broadcasts_S1x1x128_S1x256x128 (ix3 z p c)
      = v (ix1 c) := by
  refine (broadcastTo_apply _ broadcasts_S1x1x128_S1x256x128 (ix3 z p c) (ix3 (0 : Fin 1) (0 : Fin 1) c) (fun x => ?_)).trans
    (shapeCast_apply v shapeCasts_S128_S1x1x128 _ (ix1 c) ?_)
  · match x with
    | ⟨0, _⟩ => show 0 = if (1 : Nat) = 1 then 0 else z.val; rw [if_pos rfl]
    | ⟨1, _⟩ => show 0 = if (1 : Nat) = 1 then 0 else p.val; rw [if_pos rfl]
    | ⟨2, _⟩ => show c.val = if (128 : Nat) = 1 then 0 else c.val; rw [if_neg (by decide)]
  · rw [Shape.rowMajor_val_one, Shape.rowMajor_val_three]
    show c.val = (0 * 1 + 0) * 128 + c.val
    omega

/-- A block of rows reshaped to `[1, 256, 1, 128]` and broadcast over the 16 neighbours reads the point's own row, whatever the neighbour. -/
theorem centreK_apply {α : Type} (h : S1x256x128.Idx → α) (z : Fin 1) (p : Fin 256) (k : Fin 16) (c : Fin 128) :
    broadcastTo S1x256x16x128 (shapeCast S1x256x1x128 h shapeCasts_S1x256x128_S1x256x1x128) broadcasts_S1x256x1x128_S1x256x16x128
        (ix4 z p k c)
      = h (ix3 z p c) := by
  have hz : z.val = 0 := by have := z.isLt; omega
  refine (broadcastTo_apply _ broadcasts_S1x256x1x128_S1x256x16x128 (ix4 z p k c) (ix4 z p (0 : Fin 1) c) (fun x => ?_)).trans
    (shapeCast_apply h shapeCasts_S1x256x128_S1x256x1x128 _ (ix3 z p c) ?_)
  · match x with
    | ⟨0, _⟩ => show z.val = if (1 : Nat) = 1 then 0 else z.val; rw [if_pos rfl]; exact hz
    | ⟨1, _⟩ => show p.val = if (256 : Nat) = 1 then 0 else p.val; rw [if_neg (by decide)]
    | ⟨2, _⟩ => show 0 = if (1 : Nat) = 1 then 0 else k.val; rw [if_pos rfl]
    | ⟨3, _⟩ => show c.val = if (128 : Nat) = 1 then 0 else c.val; rw [if_neg (by decide)]
  · rw [Shape.rowMajor_val_three, Shape.rowMajor_val_four]
    show (z.val * 256 + p.val) * 128 + c.val = ((z.val * 256 + p.val) * 1 + 0) * 128 + c.val
    omega

/-- The source index over (z, p, c) with neighbour k inserted on the reduced axis. -/
theorem liftK_eq (j : S1x256x128.Idx) (k : Fin 16) :
    reduces_S1x256x16x128_S1x256x128.lift j k = ix4 (j 0) (j 1) k (j 2) := by
  funext x
  refine Fin.ext ?_
  match x with
  | ⟨0, _⟩ => rfl
  | ⟨1, _⟩ => rfl
  | ⟨2, _⟩ => rfl
  | ⟨3, _⟩ => rfl

/-! ## The body at an index (the exact instance) -/

/-- The maximum-reduce over the neighbour axis, from the minus-infinity word, is the finite maximum over the 16 neighbours. -/
theorem reduceK_apply (Y : FVec Ideal S1x256x16x128 .f32) (j : S1x256x128.Idx) :
    multiReduction (F := Ideal) .maximumf [2] S1x256x128 Y 0xFF800000#32 reduces_S1x256x16x128_S1x256x128 (.inl rfl) rfl j
      = (Finset.univ : Finset (Fin 16)).fold max Cert.Spec.negInfW (fun k => Y (ix4 (j 0) (j 1) k (j 2))) := by
  refine (Ideal.multiReduction_maximumf_single Y _ reduces_S1x256x16x128_S1x256x128 (.inl rfl) rfl j).trans ?_
  show (Finset.univ : Finset (Fin 16)).fold max Cert.Spec.negInfW (fun k => Y (reduces_S1x256x16x128_S1x256x128.lift j k)) = _
  exact congrArg (fun f => (Finset.univ : Finset (Fin 16)).fold max Cert.Spec.negInfW f)
    (funext fun k => congrArg Y (liftK_eq j k))

/-- The first aggregation kernel's stored value at (0, p, c) is the edge aggregation of the entries at that point and channel. -/
theorem k2_pay1_apply (x0 x1 : Vec Ideal S1x256x128 .f32) (x2 : Vec Ideal S1x256x16x128 .f32) (x3 x4 x5 x6 : Vec Ideal S128 .f32)
    (p : Fin 256) (c : Fin 128) :
    k2_pay1 (F := Ideal) x0 x1 x2 x3 x4 x5 x6 (ix3 (0 : Fin 1) p c)
      = Cert.Spec.aggPt (x0 (ix3 (0 : Fin 1) p c)) (x1 (ix3 (0 : Fin 1) p c)) (fun k => x2 (ix4 (0 : Fin 1) p k c))
          (x3 (ix1 c)) (x4 (ix1 c)) (x5 (ix1 c)) (x6 (ix1 c)) := by
  unfold k2_pay1 Cert.Spec.aggPt Cert.Spec.bn
  -- the casts to the same shape are the identity
  simp only [shapeCast_self]
  -- every other operation acts entry by entry: a spread vector reads its channel, the reduce is the maximum over the neighbours
  rw [addf_apply, addf_apply, mulf_apply, subf_apply, chanK_apply, chanK_apply, chanK_apply, reduceK_apply, mulf_apply]
  refine congrArg (fun s => x0 (ix3 (0 : Fin 1) p c) + ((s - x5 (ix1 c)) * (x3 (ix1 c) * Ideal.rsqrt (x6 (ix1 c) + Cert.Spec.eps)) + x4 (ix1 c))) ?_
  refine congrArg (fun f => (Finset.univ : Finset (Fin 16)).fold max Cert.Spec.negInfW f) (funext fun k => ?_)
  rw [subf_apply, centreK_apply]

/-- The second aggregation kernel has the same body, so the same reading. -/
theorem k5_pay1_apply (x0 x1 : Vec Ideal S1x256x128 .f32) (x2 : Vec Ideal S1x256x16x128 .f32) (x3 x4 x5 x6 : Vec Ideal S128 .f32)
    (p : Fin 256) (c : Fin 128) :
    k5_pay1 (F := Ideal) x0 x1 x2 x3 x4 x5 x6 (ix3 (0 : Fin 1) p c)
      = Cert.Spec.aggPt (x0 (ix3 (0 : Fin 1) p c)) (x1 (ix3 (0 : Fin 1) p c)) (fun k => x2 (ix4 (0 : Fin 1) p k c))
          (x3 (ix1 c)) (x4 (ix1 c)) (x5 (ix1 c)) (x6 (ix1 c)) :=
  k2_pay1_apply x0 x1 x2 x3 x4 x5 x6 p c

/-! ## What a grid point writes back -/

/-- The zero offsets of the rectangles the bodies load and store through. -/
theorem offsets1 : (![0] : Fin 1 → Nat) = fun _ => 0 := funext fun a => by fin_cases a <;> rfl
theorem offsets3 : (![0, 0, 0] : Fin 3 → Nat) = fun _ => 0 := funext fun a => by fin_cases a <;> rfl
theorem offsets4 : (![0, 0, 0, 0] : Fin 4 → Nat) = fun _ => 0 := funext fun a => by fin_cases a <;> rfl

/-- The block written back by a point of the first aggregation region is the body's value of the blocks loaded whole. -/
theorem out2_7_eq (x0 x1 : Vec Ideal S1x256x128 .f32) (x2 : Vec Ideal S1x256x16x128 .f32) (x3 x4 x5 x6 : Vec Ideal S128 .f32) :
    out2_7 (F := Ideal) x0 x1 x2 x3 x4 x5 x6 = k2_pay1 (F := Ideal) x0 x1 x2 x3 x4 x5 x6 := by
  have e0 : ∀ X : Vec Ideal S1x256x128 .f32, View.ld X r2_0 = X := fun X => View.ld_unit_zero offsets3 _ X
  have e1 : ∀ X : Vec Ideal S1x256x16x128 .f32, View.ld X r2_1 = X := fun X => View.ld_unit_zero offsets4 _ X
  have e2 : ∀ X : Vec Ideal S128 .f32, View.ld X r2_2 = X := fun X => View.ld_unit_zero offsets1 _ X
  unfold out2_7
  rw [e0, e0, e1, e2, e2, e2, e2]
  exact View.canon_unit_zero offsets3 _ _

/-- The same for the second aggregation region. -/
theorem out5_7_eq (x0 x1 : Vec Ideal S1x256x128 .f32) (x2 : Vec Ideal S1x256x16x128 .f32) (x3 x4 x5 x6 : Vec Ideal S128 .f32) :
    out5_7 (F := Ideal) x0 x1 x2 x3 x4 x5 x6 = k5_pay1 (F := Ideal) x0 x1 x2 x3 x4 x5 x6 := by
  have e0 : ∀ X : Vec Ideal S1x256x128 .f32, View.ld X r5_0 = X := fun X => View.ld_unit_zero offsets3 _ X
  have e1 : ∀ X : Vec Ideal S1x256x16x128 .f32, View.ld X r5_1 = X := fun X => View.ld_unit_zero offsets4 _ X
  have e2 : ∀ X : Vec Ideal S128 .f32, View.ld X r5_2 = X := fun X => View.ld_unit_zero offsets1 _ X
  unfold out5_7
  rw [e0, e0, e1, e2, e2, e2, e2]
  exact View.canon_unit_zero offsets3 _ _

/-- Region 2: the body's output block read at (0, p, c) is the aggregation of the input blocks at that point and channel. -/
theorem pay2 :
    ∀ (x0 x1 : Vec Ideal S1x256x128 .f32) (x2 : Vec Ideal S1x256x16x128 .f32) (x3 x4 x5 x6 : Vec Ideal S128 .f32)
      (p : Fin 256) (c : Fin 128),
      out2_7 (F := Ideal) x0 x1 x2 x3 x4 x5 x6 (ix3 (0 : Fin 1) p c)
        = Cert.Spec.aggPt (x0 (ix3 (0 : Fin 1) p c)) (x1 (ix3 (0 : Fin 1) p c)) (fun k => x2 (ix4 (0 : Fin 1) p k c))
            (x3 (ix1 c)) (x4 (ix1 c)) (x5 (ix1 c)) (x6 (ix1 c)) :=
  fun x0 x1 x2 x3 x4 x5 x6 p c => (congrFun (out2_7_eq x0 x1 x2 x3 x4 x5 x6) _).trans (k2_pay1_apply x0 x1 x2 x3 x4 x5 x6 p c)

/-- Region 5: the same. -/
theorem pay5 :
    ∀ (x0 x1 : Vec Ideal S1x256x128 .f32) (x2 : Vec Ideal S1x256x16x128 .f32) (x3 x4 x5 x6 : Vec Ideal S128 .f32)
      (p : Fin 256) (c : Fin 128),
      out5_7 (F := Ideal) x0 x1 x2 x3 x4 x5 x6 (ix3 (0 : Fin 1) p c)
        = Cert.Spec.aggPt (x0 (ix3 (0 : Fin 1) p c)) (x1 (ix3 (0 : Fin 1) p c)) (fun k => x2 (ix4 (0 : Fin 1) p k c))
            (x3 (ix1 c)) (x4 (ix1 c)) (x5 (ix1 c)) (x6 (ix1 c)) :=
  fun x0 x1 x2 x3 x4 x5 x6 p c => (congrFun (out5_7_eq x0 x1 x2 x3 x4 x5 x6) _).trans (k5_pay1_apply x0 x1 x2 x3 x4 x5 x6 p c)

end Cert.KPay

end
-- ==== Proof.PayAll.lean ====
/-
  What each of the seven regions' bodies computes, read at an index, gathered in one place: the three
  feed-forward bodies and the two linear bodies on a row and a channel of a block of flat rows, the two
  aggregation bodies on a point and a channel of a block of points.
-/
import proofs.«102175_j61538291417254_1_alg».proof.Proof.PayOut
import proofs.«102175_j61538291417254_1_alg».proof.Proof.PayAgg
import proofs.«102175_j61538291417254_1_alg».proof.Proof.Chain0

noncomputable section

namespace Cert.KPay

/-- One fact per region, in the regions' order. -/
theorem pays : Cert.KernelIdeal.Chain.Pays := ⟨pay0, pay1, pay2, pay3, pay4, pay5, pay6⟩

end Cert.KPay

end
-- ==== Proof.lean ====
/-
  One residual block of a point-cloud network, as a tiled TPU program and as plain array code: the two idealized
  programs compute the same extended reals.

  On activations [8, 4096, 128] both programs compute a feed-forward stage x + bn (relu (x · W1 + b1) · W2 + b2)
  and then, twice, a linear map h = x · W + b, an edge aggregation x + bn (max over the 16 neighbours of
  (h[neighbour] - h)) and another feed-forward stage, bn being an inference-mode batch norm per channel.  The
  kernel program runs each stage as a tiled region on flat rows or on blocks of 256 points, with the matrix
  products on half-precision copies of their operands; the reference is einsums and a reduce over the neighbour
  axis.  At the ideal instance a change of float format is the identity, a matrix product is the finite sum of
  products over the contracted channel and a running maximum is a finite maximum, so every stage of the kernel,
  block by block, is the same function of its arrays as the reference's stage: Proof/Spec.lean states that
  function once.  The equality uses only the order-free meaning of a finite sum and a finite maximum — no
  distributivity, no cancellation — so the finiteness of the inputs is not needed for it.  The gather of the
  neighbour rows is one and the same operation in both programs and is never opened.

  The kernel side: the run with its final memory named (Proof/KernelRun.lean), the arguments through the
  fold of segment boundaries (Proof/Fold.lean), each region's output array as one function of its arrays
  (Proof/Reg0.lean … Reg6.lean, over the bodies read at an index: Proof/PayLin.lean, PayFfn.lean, PayAgg.lean,
  PayOut.lean), the boundaries read in order
  (Proof/Chain0.lean … Chain3.lean), and the run re-posted (Proof/KernelValue.lean).  The reference side:
  its stages read at an index (Proof/RefStages.lean), its run's term as the specification (Proof/RefNet.lean,
  Proof/RefRun.lean).  The three frames are the generated ones; the idealization rewrote nothing, so there is
  nothing to preserve.
-/
import proofs.«102175_j61538291417254_1_alg».proof.Defs
import proofs.«102175_j61538291417254_1_alg».proof.Proof.Gen.Kernel
import proofs.«102175_j61538291417254_1_alg».proof.Proof.Gen.Kernel.Skeleton
import proofs.«102175_j61538291417254_1_alg».proof.Proof.Gen.Kernel.Launch
import proofs.«102175_j61538291417254_1_alg».proof.Proof.Gen.Kernel.Points
import proofs.«102175_j61538291417254_1_alg».proof.Proof.Gen.Kernel.Frame
import proofs.«102175_j61538291417254_1_alg».proof.Proof.Gen.KernelIdeal
import proofs.«102175_j61538291417254_1_alg».proof.Proof.Gen.KernelIdeal.Skeleton
import proofs.«102175_j61538291417254_1_alg».proof.Proof.Gen.KernelIdeal.Launch
import proofs.«102175_j61538291417254_1_alg».proof.Proof.Gen.KernelIdeal.Points
import proofs.«102175_j61538291417254_1_alg».proof.Proof.Gen.KernelIdeal.Frame
import proofs.«102175_j61538291417254_1_alg».proof.Proof.Gen.ReferenceIdeal
import proofs.«102175_j61538291417254_1_alg».proof.Proof.Gen.ReferenceIdeal.Run
import proofs.«102175_j61538291417254_1_alg».proof.Proof.Gen.ReferenceIdeal.Read
import proofs.«102175_j61538291417254_1_alg».proof.Proof.Gen.Pre_finite_inputs
import proofs.«102175_j61538291417254_1_alg».proof.Proof.KernelValue
import proofs.«102175_j61538291417254_1_alg».proof.Proof.RefRun
import proofs.«102175_j61538291417254_1_alg».proof.Proof.PayAll
import Idealize.ShloMosaic.Adequacy
import Idealize.ShloMosaic.Init

set_option maxRecDepth 16384

noncomputable section

namespace Cert.Proof

open Idealize.ShloMosaic Idealize.SL.Sem

/-- The word-level kernel runs to the end without a fault and leaves its arguments as launched. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The two programs fetch the neighbour rows by one and the same operation. -/
theorem gat_eq (idx : (⟨Cert.KernelIdeal.S8x4096x16, .i32⟩ : BufTy).Contents (Elt Ideal)) :
    Cert.RefStages.gatH (F := Ideal) idx = Cert.KernelIdeal.Chain.gatK idx := rfl

set_option maxHeartbeats 4000000 in
/-- From memories that agree on the arguments both idealized programs end with the network of the arguments in
    their result buffers: the kernel's run and the reference's run, each re-posted at the specification, and the
    two gathers one operation. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Value.run Cert.KPay.pays m ρ, ?_⟩
  refine (θ_run Cert.ReferenceIdeal.defs _ _).mono (fun r h c => ⟨(h c).1.trans ?_, (h c).2⟩)
    (Cert.RefStages.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
  rw [gat_eq]

theorem claim : Cert.Claim :=
  ⟨Cert.Kernel.Gen.facts, Cert.KernelIdeal.Gen.facts, Cert.ReferenceIdeal.Gen.facts, Cert.Pre_finite_inputs.Gen.facts,
    frame_k, frame_ki, Cert.RefStages.frame_ri, trivial, algebraic⟩

end Cert.Proof

end
